-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S512x512 : Shape := ⟨2, ![512, 512]⟩
abbrev S512 : Shape := ⟨1, ![512]⟩
abbrev S1 : Shape := ⟨1, ![1]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S1 .f32) (main_arg13 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S1 .f32) (main_arg13 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S1 .f32) (main_arg13 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8x8192x512 .f32) (main_arg1 : FVec F S8x8192x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S1 .f32) (main_arg13 : FVec F S1 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x8192x512 : Shape := ⟨3, ![8, 8192, 512]⟩
abbrev S512x512 : Shape := ⟨2, ![512, 512]⟩
abbrev S512 : Shape := ⟨1, ![512]⟩
abbrev S1 : Shape := ⟨1, ![1]⟩
abbrev S65536x512 : Shape := ⟨2, ![65536, 512]⟩
abbrev S1x512 : Shape := ⟨2, ![1, 512]⟩
abbrev S2x512x512 : Shape := ⟨3, ![2, 512, 512]⟩
abbrev S1024x512 : Shape := ⟨2, ![1024, 512]⟩
abbrev S1x512x512 : Shape := ⟨3, ![1, 512, 512]⟩
abbrev S1024 : Shape := ⟨1, ![1024]⟩
abbrev S1024x1 : Shape := ⟨2, ![1024, 1]⟩
abbrev S_ : Shape := ⟨0, ![]⟩

abbrev nBuf : Space → Nat
  | .hbm => 54
  | .vmem => 25
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1, .f32⟩
  | .hbm, ⟨13, _⟩ => ⟨S1, .f32⟩
  | .hbm, ⟨14, _⟩ => ⟨S65536x512, .f32⟩
  | .hbm, ⟨15, _⟩ => ⟨S65536x512, .f32⟩
  | .hbm, ⟨16, _⟩ => ⟨S512x512, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .bf16⟩
  | .hbm, ⟨24, _⟩ => ⟨S512x512, .f32⟩
  | .hbm, ⟨25, _⟩ => ⟨S512x512, .bf16⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S65536x512, .bf16⟩
  | .hbm, ⟨32, _⟩ => ⟨S2x512x512, .f32⟩
  | .hbm, ⟨33, _⟩ => ⟨S1x512x512, .f32⟩
  | .hbm, ⟨34, _⟩ => ⟨S512x512, .f32⟩
  | .hbm, ⟨35, _⟩ => ⟨S1x512x512, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S65536x512, .f32⟩
  | .hbm, ⟨53, _⟩ => ⟨S8x8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1x512x512, .f32⟩
  | .local _ .vmem, ⟨15, _⟩ => ⟨S1x512x512, .f32⟩
  | .local _ .vmem, ⟨16, _⟩ => ⟨S512x512, .f32⟩
  | .local _ .vmem, ⟨17, _⟩ => ⟨S1024x512, .bf16⟩
  | .local _ .vmem, ⟨18, _⟩ => ⟨S1024x512, .bf16⟩
  | .local _ .vmem, ⟨19, _⟩ => ⟨S512x512, .bf16⟩
  | .local _ .vmem, ⟨20, _⟩ => ⟨S1x512, .f32⟩
  | .local _ .vmem, ⟨21, _⟩ => ⟨S512x512, .bf16⟩
  | .local _ .vmem, ⟨22, _⟩ => ⟨S1x512, .f32⟩
  | .local _ .vmem, ⟨23, _⟩ => ⟨S1024x512, .f32⟩
  | .local _ .vmem, ⟨24, _⟩ => ⟨S1024x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v73 : BitVec 1 := Scalar.cmpi .eq arg1 c31_i32
  let v74 : BitVec 32 := Scalar.extui v73
  let c0_i32_35 : BitVec 32 := 0#32
  let v75 : BitVec 1 := Scalar.cmpi .ne v74 c0_i32_35
  v75

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x8192x512_S65536x512 : S8x8192x512.ShapeCasts S65536x512
  transposes_S512x512_S512x512_1_0 : S512x512.Transposes [1, 0] S512x512
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  slices_S2x512x512_S1x512x512_0_0_0 : S2x512x512.Slices ![0, 0, 0] S1x512x512
  slices_S2x512x512_S1x512x512_1_0_0 : S2x512x512.Slices ![1, 0, 0] S1x512x512
  bcast_S_S512x512 : S_.BroadcastsInDim S512x512 (![] : Fin 0 → Fin S512x512.rank)
  shapeCasts_S1_S_ : S1.ShapeCasts S_
  shapeCasts_S65536x512_S8x8192x512 : S65536x512.ShapeCasts S8x8192x512
  dot_S1024x512_S512x512_S1024x512_1_0_0_1_n_n_wf : DotDims.WF S1024x512 S512x512 S1024x512 [1] [0] [0] [1] [] []
  dot_S1024x512_S1024x512_S512x512_0_0_1_1_n_n_wf : DotDims.WF S1024x512 S1024x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S65536x512.size a
  hwx0_10 : ∀ i : grid0.Coords, EltTy.bits .bf16 = 32 ∨ (Rect.block (s := S65536x512) S1024x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x512.size a ≤ S2x512x512.size a
  hwx0_11 : ∀ i : grid0.Coords, EltTy.bits .f32 = 32 ∨ (Rect.block (s := S2x512x512) S1x512x512.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S65536x512.size a
  hwx1_0 : ∀ i : grid1.Coords, EltTy.bits .bf16 = 32 ∨ (Rect.block (s := S65536x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S65536x512.size a
  hwx1_5 : ∀ i : grid1.Coords, EltTy.bits .f32 = 32 ∨ (Rect.block (s := S65536x512) S1024x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17_1) S1x512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

abbrev win1_0 : Pipeline.Window sig grid1 :=
  Pipeline.Window.ofSpec (Memref.whole main_v17_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x8192x512 : Shape := ⟨3, ![8, 8192, 512]⟩
abbrev S512x512 : Shape := ⟨2, ![512, 512]⟩
abbrev S512 : Shape := ⟨1, ![512]⟩
abbrev S1 : Shape := ⟨1, ![1]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S512x65536 : Shape := ⟨2, ![512, 65536]⟩

abbrev nBuf : Space → Nat
  | .hbm => 105
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1, .f32⟩
  | .hbm, ⟨13, _⟩ => ⟨S1, .f32⟩
  | .hbm, ⟨14, _⟩ => ⟨S65536x512, .f32⟩
  | .hbm, ⟨15, _⟩ => ⟨S65536x512, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x512, .f32⟩
  | .hbm, ⟨35, _⟩ => ⟨S65536x512, .f32⟩
  | .hbm, ⟨36, _⟩ => ⟨S512x512, .f32⟩
  | .hbm, ⟨37, _⟩ => ⟨S65536x512, .f32⟩
  | .hbm, ⟨38, _⟩ => ⟨S1x512, .f32⟩
  | .hbm, ⟨39, _⟩ => ⟨S65536x512, .f32⟩
  | .hbm, ⟨40, _⟩ => ⟨S65536x512, .f32⟩
  | .hbm, ⟨41, _⟩ => ⟨S512x512, .f32⟩
  | .hbm, ⟨42, _⟩ => ⟨S65536x512, .f32⟩
  | .hbm, ⟨43, _⟩ => ⟨S1x512, .f32⟩
  | .hbm, ⟨44, _⟩ => ⟨S65536x512, .f32⟩
  | .hbm, ⟨45, _⟩ => ⟨S65536x512, .f32⟩
  | .hbm, ⟨46, _⟩ => ⟨S512x512, .f32⟩
  | .hbm, ⟨47, _⟩ => ⟨S65536x512, .f32⟩
  | .hbm, ⟨48, _⟩ => ⟨S1x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S65536x512, .f32⟩
  | .hbm, ⟨53, _⟩ => ⟨S_, .f32⟩
  | .hbm, ⟨54, _⟩ => ⟨S65536x512, .f32⟩
  | .hbm, ⟨55, _⟩ => ⟨S65536x512, .f32⟩
  | .hbm, ⟨56, _⟩ => ⟨S_, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S512x512, .f32⟩
  | .hbm, ⟨61, _⟩ => ⟨S65536x512, .f32⟩
  | .hbm, ⟨62, _⟩ => ⟨S1x512, .f32⟩
  | .hbm, ⟨63, _⟩ => ⟨S65536x512, .f32⟩
  | .hbm, ⟨64, _⟩ => ⟨S65536x512, .f32⟩
  | .hbm, ⟨65, _⟩ => ⟨S65536x512, .f32⟩
  | .hbm, ⟨66, _⟩ => ⟨S65536x512, .f32⟩
  | .hbm, ⟨67, _⟩ => ⟨S_, .f32⟩
  | .hbm, ⟨68, _⟩ => ⟨S65536x512, .f32⟩
  | .hbm, ⟨69, _⟩ => ⟨S65536x512, .f32⟩
  | .hbm, ⟨70, _⟩ => ⟨S_, .f32⟩
  | .hbm, ⟨71, _⟩ => ⟨S65536x512, .f32⟩
  | .hbm, ⟨72, _⟩ => ⟨S65536x512, .f32⟩
  | .hbm, ⟨73, _⟩ => ⟨S65536x512, .f32⟩
  | .hbm, ⟨74, _⟩ => ⟨S512x512, .f32⟩
  | .hbm, ⟨75, _⟩ => ⟨S65536x512, .f32⟩
  | .hbm, ⟨76, _⟩ => ⟨S1x512, .f32⟩
  | .hbm, ⟨77, _⟩ => ⟨S65536x512, .f32⟩
  | .hbm, ⟨78, _⟩ => ⟨S65536x512, .f32⟩
  | .hbm, ⟨79, _⟩ => ⟨S65536x512, .f32⟩
  | .hbm, ⟨80, _⟩ => ⟨S512x65536, .f32⟩
  | .hbm, ⟨81, _⟩ => ⟨S512x512, .f32⟩
  | .hbm, ⟨82, _⟩ => ⟨S_, .f32⟩
  | .hbm, ⟨83, _⟩ => ⟨S512x512, .f32⟩
  | .hbm, ⟨84, _⟩ => ⟨S512x512, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S512x512, .f32⟩
  | .hbm, ⟨89, _⟩ => ⟨S512x512, .f32⟩
  | .hbm, ⟨90, _⟩ => ⟨S_, .f32⟩
  | .hbm, ⟨91, _⟩ => ⟨S512x512, .f32⟩
  | .hbm, ⟨92, _⟩ => ⟨S512x512, .f32⟩
  | .hbm, ⟨93, _⟩ => ⟨S512x512, .f32⟩
  | .hbm, ⟨94, _⟩ => ⟨S512x512, .f32⟩
  | .hbm, ⟨95, _⟩ => ⟨S65536x512, .f32⟩
  | .hbm, ⟨96, _⟩ => ⟨S1x512, .f32⟩
  | .hbm, ⟨97, _⟩ => ⟨S65536x512, .f32⟩
  | .hbm, ⟨98, _⟩ => ⟨S65536x512, .f32⟩
  | .hbm, ⟨99, _⟩ => ⟨S512x512, .f32⟩
  | .hbm, ⟨100, _⟩ => ⟨S65536x512, .f32⟩
  | .hbm, ⟨101, _⟩ => ⟨S1x512, .f32⟩
  | .hbm, ⟨102, _⟩ => ⟨S65536x512, .f32⟩
  | .hbm, ⟨103, _⟩ => ⟨S65536x512, .f32⟩
  | .hbm, ⟨104, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_1 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩

abbrev nD : Nat := 1
abbrev τ : Topo := Topo.v7x

variable {F : FTy → Type} [FloatOps F]

class Facts₀ : Prop where
  shapeCasts_S8x8192x512_S65536x512 : S8x8192x512.ShapeCasts S65536x512
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S65536x512_S512x65536_1_0 : S65536x512.Transposes [1, 0] S512x65536
  bcast_S_S512x512 : S_.BroadcastsInDim S512x512 (![] : Fin 0 → Fin S512x512.rank)
  shapeCasts_S1_S_ : S1.ShapeCasts S_
  shapeCasts_S65536x512_S8x8192x512 : S65536x512.ShapeCasts S8x8192x512
  dot_S65536x512_S512x512_S65536x512_1_0_0_1_n_n_wf : DotDims.WF S65536x512 S512x512 S65536x512 [1] [0] [0] [1] [] []
  dot_S512x65536_S65536x512_S512x512_1_0_0_1_n_n_wf : DotDims.WF S512x65536 S65536x512 S512x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf

class Facts : Prop extends Facts₀ where

variable [Facts]
-- ==== Proof.RegionA0.lean ====
/- The first kernel region (the pipeline that runs `cc0__kernel1` over its 2 × 32 grid points): the windows'
   blocks and what the body finds in its ten input windows.

   Stated at a parameter `V`, the TensorCore's buffer contents when the region is entered:
   * `blkA`       — a window's block at a point, read off its array in `V`;
   * `foundA_k_of` — for each input window `k = 0 … 9`: its current staging buffer holds its block at every
     point, whether the block was copied in at that point or at an earlier one, for any proof data whose array
     is `V`'s and whose body leaves the block in place;
   * `liveA`       — windows 0 … 10 are in use at every grid point (only window 11 has points at which it
     is not). -/
import proofs.«106201_j36953898615485_1_alg».proof.Proof.Gen.KernelIdeal.Launch
import proofs.«106201_j36953898615485_1_alg».proof.Proof.Gen.KernelIdeal.Skeleton
import proofs.«106201_j36953898615485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input window's buffer

An input the pipeline does not copy in again at a point has not moved its block index there, so the block already
in its staging buffer is this point's: whether copied in at the point or earlier, the buffer holds the window's
block. One lemma per input window, each for ANY proof data whose array is `V`'s (`hA`) and whose body leaves
the block in place (`hafter`). -/

theorem foundA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

theorem foundA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

theorem foundA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

theorem foundA_3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)

theorem foundA_4_of {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)

theorem foundA_5_of {c : Dev nD} (dat : Dat τ (Elt F) Unit ℕ (UR sig nD τ) ℕ cfg0 c) (hA : dat.A 5 = V c (Pipeline.arrRef spec0 5))
    (hafter : ∀ t, dat.after 5 t = blkA V c 5 t) (t : Fin cfg0.N) (d) : dat.before 5 t d = blkA V c 5 t :=
  (dat.before_in_eq_fetched 5 rfl (fun _ => rfl) (fun _ _ _ => rfl) (fun t => by rw [hafter]; unfold Dat.blockOf blkA; rw [hA]; try rfl) t d).trans
    (by unfold Dat.fetched Dat.blockOf blkA; rw [hA]; try rfl)

theorem foundA_6_of {c : Dev nD} (dat : Dat τ (Elt F) Unit ℕ (UR sig nD τ) ℕ cfg0 c) (hA : dat.A 6 = V c (Pipeline.arrRef spec0 6))
    (hafter : ∀ t, dat.after 6 t = blkA V c 6 t) (t : Fin cfg0.N) (d) : dat.before 6 t d = blkA V c 6 t :=
  (dat.before_in_eq_fetched 6 rfl (fun _ => rfl) (fun _ _ _ => rfl) (fun t => by rw [hafter]; unfold Dat.blockOf blkA; rw [hA]; try rfl) t d).trans
    (by unfold Dat.fetched Dat.blockOf blkA; rw [hA]; try rfl)

theorem foundA_7_of {c : Dev nD} (dat : Dat τ (Elt F) Unit ℕ (UR sig nD τ) ℕ cfg0 c) (hA : dat.A 7 = V c (Pipeline.arrRef spec0 7))
    (hafter : ∀ t, dat.after 7 t = blkA V c 7 t) (t : Fin cfg0.N) (d) : dat.before 7 t d = blkA V c 7 t :=
  (dat.before_in_eq_fetched 7 rfl (fun _ => rfl) (fun _ _ _ => rfl) (fun t => by rw [hafter]; unfold Dat.blockOf blkA; rw [hA]; try rfl) t d).trans
    (by unfold Dat.fetched Dat.blockOf blkA; rw [hA]; try rfl)

theorem foundA_8_of {c : Dev nD} (dat : Dat τ (Elt F) Unit ℕ (UR sig nD τ) ℕ cfg0 c) (hA : dat.A 8 = V c (Pipeline.arrRef spec0 8))
    (hafter : ∀ t, dat.after 8 t = blkA V c 8 t) (t : Fin cfg0.N) (d) : dat.before 8 t d = blkA V c 8 t :=
  (dat.before_in_eq_fetched 8 rfl (fun _ => rfl) (fun _ _ _ => rfl) (fun t => by rw [hafter]; unfold Dat.blockOf blkA; rw [hA]; try rfl) t d).trans
    (by unfold Dat.fetched Dat.blockOf blkA; rw [hA]; try rfl)

theorem foundA_9_of {c : Dev nD} (dat : Dat τ (Elt F) Unit ℕ (UR sig nD τ) ℕ cfg0 c) (hA : dat.A 9 = V c (Pipeline.arrRef spec0 9))
    (hafter : ∀ t, dat.after 9 t = blkA V c 9 t) (t : Fin cfg0.N) (d) : dat.before 9 t d = blkA V c 9 t :=
  (dat.before_in_eq_fetched 9 rfl (fun _ => rfl) (fun _ _ _ => rfl) (fun t => by rw [hafter]; unfold Dat.blockOf blkA; rw [hA]; try rfl) t d).trans
    (by unfold Dat.fetched Dat.blockOf blkA; rw [hA]; try rfl)

/-! ## Which windows are in use at every point -/

/-- Windows 0 … 10 are in use at every grid point: the pipeline never skips their copies. -/
theorem liveA (w : Fin cfg0.W) (hw : w.val ≤ 10) (i : grid0.Coords) : cfg0.idle w i = false :=
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨n + 11, _⟩, h => absurd h (by show ¬ (n + 11 ≤ 10); omega)

end Cert.KernelIdeal.Hand

end
-- ==== Proof.RegionA1a.lean ====
import proofs.«106201_j36953898615485_1_alg».proof.Proof.Gen.KernelIdeal.Launch
import proofs.«106201_j36953898615485_1_alg».proof.Proof.Gen.KernelIdeal.Skeleton
import proofs.«106201_j36953898615485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's body, case by case

The body tests two conditions on the second grid coordinate: "first step of a core's sweep" (the accumulator is zeroed
before use) and "last step" (the accumulator is copied to the gradient output). No point satisfies both. -/

/-- "This is the first step of the sweep": the second grid coordinate is 0. -/
abbrev cond1 (i : grid0.Coords) : Prop := (Scalar.cmpi .ne (Scalar.extui (Scalar.cmpi .eq (BitVec.ofNat 32 (i 1).val) 0#32)) 0#32) = 1#1
/-- "This is the last step of the sweep": the second grid coordinate is 31. -/
abbrev cond2 (i : grid0.Coords) : Prop := k0_cond2 i = 1#1

/-- The key-feature block the body stores: a function of the key block and the first three layers' weights. -/
def featB (x0 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32)  : Vec F S1024x512 .bf16 :=
  k0_pay9 (k0_pay5 x0 w2 b3) (k0_pay7 w4) b5 w6 b7

/-- The accumulator after a step: what it held plus this block's contribution (residualᵀ · feature). -/
def accB (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32) (a : Vec F S512x512 .f32) : Vec F S512x512 .f32 :=
  k0_pay10 (k0_pay5 x0 w2 b3) (k0_pay6 x1 w2 b3) (k0_pay7 w4) b5 w6 b7 w8 b9 a

theorem hz2 : (![0, 0] : Fin 2 → Nat) = fun _ => 0 := by funext a; fin_cases a <;> rfl
theorem hz3 : (![0, 0, 0] : Fin 3 → Nat) = fun _ => 0 := by funext a; fin_cases a <;> rfl

end Cert.KernelIdeal.Hand

end
-- ==== Proof.RegionA2.lean ====
import proofs.«106201_j36953898615485_1_alg».proof.Proof.Gen.KernelIdeal.Launch
import proofs.«106201_j36953898615485_1_alg».proof.Proof.RegionA0
import proofs.«106201_j36953898615485_1_alg».proof.Proof.RegionA1a
import proofs.«106201_j36953898615485_1_alg».proof.Proof.Gen.KernelIdeal.Skeleton
import proofs.«106201_j36953898615485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the first kernel leaves, point by point

The grid is two sweeps of 32 points (points 0–31 and 32–63). At every point the feature buffer is left at the key
feature of the point's 1024 rows. The accumulator is reset at the first point of a sweep and at every point gains the
point's contribution, so after point n it holds the running total of its sweep; at the sweep's last point that total is
copied into the gradient buffer. -/

/-- The accumulator as a memory reference. -/
abbrev scM : Memref sig .tc .vmem S512x512 .f32 := Memref.whole cc0_scratch0

/-- The feature block of point `t`. -/
def featAt (c : Dev nD) (t : Fin cfg0.N) : Vec F S1024x512 .bf16 :=
  featB (blkA V c 0 t) (blkA V c 2 t) (blkA V c 3 t) (blkA V c 4 t) (blkA V c 5 t) (blkA V c 6 t) (blkA V c 7 t)

/-- One step of the running total at point `t`, from the total `a` found. -/
def stepAcc (c : Dev nD) (t : Fin cfg0.N) (a : Vec F S512x512 .f32) : Vec F S512x512 .f32 :=
  accB (blkA V c 0 t) (blkA V c 1 t) (blkA V c 2 t) (blkA V c 3 t) (blkA V c 4 t) (blkA V c 5 t) (blkA V c 6 t) (blkA V c 7 t) (blkA V c 8 t) (blkA V c 9 t) a

/-- The running total after the point at position `n`: restarted from zero at positions 0 and 32. -/
def accAt (c : Dev nD) : (n : ℕ) → n < cfg0.N → Vec F S512x512 .f32
  | 0, hn => stepAcc V c ⟨0, hn⟩ (k0_pay2 (F := F))
  | n + 1, hn => stepAcc V c ⟨n + 1, hn⟩ (if (n + 1) % 32 = 0 then (k0_pay2 (F := F)) else accAt c n (Nat.lt_of_succ_lt hn))

theorem accAt_first (c : Dev nD) (t : Fin cfg0.N) (h : t.val % 32 = 0) :
    accAt V c t.val t.isLt = stepAcc V c t (k0_pay2 (F := F)) := by
  obtain ⟨n, hn⟩ := t
  cases n with
  | zero => rfl
  | succ n => exact (by rw [accAt, if_pos h])

theorem accAt_next (c : Dev nD) (t : Fin cfg0.N) (h : ¬ t.val % 32 = 0) :
    accAt V c t.val t.isLt = stepAcc V c t (accAt V c (t.val - 1) (Nat.lt_of_le_of_lt (Nat.sub_le _ _) t.isLt)) := by
  obtain ⟨n, hn⟩ := t
  cases n with
  | zero => exact absurd (Nat.zero_mod _) h
  | succ n => exact (by rw [accAt, if_neg h]; rfl)

/-! ## The conditions and the gradient window's idle points, decided over the 64 points -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 = 31 :=
  (by decide +kernel : ∀ t : Fin grid0.N, cond2 (grid0.coords t) ↔ t.val % 32 = 31)
theorem idle11 : ∀ t : Fin cfg0.N, ¬ t.val % 32 = 31 → cfg0.idle 11 (grid0.coords t) = true := by decide +kernel
theorem live11 : ∀ t : Fin cfg0.N, t.val % 32 = 31 → cfg0.idle 11 (grid0.coords t) = false := by decide +kernel
theorem noFlush11 : ∀ t : Fin cfg0.N, ¬ t.val % 32 = 31 → (cfg0.win 11).flush t = false := by decide +kernel

/-! ## The invariant: the accumulator's contents between points -/

/-- The second kernel's staging buffers, which the first kernel never touches, at anything. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA_eq (c : Dev nD) :
    (Pipeline.ΦA spec0 c : sProp 𝕄) = iprop(((∃ d, owns (c : Thread nD τ) scM fullShare d) ∗ restS c) ∗ (∃ r, prngReg c r)) := by
  unfold Pipeline.ΦA restS; rw [scopedRest0_eq]; simp only [scM, owns_whole]; try rfl

/-- Before the first point the accumulator holds anything; after the point at position `n` it holds the running total. -/
def PhiS (c : Dev nD) : (n : ℕ) → n ≤ cfg0.N → sProp 𝕄
  | 0, _ => Pipeline.ΦA spec0 c
  | n + 1, hn => iprop((owns (c : Thread nD τ) scM fullShare (accAt V c n hn) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accAt V c n hn) ∗ restS c) ∗ (∃ r, prngReg c r)) := rfl
theorem PhiS_pos (c : Dev nD) (n : ℕ) (h : n ≤ cfg0.N) (hz : n ≠ 0) :
    PhiS V c n h = iprop((owns (c : Thread nD τ) scM fullShare (accAt V c (n - 1) (by omega)) ∗ restS c) ∗ (∃ r, prngReg c r)) := by
  cases n with
  | zero => exact absurd rfl hz
  | succ n => rfl

/-- After any point the invariant gives back what the region was entered with: the accumulator at some contents. -/
theorem PhiS_out (c : Dev nD) (n : ℕ) (h : n ≤ cfg0.N) (hz : n ≠ 0) : PhiS V c n h ⊢ (Pipeline.ΦA spec0 c : sProp 𝕄) := by
  rw [PhiS_pos V c n h hz, PhiA_eq]
  iintro ⟨⟨HS, HR⟩, Hg⟩
  isplitl [HS HR]
  · isplitl [HS]; · iexists _; iexact HS
    iexact HR
  iexact Hg

/-! ## The proof data -/

/-- The first pipeline's proof data on core `c`: the arrays as the region finds them; after the body at point `t` each
    input's buffer at its block, the feature buffer at the point's feature block, the gradient buffer at the running
    total with a leading unit axis (consulted only at a sweep's last point). -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => blkA V c 6 t
    | ⟨7, _⟩ => blkA V c 7 t
    | ⟨8, _⟩ => blkA V c 8 t
    | ⟨9, _⟩ => blkA V c 9 t
    | ⟨10, _⟩ => featAt V c t
    | ⟨11, _⟩ => k0_pay1 (accAt V c t.val t.isLt)
  Φ t := PhiS V c t.val (Nat.le_of_lt_succ t.isLt)
  q _ := fullShare
  owed _ := 0

theorem A_eqA (c : Dev nD) (w : Fin cfg0.W) : (datA V c).A w = V c (Pipeline.arrRef spec0 w) := by
  dsimp only [datA]

theorem PhiS_castSucc (c : Dev nD) (t : Fin cfg0.N) :
    (datA V c).Φ t.castSucc = PhiS V c t.val (Nat.le_of_lt t.isLt) := by
  dsimp only [datA]; simp only [Fin.coe_castSucc]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) : (datA V c).after 5 t = blkA V c 5 t := by dsimp only [datA]
theorem afterA_6 (c : Dev nD) (t : Fin cfg0.N) : (datA V c).after 6 t = blkA V c 6 t := by dsimp only [datA]
theorem afterA_7 (c : Dev nD) (t : Fin cfg0.N) : (datA V c).after 7 t = blkA V c 7 t := by dsimp only [datA]
theorem afterA_8 (c : Dev nD) (t : Fin cfg0.N) : (datA V c).after 8 t = blkA V c 8 t := by dsimp only [datA]
theorem afterA_9 (c : Dev nD) (t : Fin cfg0.N) : (datA V c).after 9 t = blkA V c 9 t := by dsimp only [datA]
theorem afterA_10 (c : Dev nD) (t : Fin cfg0.N) : (datA V c).after 10 t = featAt V c t := by dsimp only [datA]
theorem afterA_11 (c : Dev nD) (t : Fin cfg0.N) : (datA V c).after 11 t = k0_pay1 (accAt V c t.val t.isLt) := by dsimp only [datA]

theorem beforeA_0 (c : Dev nD) (t : Fin cfg0.N) (d) : (datA V c).before 0 t d = blkA V c 0 t :=
  foundA_0_of V (datA V c) (A_eqA V c 0) (afterA_0 V c) t d
theorem beforeA_1 (c : Dev nD) (t : Fin cfg0.N) (d) : (datA V c).before 1 t d = blkA V c 1 t :=
  foundA_1_of V (datA V c) (A_eqA V c 1) (afterA_1 V c) t d
theorem beforeA_2 (c : Dev nD) (t : Fin cfg0.N) (d) : (datA V c).before 2 t d = blkA V c 2 t :=
  foundA_2_of V (datA V c) (A_eqA V c 2) (afterA_2 V c) t d
theorem beforeA_3 (c : Dev nD) (t : Fin cfg0.N) (d) : (datA V c).before 3 t d = blkA V c 3 t :=
  foundA_3_of V (datA V c) (A_eqA V c 3) (afterA_3 V c) t d
theorem beforeA_4 (c : Dev nD) (t : Fin cfg0.N) (d) : (datA V c).before 4 t d = blkA V c 4 t :=
  foundA_4_of V (datA V c) (A_eqA V c 4) (afterA_4 V c) t d
theorem beforeA_5 (c : Dev nD) (t : Fin cfg0.N) (d) : (datA V c).before 5 t d = blkA V c 5 t :=
  foundA_5_of V (datA V c) (A_eqA V c 5) (afterA_5 V c) t d
theorem beforeA_6 (c : Dev nD) (t : Fin cfg0.N) (d) : (datA V c).before 6 t d = blkA V c 6 t :=
  foundA_6_of V (datA V c) (A_eqA V c 6) (afterA_6 V c) t d
theorem beforeA_7 (c : Dev nD) (t : Fin cfg0.N) (d) : (datA V c).before 7 t d = blkA V c 7 t :=
  foundA_7_of V (datA V c) (A_eqA V c 7) (afterA_7 V c) t d
theorem beforeA_8 (c : Dev nD) (t : Fin cfg0.N) (d) : (datA V c).before 8 t d = blkA V c 8 t :=
  foundA_8_of V (datA V c) (A_eqA V c 8) (afterA_8 V c) t d
theorem beforeA_9 (c : Dev nD) (t : Fin cfg0.N) (d) : (datA V c).before 9 t d = blkA V c 9 t :=
  foundA_9_of V (datA V c) (A_eqA V c 9) (afterA_9 V c) t d

end Cert.KernelIdeal.Hand

end
-- ==== Proof.RegionB.lean ====
/- The frame half of the second kernel region: the pipeline that runs `cc1__kernel2` over its 64 grid points.

   At each point the body reads five whole staging buffers — a block of 1024 activation rows `x` (bf16), two
   512×512 weight matrices `W₁`, `W₂` (bf16) and two bias rows `b₁`, `b₂` (f32) — and writes one whole staging
   buffer, the block of 1024 result rows `bf16(x·W₁ + b₁)·W₂ + b₂` (f32, the payload `k1_pay1` of the generated
   skeleton). Nothing else is touched: the body's one other access is a load of the output buffer whose value is
   not used.

   Stated at a parameter `V`, the TensorCore's buffer contents when the region is entered:
   * `blkB`   — a window's block at a point, read off its array in `V`;
   * `outB`   — what the body leaves in the output buffer, as a function of the five input blocks, and
     `outB_eq`: it is the payload of those blocks (one store through the whole buffer leaves its payload);
   * `datB`   — the pipeline's proof data: arrays as found, inputs left in place, the output at `outB`;
   * `body_obligationB` — the body, at every point, takes the windows' buffers from their contents before
     it to their contents after it, the rest of the state passing through unread. -/
import proofs.«106201_j36953898615485_1_alg».proof.Proof.Gen.KernelIdeal.Launch
import proofs.«106201_j36953898615485_1_alg».proof.Proof.Gen.KernelIdeal.Skeleton
import proofs.«106201_j36953898615485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 1024 × 512 entries: the structural recursion goes once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 and the
    output window 5 the 1024 rows numbered `1024·t … 1024·t + 1023` of a 65536-row array, for windows 1–4 the
    whole array (their block index is constant). -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 1024 activation rows of the point): its current staging buffer holds its block at every point, whether the
    block was copied in at that point or at an earlier one — an input the pipeline does not copy in again has
    not moved its block index, so the block already there is this point's. For any proof data whose array is
    `V`'s (`hA`) and whose body leaves the block in place (`hafter`). -/
theorem foundB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)

/-- Input window 1 (the first layer's weight matrix): its current staging buffer holds its block at every point, whether the
    block was copied in at that point or at an earlier one — an input the pipeline does not copy in again has
    not moved its block index, so the block already there is this point's. For any proof data whose array is
    `V`'s (`hA`) and whose body leaves the block in place (`hafter`). -/
theorem foundB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-- Input window 2 (the first layer's bias row): its current staging buffer holds its block at every point, whether the
    block was copied in at that point or at an earlier one — an input the pipeline does not copy in again has
    not moved its block index, so the block already there is this point's. For any proof data whose array is
    `V`'s (`hA`) and whose body leaves the block in place (`hafter`). -/
theorem foundB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- Input window 3 (the second layer's weight matrix): its current staging buffer holds its block at every point, whether the
    block was copied in at that point or at an earlier one — an input the pipeline does not copy in again has
    not moved its block index, so the block already there is this point's. For any proof data whose array is
    `V`'s (`hA`) and whose body leaves the block in place (`hafter`). -/
theorem foundB_3_of {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)

/-- Input window 4 (the second layer's bias row): its current staging buffer holds its block at every point, whether the
    block was copied in at that point or at an earlier one — an input the pipeline does not copy in again has
    not moved its block index, so the block already there is this point's. For any proof data whose array is
    `V`'s (`hA`) and whose body leaves the block in place (`hafter`). -/
theorem foundB_4_of {c : Dev nD} (dat : Dat τ (Elt F) Unit ℕ (UR sig nD τ) ℕ cfg1 c) (hA : dat.A 4 = V c (Pipeline.arrRef spec1 4))
    (hafter : ∀ t, dat.after 4 t = blkB V c 4 t) (t : Fin cfg1.N) (d) : dat.before 4 t d = blkB V c 4 t :=
  (dat.before_in_eq_fetched 4 rfl (fun _ => rfl) (fun _ _ _ => rfl) (fun t => by rw [hafter]; unfold Dat.blockOf blkB; rw [hA]; try rfl) t d).trans
    (by unfold Dat.fetched Dat.blockOf blkB; rw [hA]; try rfl)

/-! ## The body's accesses: every one is through the whole of a staging buffer -/

/-- All 1024 × 512 entries of the activation buffer, and of the result buffer. -/
abbrev rRows : Rect S1024x512 := Rect.unit (s := S1024x512) ![0, 0] S1024x512.size inb_S1024x512_S1024x512_0_0
/-- All 512 × 512 entries of a weight buffer. -/
abbrev rWeight : Rect S512x512 := Rect.unit (s := S512x512) ![0, 0] S512x512.size inb_S512x512_S512x512_0_0
/-- All 1 × 512 entries of a bias buffer. -/
abbrev rBias : Rect S1x512 := Rect.unit (s := S1x512) ![0, 0] S1x512.size inb_S1x512_S1x512_0_0

/-- The offsets of these rectangles are zero on both axes. -/
theorem offs_zero : (![0, 0] : Fin 2 → Nat) = fun _ => 0 := funext fun a => by fin_cases a <;> rfl

/-! ## What the body leaves in the output window's buffer -/

/-- The result buffer after the body, from the five input blocks: its one store as a one-piece list — the
    whole buffer, at the payload `k1_pay1` of what the five loads read. -/
def outB (x0 : Vec F S1024x512 .bf16) (x1 : Vec F S512x512 .bf16) (x2 : Vec F S1x512 .f32) (x3 : Vec F S512x512 .bf16) (x4 : Vec F S1x512 .f32) : Vec F S1024x512 .f32 :=
  View.canon [⟨rRows, k1_pay1 (View.ld x0 rRows) (View.ld x1 rWeight) (View.ld x2 rBias) (View.ld x3 rWeight) (View.ld x4 rBias)⟩]

/-- The one store's rectangle is the whole buffer, so every entry lies in it. -/
theorem coverB (p0 : Vec F S1024x512 .f32) (y : S1024x512.Idx) :
    ∃ pc ∈ ([⟨rRows, p0⟩] : List (View.Piece (Elt F) S1024x512 .f32)), y ∈ pc.1.set :=
  ⟨_, List.mem_singleton_self _, View.mem_set_unit_zero offs_zero inb_S1024x512_S1024x512_0_0 y⟩

/-- A load through the whole buffer reads the contents, and one store through the whole buffer leaves its
    payload: the result block IS the payload of the five input blocks. -/
theorem outB_eq (x0 : Vec F S1024x512 .bf16) (x1 : Vec F S512x512 .bf16) (x2 : Vec F S1x512 .f32) (x3 : Vec F S512x512 .bf16) (x4 : Vec F S1x512 .f32) : outB x0 x1 x2 x3 x4 = k1_pay1 x0 x1 x2 x3 x4 := by
  unfold outB
  rw [View.canon_unit_zero offs_zero]
  simp only [View.ld_unit_zero (S := S1024x512) offs_zero, View.ld_unit_zero (S := S512x512) offs_zero,
    View.ld_unit_zero (S := S1x512) offs_zero]

/-! ## The body's triple -/

set_option maxHeartbeats 1000000 in
/-- The body on whole staging memrefs, the five inputs' at read contents `x0 … x4` and the output's at anything,
    runs to the continuation holding the inputs' as they were and the output's at `outB` of them: five loads that
    change nothing, a sixth whose value is dropped, and one store over the whole output buffer. -/
theorem soundB (c : Dev nD) (E : Set ℕ) (i : grid1.Coords) (arg1 : Memref sig .tc .vmem S1024x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .f32) (harg6 : arg6.IsWhole)
    (x0 : Vec F S1024x512 .bf16) (x1 : Vec F S512x512 .bf16) (x2 : Vec F S1x512 .f32) (x3 : Vec F S512x512 .bf16) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outB x0 x1 x2 x3 x4)) -∗ K ⟨⟩))
      ⊢ wp frame (wpE (defs₀ (F := F)) Variants.none c none) E (cc1__kernel2 i arg1 harg1 arg2 harg2 arg3 harg3 arg4 harg4 arg5 harg5 arg6 harg6) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverB _)

/-! ## The pipeline's proof data -/

/-- The proof data of this pipeline on core `c`: the arrays as the region finds them (`V`); after the body at
    point `t` each input's buffer still at its block and the output's at `outB` of the five input blocks; the
    invariant that the scoped rest of the core and its generator register are untouched; nothing owed; full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => outB (blkB V c 0 t) (blkB V c 1 t) (blkB V c 2 t) (blkB V c 3 t) (blkB V c 4 t)
  Φ _ := Pipeline.ΦA spec1 c
  q _ := fullShare
  owed _ := 0

/-- The proof data's arrays are the region-entry contents. -/
theorem A_eqB (c : Dev nD) (w : Fin cfg1.W) : (datB V c).A w = V c (Pipeline.arrRef spec1 w) := by
  dsimp only [datB]

/-- What the body leaves, window by window. -/
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) :
    (datB V c).after 5 t = outB (blkB V c 0 t) (blkB V c 1 t) (blkB V c 2 t) (blkB V c 3 t) (blkB V c 4 t) := by dsimp only [datB]

/-- Each input's current staging buffer holds its block at every point, copied in there or earlier. -/
theorem beforeB_0 (c : Dev nD) (t : Fin cfg1.N) (d) : (datB V c).before 0 t d = blkB V c 0 t :=
  foundB_0_of V (datB V c) (A_eqB V c 0) (afterB_0 V c) t d
theorem beforeB_1 (c : Dev nD) (t : Fin cfg1.N) (d) : (datB V c).before 1 t d = blkB V c 1 t :=
  foundB_1_of V (datB V c) (A_eqB V c 1) (afterB_1 V c) t d
theorem beforeB_2 (c : Dev nD) (t : Fin cfg1.N) (d) : (datB V c).before 2 t d = blkB V c 2 t :=
  foundB_2_of V (datB V c) (A_eqB V c 2) (afterB_2 V c) t d
theorem beforeB_3 (c : Dev nD) (t : Fin cfg1.N) (d) : (datB V c).before 3 t d = blkB V c 3 t :=
  foundB_3_of V (datB V c) (A_eqB V c 3) (afterB_3 V c) t d
theorem beforeB_4 (c : Dev nD) (t : Fin cfg1.N) (d) : (datB V c).before 4 t d = blkB V c 4 t :=
  foundB_4_of V (datB V c) (A_eqB V c 4) (afterB_4 V c) t d

/-! ## The body obligation, at a generic point -/

/-- What the body is called with at point `t`: the invariant, what the core owes, and the six windows' current
    staging buffers at their contents before the body, -/
def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d)))

/-- and what it returns: the same, at their contents after it. -/
def bodyPostB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t))

/-- The body at any point: the inputs' memrefs hold their blocks (`beforeB_w`), so `soundB` applies; the invariant
    and what the core owes pass through unread. -/
theorem sound_bodyB (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [beforeB_0, beforeB_1, beforeB_2, beforeB_3, beforeB_4]
  rw [show (datB V c).Φ t.succ = (datB V c).Φ t.castSucc from rfl,
    show (datB V c).owesAt () t.succ = (datB V c).owesAt () t.castSucc from rfl,
    afterB_0, afterB_1, afterB_2, afterB_3, afterB_4, afterB_5]
  iintro ⟨HΦ, Ho, ⟨%d0, H0⟩, ⟨%d1, H1⟩, ⟨%d2, H2⟩, ⟨%d3, H3⟩, ⟨%d4, H4⟩, ⟨%d5, H5⟩⟩
  iapply (soundB c Set.univ (grid1.coords t) _ _ _ _ _ _ _ _ _ _ _ _
    (blkB V c 0 t) (blkB V c 1 t) (blkB V c 2 t) (blkB V c 3 t) (blkB V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligationB (c : Dev nD) : BodyObligation (datB (F := F) V c) (defs₀ (F := F)) Variants.none () Set.univ := fun t => by
  rw [bigSep_W1, bigSep_W1]
  exact sound_bodyB V c t

end Cert.KernelIdeal.Hand

end
-- ==== Proof.RunVals.lean ====
/- The buffer contents at each boundary of @main's run — a host stretch, kernel region 0, a host stretch, kernel
   region 1, a host stretch — as a fold from the launch memory `m`:
   * `W0` the launch contents; `W1`, `W3`, `W5` after the three host stretches (each stretch's effect on the
     contents before it); `W2`, `W4` at the two regions' exits (the region's windows' arrays at what its pipeline
     leaves, every other buffer as entered); `V1`, `V3` (and `V2`, `V4`) the same read at the TensorCore's references;
   * the reading lemmas: a region's exit contents at one of its arrays (`W2_arr`, `W4_arr`) and away from them
     (`W2_of_ne`, `W4_of_ne`), in the form the regions' exits take (`hFA`, `hrestA`, `hFB`, `hrestB`);
   * a buffer no stretch writes and no window uses ends as launched (`W5_of_untouched`), so each of the fourteen
     arguments of @main does (`W5_main_argK`). -/
import proofs.«106201_j36953898615485_1_alg».proof.Proof.RegionA2
import proofs.«106201_j36953898615485_1_alg».proof.Proof.RegionB
import proofs.«106201_j36953898615485_1_alg».proof.Proof.Gen.KernelIdeal.Regions

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, region 0, a host stretch, region 1, a host stretch

## The buffer contents at each boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its windows' arrays at what the pipeline leaves (the inputs as entered, each output's write-backs
    folded over the grid), every other buffer as entered. -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the exit each of the region's arrays holds what the pipeline leaves, and every other buffer what it held at entry. -/
theorem hFA (c : Dev nD) (w : Fin cfg0.W) : (datA (V1 m ρ) c).arrAt w cfg0.N = V2 m ρ c (Pipeline.arrRef spec0 w) :=
  (W2_arr m ρ c w).symm
theorem hrestA (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its windows' arrays at what the pipeline leaves (the inputs as entered, each output's write-backs
    folded over the grid), every other buffer as entered. -/
def W4 (c : Dev nD) : Valuation τ sig (Elt F) :=
  Pipeline.withArrays spec1 c (W3 m ρ c) fun w => (datB (V3 m ρ) c).arrAt w cfg1.N
theorem W4_arr (c : Dev nD) (w : Fin cfg1.W) :
    W4 m ρ c (Proc.devRef .tc (Pipeline.arrRef spec1 w)) = (datB (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At the exit each of the region's arrays holds what the pipeline leaves, and every other buffer what it held at entry. -/
theorem hFB (c : Dev nD) (w : Fin cfg1.W) : (datB (V3 m ρ) c).arrAt w cfg1.N = V4 m ρ c (Pipeline.arrRef spec1 w) :=
  (W4_arr m ρ c w).symm
theorem hrestB (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-! ### The arguments end as launched

A buffer that no host stretch writes and that is no window's array of either region holds at the end what it held
at launch: the fold walks back through the five boundaries unchanged. Every argument of @main is such a buffer. -/

theorem W5_of_untouched (c : Dev nD) (r : Ref sig .tc) (h0 : r ∉ (hostOps0_W : List (Ref sig .tc)))
    (hA : ∀ w, Pipeline.arrRef spec0 w ≠ r) (h1 : r ∉ (hostOps1_W : List (Ref sig .tc)))
    (hB : ∀ w, Pipeline.arrRef spec1 w ≠ r) (h2 : r ∉ (hostOps2_W : List (Ref sig .tc))) :
    W5 m ρ c (Proc.devRef .tc r) = m ((c : Thread nD τ).loc r) :=
  (StableHlo.after_of_writes_sub hostOps2 _ hostOps2_writes h2).trans <|
  (W4_of_ne m ρ c r hB).trans <|
  (StableHlo.after_of_writes_sub hostOps1 _ hostOps1_writes h1).trans <|
  (W2_of_ne m ρ c r hA).trans <|
  (StableHlo.after_of_writes_sub hostOps0 _ hostOps0_writes h0).trans rfl

theorem W5_main_arg0 (c : Dev nD) : W5 m ρ c (Proc.devRef .tc main_arg0) = m ((c : Thread nD τ).loc main_arg0) :=
  W5_of_untouched m ρ c main_arg0 (by decide) (by decide) (by decide) (by decide) (by decide)
theorem W5_main_arg1 (c : Dev nD) : W5 m ρ c (Proc.devRef .tc main_arg1) = m ((c : Thread nD τ).loc main_arg1) :=
  W5_of_untouched m ρ c main_arg1 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide)
theorem W5_main_arg5 (c : Dev nD) : W5 m ρ c (Proc.devRef .tc main_arg5) = m ((c : Thread nD τ).loc main_arg5) :=
  W5_of_untouched m ρ c main_arg5 (by decide) (by decide) (by decide) (by decide) (by decide)
theorem W5_main_arg6 (c : Dev nD) : W5 m ρ c (Proc.devRef .tc main_arg6) = m ((c : Thread nD τ).loc main_arg6) :=
  W5_of_untouched m ρ c main_arg6 (by decide) (by decide) (by decide) (by decide) (by decide)
theorem W5_main_arg7 (c : Dev nD) : W5 m ρ c (Proc.devRef .tc main_arg7) = m ((c : Thread nD τ).loc main_arg7) :=
  W5_of_untouched m ρ c main_arg7 (by decide) (by decide) (by decide) (by decide) (by decide)
theorem W5_main_arg8 (c : Dev nD) : W5 m ρ c (Proc.devRef .tc main_arg8) = m ((c : Thread nD τ).loc main_arg8) :=
  W5_of_untouched m ρ c main_arg8 (by decide) (by decide) (by decide) (by decide) (by decide)
theorem W5_main_arg9 (c : Dev nD) : W5 m ρ c (Proc.devRef .tc main_arg9) = m ((c : Thread nD τ).loc main_arg9) :=
  W5_of_untouched m ρ c main_arg9 (by decide) (by decide) (by decide) (by decide) (by decide)
theorem W5_main_arg10 (c : Dev nD) : W5 m ρ c (Proc.devRef .tc main_arg10) = m ((c : Thread nD τ).loc main_arg10) :=
  W5_of_untouched m ρ c main_arg10 (by decide) (by decide) (by decide) (by decide) (by decide)
theorem W5_main_arg11 (c : Dev nD) : W5 m ρ c (Proc.devRef .tc main_arg11) = m ((c : Thread nD τ).loc main_arg11) :=
  W5_of_untouched m ρ c main_arg11 (by decide) (by decide) (by decide) (by decide) (by decide)
theorem W5_main_arg12 (c : Dev nD) : W5 m ρ c (Proc.devRef .tc main_arg12) = m ((c : Thread nD τ).loc main_arg12) :=
  W5_of_untouched m ρ c main_arg12 (by decide) (by decide) (by decide) (by decide) (by decide)
theorem W5_main_arg13 (c : Dev nD) : W5 m ρ c (Proc.devRef .tc main_arg13) = m ((c : Thread nD τ).loc main_arg13) :=
  W5_of_untouched m ρ c main_arg13 (by decide) (by decide) (by decide) (by decide) (by decide)

end Cert.KernelIdeal.Hand

end
-- ==== Proof.RegionA1.lean ====
import proofs.«106201_j36953898615485_1_alg».proof.Proof.Gen.KernelIdeal.Launch
import proofs.«106201_j36953898615485_1_alg».proof.Proof.RegionA1a
import proofs.«106201_j36953898615485_1_alg».proof.Proof.Gen.KernelIdeal.Skeleton
import proofs.«106201_j36953898615485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step (neither first nor last): the accumulator, found at `a`, is left at `accB … a`; the feature buffer, found at anything, is left at `featB …`; the inputs are handed back as found; the gradient buffer is not touched. -/
theorem run_mid (c : Dev nD) (E : Set ℕ) (i : grid0.Coords) (hc1 : ¬ cond1 i) (hc2 : ¬ cond2 i)
    (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1x512x512 .f32) (harg13 : arg13.IsWhole) (arg14 : Memref sig .tc .vmem S512x512 .f32) (harg14 : arg14.IsWhole)
    (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32)
    (a : Vec F S512x512 .f32) (K : PUnit → sProp 𝕄) :
    iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
        ∗ (∃ d, owns (c : Thread nD τ) arg12 fullShare d) ∗ owns (c : Thread nD τ) arg14 fullShare a
        ∗ (iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
            ∗ owns (c : Thread nD τ) arg12 fullShare (featB x0 w2 b3 w4 b5 w6 b7)
            ∗ owns (c : Thread nD τ) arg14 fullShare (accB x0 x1 w2 b3 w4 b5 w6 b7 w8 b9 a)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  simp only [cc0__kernel1_eq_skeleton]; unfold cc0__kernel1_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f14, %hf14, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  obtain rfl := harg14.eq_unread hf14
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    unfold featB
    sl_unfold_run_names
    rw [View.read_writes_eq_canon _ _ _ (fun y => ⟨_, List.mem_cons_self, View.mem_set_unit_zero hz2 inb_S1024x512_S1024x512_0_0 y⟩), View.canon_cons_unit_zero hz2]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl

  iexists _; isplitr
  swap; · iexact H14
  ipureintro
  unfold accB
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  try rw [View.readCov_unit_zero _ hz2]
  simp only [View.readAt_eq_ld, Memref.IsWhole.read_unread, View.ld_unit_zero (S := S1024x512) hz2, View.ld_unit_zero (S := S512x512) hz2, View.ld_unit_zero (S := S1x512) hz2]
  try rfl

set_option maxHeartbeats 4000000 in
/-- A first step of a sweep: the accumulator, found at anything, is zeroed and then left at `accB … 0`; the feature buffer is left at `featB …`; the gradient buffer is not touched. -/
theorem run_first (c : Dev nD) (E : Set ℕ) (i : grid0.Coords) (hc1 : cond1 i) (hc2 : ¬ cond2 i)
    (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1x512x512 .f32) (harg13 : arg13.IsWhole) (arg14 : Memref sig .tc .vmem S512x512 .f32) (harg14 : arg14.IsWhole)
    (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32)
     (K : PUnit → sProp 𝕄) :
    iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
        ∗ (∃ d, owns (c : Thread nD τ) arg12 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
            ∗ owns (c : Thread nD τ) arg12 fullShare (featB x0 w2 b3 w4 b5 w6 b7)
            ∗ owns (c : Thread nD τ) arg14 fullShare (accB x0 x1 w2 b3 w4 b5 w6 b7 w8 b9 (k0_pay2 (F := F)))) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  simp only [cc0__kernel1_eq_skeleton]; unfold cc0__kernel1_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d14, %f14, -, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11

  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    unfold featB
    sl_unfold_run_names
    rw [View.read_writes_eq_canon _ _ _ (fun y => ⟨_, List.mem_cons_self, View.mem_set_unit_zero hz2 inb_S1024x512_S1024x512_0_0 y⟩), View.canon_cons_unit_zero hz2]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl

  iexists _; isplitr
  swap; · iexact H14
  ipureintro
  unfold accB
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  try rw [View.readCov_unit_zero _ hz2]
  simp only [View.readAt_eq_ld, Memref.IsWhole.read_unread, View.ld_unit_zero (S := S1024x512) hz2, View.ld_unit_zero (S := S512x512) hz2, View.ld_unit_zero (S := S1x512) hz2]
  try rfl

set_option maxHeartbeats 4000000 in
/-- A last step of a sweep: as a middle step, and then the accumulator's final contents are copied (with a leading unit axis) into the gradient buffer, found at anything. -/
theorem run_last (c : Dev nD) (E : Set ℕ) (i : grid0.Coords) (hc1 : ¬ cond1 i) (hc2 : cond2 i)
    (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1x512x512 .f32) (harg13 : arg13.IsWhole) (arg14 : Memref sig .tc .vmem S512x512 .f32) (harg14 : arg14.IsWhole)
    (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32)
    (a : Vec F S512x512 .f32) (K : PUnit → sProp 𝕄) :
    iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
        ∗ (∃ d, owns (c : Thread nD τ) arg12 fullShare d) ∗ (∃ d, owns (c : Thread nD τ) arg13 fullShare d) ∗ owns (c : Thread nD τ) arg14 fullShare a
        ∗ (iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
            ∗ owns (c : Thread nD τ) arg12 fullShare (featB x0 w2 b3 w4 b5 w6 b7)
            ∗ owns (c : Thread nD τ) arg13 fullShare (k0_pay1 (accB x0 x1 w2 b3 w4 b5 w6 b7 w8 b9 a))
            ∗ owns (c : Thread nD τ) arg14 fullShare (accB x0 x1 w2 b3 w4 b5 w6 b7 w8 b9 a)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  simp only [cc0__kernel1_eq_skeleton]; unfold cc0__kernel1_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  obtain rfl := harg14.eq_unread hf14
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    unfold featB
    sl_unfold_run_names
    rw [View.read_writes_eq_canon _ _ _ (fun y => ⟨_, List.mem_cons_self, View.mem_set_unit_zero hz2 inb_S1024x512_S1024x512_0_0 y⟩), View.canon_cons_unit_zero hz2]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl
  isplitl [H13]
  · iexists _; isplitr
    swap; · iexact H13
    ipureintro
    unfold accB
    sl_unfold_run_names
    rw [View.read_writes_eq_canon _ _ _ (fun y => ⟨_, List.mem_cons_self, View.mem_set_unit_zero hz3 inb_S1x512x512_S1x512x512_0_0_0 y⟩), View.canon_cons_unit_zero hz3]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl
  iexists _; isplitr
  swap; · iexact H14
  ipureintro
  unfold accB
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  try rw [View.readCov_unit_zero _ hz2]
  simp only [View.readAt_eq_ld, Memref.IsWhole.read_unread, View.ld_unit_zero (S := S1024x512) hz2, View.ld_unit_zero (S := S512x512) hz2, View.ld_unit_zero (S := S1x512) hz2]
  try rfl

end Cert.KernelIdeal.Hand

end
-- ==== Proof.RegionA3.lean ====
import proofs.«106201_j36953898615485_1_alg».proof.Proof.Gen.KernelIdeal.Launch
import proofs.«106201_j36953898615485_1_alg».proof.Proof.RegionA2
import proofs.«106201_j36953898615485_1_alg».proof.Proof.RegionA1
import proofs.«106201_j36953898615485_1_alg».proof.Proof.Gen.KernelIdeal.Skeleton
import proofs.«106201_j36953898615485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d))
    ∗ (∃ d, owns (c : Thread nD τ) (st0_6 t) fullShare ((datA V c).before 6 t d))
    ∗ (∃ d, owns (c : Thread nD τ) (st0_7 t) fullShare ((datA V c).before 7 t d))
    ∗ (∃ d, owns (c : Thread nD τ) (st0_8 t) fullShare ((datA V c).before 8 t d))
    ∗ (∃ d, owns (c : Thread nD τ) (st0_9 t) fullShare ((datA V c).before 9 t d))
    ∗ (∃ d, owns (c : Thread nD τ) (st0_10 t) fullShare ((datA V c).before 10 t d))
    ∗ (∃ d, owns (c : Thread nD τ) (st0_11 t) fullShare ((datA V c).before 11 t d)))

def bodyPostA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t)
    ∗ owns (c : Thread nD τ) (st0_6 t) fullShare ((datA V c).after 6 t)
    ∗ owns (c : Thread nD τ) (st0_7 t) fullShare ((datA V c).after 7 t)
    ∗ owns (c : Thread nD τ) (st0_8 t) fullShare ((datA V c).after 8 t)
    ∗ owns (c : Thread nD τ) (st0_9 t) fullShare ((datA V c).after 9 t)
    ∗ owns (c : Thread nD τ) (st0_10 t) fullShare ((datA V c).after 10 t)
    ∗ (datA V c).leavesExact 11 t)

set_option maxHeartbeats 8000000 in
/-- The body at any point: the inputs' buffers hold their blocks; the point is a sweep's first, last or neither, which
    decides both conditions; the invariant hands over the accumulator at the running total so far (at anything before the very
    first point) and takes it back at the new total. -/
theorem sound_bodyA (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [beforeA_0, beforeA_1, beforeA_2, beforeA_3, beforeA_4, beforeA_5, beforeA_6, beforeA_7, beforeA_8, beforeA_9]
  rw [show (datA V c).owesAt () t.succ = (datA V c).owesAt () t.castSucc from rfl]
  rw [show (datA V c).Φ t.succ = PhiS V c (t.val + 1) t.isLt from rfl, PhiS_succ]
  rw [afterA_0, afterA_1, afterA_2, afterA_3, afterA_4, afterA_5, afterA_6, afterA_7, afterA_8, afterA_9, afterA_10]
  have hN : t.val < 64 := lt_of_lt_of_eq t.isLt N_0
  by_cases h0 : t.val % 32 = 0
  · have h31 : ¬ t.val % 32 = 31 := by omega
    rw [Dat.leavesExact_idle (datA V c) 11 t (idle11 t h31) (noFlush11 t h31), accAt_first V c t h0]
    unfold featAt stepAcc
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_first c Set.univ (grid0.coords t) ((hcond1 t).mpr h0) (fun h => h31 ((hcond2 t).mp h)) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t)  _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10

      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_first c Set.univ (grid0.coords t) ((hcond1 t).mpr h0) (fun h => h31 ((hcond2 t).mp h)) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t)  _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10

      isplitl [HS]; · iexists _; iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun e => h0 (by rw [e])
    by_cases h31 : t.val % 32 = 31
    · rw [show (datA V c).leavesExact 11 t = owns (c : Thread nD τ) (st0_11 t) fullShare ((datA V c).after 11 t) from by
        unfold Dat.leavesExact; rw [live11 t h31], afterA_11, accAt_next V c t h0]
      unfold featAt stepAcc
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_last c Set.univ (grid0.coords t) (fun h => h0 ((hcond1 t).mp h)) ((hcond2 t).mpr h31) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS]; · iexact HS
      iintro ⟨H0, H1, H2, H3, H4, H5, H6, H7, H8, H9, H10, H11, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (datA V c) 11 t (idle11 t h31) (noFlush11 t h31), accAt_next V c t h0]
      unfold featAt stepAcc
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_mid c Set.univ (grid0.coords t) (fun h => h0 ((hcond1 t).mp h)) (fun h => h31 ((hcond2 t).mp h)) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10

      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligationA (c : Dev nD) : BodyObligation (datA (F := F) V c) (defs₀ (F := F)) Variants.none () Set.univ := fun t => by
  rw [bigSep_W0, bigSep_W0]
  exact sound_bodyA V c t

end Cert.KernelIdeal.Hand

end
-- ==== Proof.RunAll.lean ====
/- The run of @main as five segments — a host stretch, kernel region 0, a host stretch, kernel region 1, a host
   stretch — over the thread state "every unscoped buffer at the boundary's contents, the generator register at some
   state, nothing owed":
   * `pdats` both pipelines' proof data, each at its region's entry contents; `regA`, `regB` the regions as segments;
     `segs` the five segments and `main_run`: @main is their run;
   * `run_all`: every weakly fair execution of @main terminates without fault and ends with every unscoped buffer at
     the last boundary's contents `W5`;
   * `frame_all`: hence every argument array ends as launched. -/
import proofs.«106201_j36953898615485_1_alg».proof.Proof.RunVals
import proofs.«106201_j36953898615485_1_alg».proof.Proof.RegionA3

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both pipelines' proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => datA (V1 m ρ) c
  | ⟨1, _⟩ => fun c => datB (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's effect on `W`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W5`,
    the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may
-- unfold plain definitions in a metavariable's type
set_option backward.isDefEq.respectTransparency.types false in
/-- Kernel region 0 over the thread state: entered from every unscoped buffer at `W1`, left at `W2` (what the
    next stretch is entered from). Its windows' arrays are split out of the unscoped buffers and put back at their
    exit contents; the generator register goes into the pipeline's invariant and comes out of it; nothing is owed;
    the kernel has no semaphore of its own. -/
def regA : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationA (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    -- region 0's invariant at the last point (64 points in, so past the first) gives back the class invariant
    refine (show (pdats m ρ 0 c).Φ (Fin.last _) ⊢ Pipeline.ΦA spec0 c from
      PhiS_out (V1 m ρ) c cfg0.N (le_refl _) (by have := N_0; show grid0.N ≠ 0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hFA m ρ c) (hrestA m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Kernel region 1 over the thread state: entered from every unscoped buffer at `W3`, left at `W4` (what the
    next stretch is entered from). Its windows' arrays are split out of the unscoped buffers and put back at their
    exit contents; the generator register goes into the pipeline's invariant and comes out of it; nothing is owed;
    the kernel has no semaphore of its own. -/
def regB : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationB (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hFB m ρ c) (hrestB m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (regA m ρ),
    .host (hseg hostOps1 hostOps1_sub hostOps1_fresh (W2 m ρ)),
    .region (regB m ρ),
    .host (hseg hostOps2 hostOps2_sub hostOps2_fresh (W4 m ρ)) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state every unscoped buffer of every core holds the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last stretch leaves the buffers beside the register and what is owed; regroup
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any `F`: every weakly fair execution of @main terminates, nothing faulting, and every final state
    has the fourteen argument arrays as launched — each argument is an unscoped buffer, read off `run_all`'s last
    contents, which at an argument are the launch memory (`W5_main_argK`). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩) (run_all m ρ)

end Cert.KernelIdeal.Hand

end
-- ==== Proof.RegionA0K.lean ====
/- The first kernel region (the pipeline that runs `cc0__kernel1` over its 2 × 32 grid points): the windows'
   blocks and what the body finds in its ten input windows.

   Stated at a parameter `V`, the TensorCore's buffer contents when the region is entered:
   * `blkA`       — a window's block at a point, read off its array in `V`;
   * `foundA_k_of` — for each input window `k = 0 … 9`: its current staging buffer holds its block at every
     point, whether the block was copied in at that point or at an earlier one, for any proof data whose array
     is `V`'s and whose body leaves the block in place;
   * `liveA`       — windows 0 … 10 are in use at every grid point (only window 11 has points at which it
     is not). -/
import proofs.«106201_j36953898615485_1_alg».proof.Proof.Gen.Kernel.Launch
import proofs.«106201_j36953898615485_1_alg».proof.Proof.Gen.Kernel.Skeleton
import proofs.«106201_j36953898615485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input window's buffer

An input the pipeline does not copy in again at a point has not moved its block index there, so the block already
in its staging buffer is this point's: whether copied in at the point or earlier, the buffer holds the window's
block. One lemma per input window, each for ANY proof data whose array is `V`'s (`hA`) and whose body leaves
the block in place (`hafter`). -/

theorem foundA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

theorem foundA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

theorem foundA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

theorem foundA_3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)

theorem foundA_4_of {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)

theorem foundA_5_of {c : Dev nD} (dat : Dat τ (Elt F) Unit ℕ (UR sig nD τ) ℕ cfg0 c) (hA : dat.A 5 = V c (Pipeline.arrRef spec0 5))
    (hafter : ∀ t, dat.after 5 t = blkA V c 5 t) (t : Fin cfg0.N) (d) : dat.before 5 t d = blkA V c 5 t :=
  (dat.before_in_eq_fetched 5 rfl (fun _ => rfl) (fun _ _ _ => rfl) (fun t => by rw [hafter]; unfold Dat.blockOf blkA; rw [hA]; try rfl) t d).trans
    (by unfold Dat.fetched Dat.blockOf blkA; rw [hA]; try rfl)

theorem foundA_6_of {c : Dev nD} (dat : Dat τ (Elt F) Unit ℕ (UR sig nD τ) ℕ cfg0 c) (hA : dat.A 6 = V c (Pipeline.arrRef spec0 6))
    (hafter : ∀ t, dat.after 6 t = blkA V c 6 t) (t : Fin cfg0.N) (d) : dat.before 6 t d = blkA V c 6 t :=
  (dat.before_in_eq_fetched 6 rfl (fun _ => rfl) (fun _ _ _ => rfl) (fun t => by rw [hafter]; unfold Dat.blockOf blkA; rw [hA]; try rfl) t d).trans
    (by unfold Dat.fetched Dat.blockOf blkA; rw [hA]; try rfl)

theorem foundA_7_of {c : Dev nD} (dat : Dat τ (Elt F) Unit ℕ (UR sig nD τ) ℕ cfg0 c) (hA : dat.A 7 = V c (Pipeline.arrRef spec0 7))
    (hafter : ∀ t, dat.after 7 t = blkA V c 7 t) (t : Fin cfg0.N) (d) : dat.before 7 t d = blkA V c 7 t :=
  (dat.before_in_eq_fetched 7 rfl (fun _ => rfl) (fun _ _ _ => rfl) (fun t => by rw [hafter]; unfold Dat.blockOf blkA; rw [hA]; try rfl) t d).trans
    (by unfold Dat.fetched Dat.blockOf blkA; rw [hA]; try rfl)

theorem foundA_8_of {c : Dev nD} (dat : Dat τ (Elt F) Unit ℕ (UR sig nD τ) ℕ cfg0 c) (hA : dat.A 8 = V c (Pipeline.arrRef spec0 8))
    (hafter : ∀ t, dat.after 8 t = blkA V c 8 t) (t : Fin cfg0.N) (d) : dat.before 8 t d = blkA V c 8 t :=
  (dat.before_in_eq_fetched 8 rfl (fun _ => rfl) (fun _ _ _ => rfl) (fun t => by rw [hafter]; unfold Dat.blockOf blkA; rw [hA]; try rfl) t d).trans
    (by unfold Dat.fetched Dat.blockOf blkA; rw [hA]; try rfl)

theorem foundA_9_of {c : Dev nD} (dat : Dat τ (Elt F) Unit ℕ (UR sig nD τ) ℕ cfg0 c) (hA : dat.A 9 = V c (Pipeline.arrRef spec0 9))
    (hafter : ∀ t, dat.after 9 t = blkA V c 9 t) (t : Fin cfg0.N) (d) : dat.before 9 t d = blkA V c 9 t :=
  (dat.before_in_eq_fetched 9 rfl (fun _ => rfl) (fun _ _ _ => rfl) (fun t => by rw [hafter]; unfold Dat.blockOf blkA; rw [hA]; try rfl) t d).trans
    (by unfold Dat.fetched Dat.blockOf blkA; rw [hA]; try rfl)

/-! ## Which windows are in use at every point -/

/-- Windows 0 … 10 are in use at every grid point: the pipeline never skips their copies. -/
theorem liveA (w : Fin cfg0.W) (hw : w.val ≤ 10) (i : grid0.Coords) : cfg0.idle w i = false :=
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨n + 11, _⟩, h => absurd h (by show ¬ (n + 11 ≤ 10); omega)

end Cert.Kernel.Hand

end
-- ==== Proof.RegionA1aK.lean ====
import proofs.«106201_j36953898615485_1_alg».proof.Proof.Gen.Kernel.Launch
import proofs.«106201_j36953898615485_1_alg».proof.Proof.Gen.Kernel.Skeleton
import proofs.«106201_j36953898615485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's body, case by case

The body tests two conditions on the second grid coordinate: "first step of a core's sweep" (the accumulator is zeroed
before use) and "last step" (the accumulator is copied to the gradient output). No point satisfies both. -/

/-- "This is the first step of the sweep": the second grid coordinate is 0. -/
abbrev cond1 (i : grid0.Coords) : Prop := (Scalar.cmpi .ne (Scalar.extui (Scalar.cmpi .eq (BitVec.ofNat 32 (i 1).val) 0#32)) 0#32) = 1#1
/-- "This is the last step of the sweep": the second grid coordinate is 31. -/
abbrev cond2 (i : grid0.Coords) : Prop := k0_cond2 i = 1#1

/-- The key-feature block the body stores: a function of the key block and the first three layers' weights. -/
def featB (x0 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32)  : Vec F S1024x512 .bf16 :=
  k0_pay9 (k0_pay5 x0 w2 b3) (k0_pay7 w4) b5 w6 b7

/-- The accumulator after a step: what it held plus this block's contribution (residualᵀ · feature). -/
def accB (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32) (a : Vec F S512x512 .f32) : Vec F S512x512 .f32 :=
  k0_pay10 (k0_pay5 x0 w2 b3) (k0_pay6 x1 w2 b3) (k0_pay7 w4) b5 w6 b7 w8 b9 a

theorem hz2 : (![0, 0] : Fin 2 → Nat) = fun _ => 0 := by funext a; fin_cases a <;> rfl
theorem hz3 : (![0, 0, 0] : Fin 3 → Nat) = fun _ => 0 := by funext a; fin_cases a <;> rfl

end Cert.Kernel.Hand

end
-- ==== Proof.RegionA2K.lean ====
import proofs.«106201_j36953898615485_1_alg».proof.Proof.Gen.Kernel.Launch
import proofs.«106201_j36953898615485_1_alg».proof.Proof.RegionA0K
import proofs.«106201_j36953898615485_1_alg».proof.Proof.RegionA1aK
import proofs.«106201_j36953898615485_1_alg».proof.Proof.Gen.Kernel.Skeleton
import proofs.«106201_j36953898615485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the first kernel leaves, point by point

The grid is two sweeps of 32 points (points 0–31 and 32–63). At every point the feature buffer is left at the key
feature of the point's 1024 rows. The accumulator is reset at the first point of a sweep and at every point gains the
point's contribution, so after point n it holds the running total of its sweep; at the sweep's last point that total is
copied into the gradient buffer. -/

/-- The accumulator as a memory reference. -/
abbrev scM : Memref sig .tc .vmem S512x512 .f32 := Memref.whole cc0_scratch0

/-- The feature block of point `t`. -/
def featAt (c : Dev nD) (t : Fin cfg0.N) : Vec F S1024x512 .bf16 :=
  featB (blkA V c 0 t) (blkA V c 2 t) (blkA V c 3 t) (blkA V c 4 t) (blkA V c 5 t) (blkA V c 6 t) (blkA V c 7 t)

/-- One step of the running total at point `t`, from the total `a` found. -/
def stepAcc (c : Dev nD) (t : Fin cfg0.N) (a : Vec F S512x512 .f32) : Vec F S512x512 .f32 :=
  accB (blkA V c 0 t) (blkA V c 1 t) (blkA V c 2 t) (blkA V c 3 t) (blkA V c 4 t) (blkA V c 5 t) (blkA V c 6 t) (blkA V c 7 t) (blkA V c 8 t) (blkA V c 9 t) a

/-- The running total after the point at position `n`: restarted from zero at positions 0 and 32. -/
def accAt (c : Dev nD) : (n : ℕ) → n < cfg0.N → Vec F S512x512 .f32
  | 0, hn => stepAcc V c ⟨0, hn⟩ (k0_pay2 (F := F))
  | n + 1, hn => stepAcc V c ⟨n + 1, hn⟩ (if (n + 1) % 32 = 0 then (k0_pay2 (F := F)) else accAt c n (Nat.lt_of_succ_lt hn))

theorem accAt_first (c : Dev nD) (t : Fin cfg0.N) (h : t.val % 32 = 0) :
    accAt V c t.val t.isLt = stepAcc V c t (k0_pay2 (F := F)) := by
  obtain ⟨n, hn⟩ := t
  cases n with
  | zero => rfl
  | succ n => exact (by rw [accAt, if_pos h])

theorem accAt_next (c : Dev nD) (t : Fin cfg0.N) (h : ¬ t.val % 32 = 0) :
    accAt V c t.val t.isLt = stepAcc V c t (accAt V c (t.val - 1) (Nat.lt_of_le_of_lt (Nat.sub_le _ _) t.isLt)) := by
  obtain ⟨n, hn⟩ := t
  cases n with
  | zero => exact absurd (Nat.zero_mod _) h
  | succ n => exact (by rw [accAt, if_neg h]; rfl)

/-! ## The conditions and the gradient window's idle points, decided over the 64 points -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 = 31 :=
  (by decide +kernel : ∀ t : Fin grid0.N, cond2 (grid0.coords t) ↔ t.val % 32 = 31)
theorem idle11 : ∀ t : Fin cfg0.N, ¬ t.val % 32 = 31 → cfg0.idle 11 (grid0.coords t) = true := by decide +kernel
theorem live11 : ∀ t : Fin cfg0.N, t.val % 32 = 31 → cfg0.idle 11 (grid0.coords t) = false := by decide +kernel
theorem noFlush11 : ∀ t : Fin cfg0.N, ¬ t.val % 32 = 31 → (cfg0.win 11).flush t = false := by decide +kernel

/-! ## The invariant: the accumulator's contents between points -/

/-- The second kernel's staging buffers, which the first kernel never touches, at anything. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA_eq (c : Dev nD) :
    (Pipeline.ΦA spec0 c : sProp 𝕄) = iprop(((∃ d, owns (c : Thread nD τ) scM fullShare d) ∗ restS c) ∗ (∃ r, prngReg c r)) := by
  unfold Pipeline.ΦA restS; rw [scopedRest0_eq]; simp only [scM, owns_whole]; try rfl

/-- Before the first point the accumulator holds anything; after the point at position `n` it holds the running total. -/
def PhiS (c : Dev nD) : (n : ℕ) → n ≤ cfg0.N → sProp 𝕄
  | 0, _ => Pipeline.ΦA spec0 c
  | n + 1, hn => iprop((owns (c : Thread nD τ) scM fullShare (accAt V c n hn) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accAt V c n hn) ∗ restS c) ∗ (∃ r, prngReg c r)) := rfl
theorem PhiS_pos (c : Dev nD) (n : ℕ) (h : n ≤ cfg0.N) (hz : n ≠ 0) :
    PhiS V c n h = iprop((owns (c : Thread nD τ) scM fullShare (accAt V c (n - 1) (by omega)) ∗ restS c) ∗ (∃ r, prngReg c r)) := by
  cases n with
  | zero => exact absurd rfl hz
  | succ n => rfl

/-- After any point the invariant gives back what the region was entered with: the accumulator at some contents. -/
theorem PhiS_out (c : Dev nD) (n : ℕ) (h : n ≤ cfg0.N) (hz : n ≠ 0) : PhiS V c n h ⊢ (Pipeline.ΦA spec0 c : sProp 𝕄) := by
  rw [PhiS_pos V c n h hz, PhiA_eq]
  iintro ⟨⟨HS, HR⟩, Hg⟩
  isplitl [HS HR]
  · isplitl [HS]; · iexists _; iexact HS
    iexact HR
  iexact Hg

/-! ## The proof data -/

/-- The first pipeline's proof data on core `c`: the arrays as the region finds them; after the body at point `t` each
    input's buffer at its block, the feature buffer at the point's feature block, the gradient buffer at the running
    total with a leading unit axis (consulted only at a sweep's last point). -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => blkA V c 6 t
    | ⟨7, _⟩ => blkA V c 7 t
    | ⟨8, _⟩ => blkA V c 8 t
    | ⟨9, _⟩ => blkA V c 9 t
    | ⟨10, _⟩ => featAt V c t
    | ⟨11, _⟩ => k0_pay1 (accAt V c t.val t.isLt)
  Φ t := PhiS V c t.val (Nat.le_of_lt_succ t.isLt)
  q _ := fullShare
  owed _ := 0

theorem A_eqA (c : Dev nD) (w : Fin cfg0.W) : (datA V c).A w = V c (Pipeline.arrRef spec0 w) := by
  dsimp only [datA]

theorem PhiS_castSucc (c : Dev nD) (t : Fin cfg0.N) :
    (datA V c).Φ t.castSucc = PhiS V c t.val (Nat.le_of_lt t.isLt) := by
  dsimp only [datA]; simp only [Fin.coe_castSucc]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) : (datA V c).after 5 t = blkA V c 5 t := by dsimp only [datA]
theorem afterA_6 (c : Dev nD) (t : Fin cfg0.N) : (datA V c).after 6 t = blkA V c 6 t := by dsimp only [datA]
theorem afterA_7 (c : Dev nD) (t : Fin cfg0.N) : (datA V c).after 7 t = blkA V c 7 t := by dsimp only [datA]
theorem afterA_8 (c : Dev nD) (t : Fin cfg0.N) : (datA V c).after 8 t = blkA V c 8 t := by dsimp only [datA]
theorem afterA_9 (c : Dev nD) (t : Fin cfg0.N) : (datA V c).after 9 t = blkA V c 9 t := by dsimp only [datA]
theorem afterA_10 (c : Dev nD) (t : Fin cfg0.N) : (datA V c).after 10 t = featAt V c t := by dsimp only [datA]
theorem afterA_11 (c : Dev nD) (t : Fin cfg0.N) : (datA V c).after 11 t = k0_pay1 (accAt V c t.val t.isLt) := by dsimp only [datA]

theorem beforeA_0 (c : Dev nD) (t : Fin cfg0.N) (d) : (datA V c).before 0 t d = blkA V c 0 t :=
  foundA_0_of V (datA V c) (A_eqA V c 0) (afterA_0 V c) t d
theorem beforeA_1 (c : Dev nD) (t : Fin cfg0.N) (d) : (datA V c).before 1 t d = blkA V c 1 t :=
  foundA_1_of V (datA V c) (A_eqA V c 1) (afterA_1 V c) t d
theorem beforeA_2 (c : Dev nD) (t : Fin cfg0.N) (d) : (datA V c).before 2 t d = blkA V c 2 t :=
  foundA_2_of V (datA V c) (A_eqA V c 2) (afterA_2 V c) t d
theorem beforeA_3 (c : Dev nD) (t : Fin cfg0.N) (d) : (datA V c).before 3 t d = blkA V c 3 t :=
  foundA_3_of V (datA V c) (A_eqA V c 3) (afterA_3 V c) t d
theorem beforeA_4 (c : Dev nD) (t : Fin cfg0.N) (d) : (datA V c).before 4 t d = blkA V c 4 t :=
  foundA_4_of V (datA V c) (A_eqA V c 4) (afterA_4 V c) t d
theorem beforeA_5 (c : Dev nD) (t : Fin cfg0.N) (d) : (datA V c).before 5 t d = blkA V c 5 t :=
  foundA_5_of V (datA V c) (A_eqA V c 5) (afterA_5 V c) t d
theorem beforeA_6 (c : Dev nD) (t : Fin cfg0.N) (d) : (datA V c).before 6 t d = blkA V c 6 t :=
  foundA_6_of V (datA V c) (A_eqA V c 6) (afterA_6 V c) t d
theorem beforeA_7 (c : Dev nD) (t : Fin cfg0.N) (d) : (datA V c).before 7 t d = blkA V c 7 t :=
  foundA_7_of V (datA V c) (A_eqA V c 7) (afterA_7 V c) t d
theorem beforeA_8 (c : Dev nD) (t : Fin cfg0.N) (d) : (datA V c).before 8 t d = blkA V c 8 t :=
  foundA_8_of V (datA V c) (A_eqA V c 8) (afterA_8 V c) t d
theorem beforeA_9 (c : Dev nD) (t : Fin cfg0.N) (d) : (datA V c).before 9 t d = blkA V c 9 t :=
  foundA_9_of V (datA V c) (A_eqA V c 9) (afterA_9 V c) t d

end Cert.Kernel.Hand

end
-- ==== Proof.RegionBK.lean ====
/- The frame half of the second kernel region: the pipeline that runs `cc1__kernel2` over its 64 grid points.

   At each point the body reads five whole staging buffers — a block of 1024 activation rows `x` (bf16), two
   512×512 weight matrices `W₁`, `W₂` (bf16) and two bias rows `b₁`, `b₂` (f32) — and writes one whole staging
   buffer, the block of 1024 result rows `bf16(x·W₁ + b₁)·W₂ + b₂` (f32, the payload `k1_pay1` of the generated
   skeleton). Nothing else is touched: the body's one other access is a load of the output buffer whose value is
   not used.

   Stated at a parameter `V`, the TensorCore's buffer contents when the region is entered:
   * `blkB`   — a window's block at a point, read off its array in `V`;
   * `outB`   — what the body leaves in the output buffer, as a function of the five input blocks, and
     `outB_eq`: it is the payload of those blocks (one store through the whole buffer leaves its payload);
   * `datB`   — the pipeline's proof data: arrays as found, inputs left in place, the output at `outB`;
   * `body_obligationB` — the body, at every point, takes the windows' buffers from their contents before
     it to their contents after it, the rest of the state passing through unread. -/
import proofs.«106201_j36953898615485_1_alg».proof.Proof.Gen.Kernel.Launch
import proofs.«106201_j36953898615485_1_alg».proof.Proof.Gen.Kernel.Skeleton
import proofs.«106201_j36953898615485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 1024 × 512 entries: the structural recursion goes once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 and the
    output window 5 the 1024 rows numbered `1024·t … 1024·t + 1023` of a 65536-row array, for windows 1–4 the
    whole array (their block index is constant). -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 1024 activation rows of the point): its current staging buffer holds its block at every point, whether the
    block was copied in at that point or at an earlier one — an input the pipeline does not copy in again has
    not moved its block index, so the block already there is this point's. For any proof data whose array is
    `V`'s (`hA`) and whose body leaves the block in place (`hafter`). -/
theorem foundB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)

/-- Input window 1 (the first layer's weight matrix): its current staging buffer holds its block at every point, whether the
    block was copied in at that point or at an earlier one — an input the pipeline does not copy in again has
    not moved its block index, so the block already there is this point's. For any proof data whose array is
    `V`'s (`hA`) and whose body leaves the block in place (`hafter`). -/
theorem foundB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-- Input window 2 (the first layer's bias row): its current staging buffer holds its block at every point, whether the
    block was copied in at that point or at an earlier one — an input the pipeline does not copy in again has
    not moved its block index, so the block already there is this point's. For any proof data whose array is
    `V`'s (`hA`) and whose body leaves the block in place (`hafter`). -/
theorem foundB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- Input window 3 (the second layer's weight matrix): its current staging buffer holds its block at every point, whether the
    block was copied in at that point or at an earlier one — an input the pipeline does not copy in again has
    not moved its block index, so the block already there is this point's. For any proof data whose array is
    `V`'s (`hA`) and whose body leaves the block in place (`hafter`). -/
theorem foundB_3_of {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)

/-- Input window 4 (the second layer's bias row): its current staging buffer holds its block at every point, whether the
    block was copied in at that point or at an earlier one — an input the pipeline does not copy in again has
    not moved its block index, so the block already there is this point's. For any proof data whose array is
    `V`'s (`hA`) and whose body leaves the block in place (`hafter`). -/
theorem foundB_4_of {c : Dev nD} (dat : Dat τ (Elt F) Unit ℕ (UR sig nD τ) ℕ cfg1 c) (hA : dat.A 4 = V c (Pipeline.arrRef spec1 4))
    (hafter : ∀ t, dat.after 4 t = blkB V c 4 t) (t : Fin cfg1.N) (d) : dat.before 4 t d = blkB V c 4 t :=
  (dat.before_in_eq_fetched 4 rfl (fun _ => rfl) (fun _ _ _ => rfl) (fun t => by rw [hafter]; unfold Dat.blockOf blkB; rw [hA]; try rfl) t d).trans
    (by unfold Dat.fetched Dat.blockOf blkB; rw [hA]; try rfl)

/-! ## The body's accesses: every one is through the whole of a staging buffer -/

/-- All 1024 × 512 entries of the activation buffer, and of the result buffer. -/
abbrev rRows : Rect S1024x512 := Rect.unit (s := S1024x512) ![0, 0] S1024x512.size inb_S1024x512_S1024x512_0_0
/-- All 512 × 512 entries of a weight buffer. -/
abbrev rWeight : Rect S512x512 := Rect.unit (s := S512x512) ![0, 0] S512x512.size inb_S512x512_S512x512_0_0
/-- All 1 × 512 entries of a bias buffer. -/
abbrev rBias : Rect S1x512 := Rect.unit (s := S1x512) ![0, 0] S1x512.size inb_S1x512_S1x512_0_0

/-- The offsets of these rectangles are zero on both axes. -/
theorem offs_zero : (![0, 0] : Fin 2 → Nat) = fun _ => 0 := funext fun a => by fin_cases a <;> rfl

/-! ## What the body leaves in the output window's buffer -/

/-- The result buffer after the body, from the five input blocks: its one store as a one-piece list — the
    whole buffer, at the payload `k1_pay1` of what the five loads read. -/
def outB (x0 : Vec F S1024x512 .bf16) (x1 : Vec F S512x512 .bf16) (x2 : Vec F S1x512 .f32) (x3 : Vec F S512x512 .bf16) (x4 : Vec F S1x512 .f32) : Vec F S1024x512 .f32 :=
  View.canon [⟨rRows, k1_pay1 (View.ld x0 rRows) (View.ld x1 rWeight) (View.ld x2 rBias) (View.ld x3 rWeight) (View.ld x4 rBias)⟩]

/-- The one store's rectangle is the whole buffer, so every entry lies in it. -/
theorem coverB (p0 : Vec F S1024x512 .f32) (y : S1024x512.Idx) :
    ∃ pc ∈ ([⟨rRows, p0⟩] : List (View.Piece (Elt F) S1024x512 .f32)), y ∈ pc.1.set :=
  ⟨_, List.mem_singleton_self _, View.mem_set_unit_zero offs_zero inb_S1024x512_S1024x512_0_0 y⟩

/-- A load through the whole buffer reads the contents, and one store through the whole buffer leaves its
    payload: the result block IS the payload of the five input blocks. -/
theorem outB_eq (x0 : Vec F S1024x512 .bf16) (x1 : Vec F S512x512 .bf16) (x2 : Vec F S1x512 .f32) (x3 : Vec F S512x512 .bf16) (x4 : Vec F S1x512 .f32) : outB x0 x1 x2 x3 x4 = k1_pay1 x0 x1 x2 x3 x4 := by
  unfold outB
  rw [View.canon_unit_zero offs_zero]
  simp only [View.ld_unit_zero (S := S1024x512) offs_zero, View.ld_unit_zero (S := S512x512) offs_zero,
    View.ld_unit_zero (S := S1x512) offs_zero]

/-! ## The body's triple -/

set_option maxHeartbeats 1000000 in
/-- The body on whole staging memrefs, the five inputs' at read contents `x0 … x4` and the output's at anything,
    runs to the continuation holding the inputs' as they were and the output's at `outB` of them: five loads that
    change nothing, a sixth whose value is dropped, and one store over the whole output buffer. -/
theorem soundB (c : Dev nD) (E : Set ℕ) (i : grid1.Coords) (arg1 : Memref sig .tc .vmem S1024x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .f32) (harg6 : arg6.IsWhole)
    (x0 : Vec F S1024x512 .bf16) (x1 : Vec F S512x512 .bf16) (x2 : Vec F S1x512 .f32) (x3 : Vec F S512x512 .bf16) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outB x0 x1 x2 x3 x4)) -∗ K ⟨⟩))
      ⊢ wp frame (wpE (defs₀ (F := F)) Variants.none c none) E (cc1__kernel2 i arg1 harg1 arg2 harg2 arg3 harg3 arg4 harg4 arg5 harg5 arg6 harg6) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverB _)

/-! ## The pipeline's proof data -/

/-- The proof data of this pipeline on core `c`: the arrays as the region finds them (`V`); after the body at
    point `t` each input's buffer still at its block and the output's at `outB` of the five input blocks; the
    invariant that the scoped rest of the core and its generator register are untouched; nothing owed; full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => outB (blkB V c 0 t) (blkB V c 1 t) (blkB V c 2 t) (blkB V c 3 t) (blkB V c 4 t)
  Φ _ := Pipeline.ΦA spec1 c
  q _ := fullShare
  owed _ := 0

/-- The proof data's arrays are the region-entry contents. -/
theorem A_eqB (c : Dev nD) (w : Fin cfg1.W) : (datB V c).A w = V c (Pipeline.arrRef spec1 w) := by
  dsimp only [datB]

/-- What the body leaves, window by window. -/
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) :
    (datB V c).after 5 t = outB (blkB V c 0 t) (blkB V c 1 t) (blkB V c 2 t) (blkB V c 3 t) (blkB V c 4 t) := by dsimp only [datB]

/-- Each input's current staging buffer holds its block at every point, copied in there or earlier. -/
theorem beforeB_0 (c : Dev nD) (t : Fin cfg1.N) (d) : (datB V c).before 0 t d = blkB V c 0 t :=
  foundB_0_of V (datB V c) (A_eqB V c 0) (afterB_0 V c) t d
theorem beforeB_1 (c : Dev nD) (t : Fin cfg1.N) (d) : (datB V c).before 1 t d = blkB V c 1 t :=
  foundB_1_of V (datB V c) (A_eqB V c 1) (afterB_1 V c) t d
theorem beforeB_2 (c : Dev nD) (t : Fin cfg1.N) (d) : (datB V c).before 2 t d = blkB V c 2 t :=
  foundB_2_of V (datB V c) (A_eqB V c 2) (afterB_2 V c) t d
theorem beforeB_3 (c : Dev nD) (t : Fin cfg1.N) (d) : (datB V c).before 3 t d = blkB V c 3 t :=
  foundB_3_of V (datB V c) (A_eqB V c 3) (afterB_3 V c) t d
theorem beforeB_4 (c : Dev nD) (t : Fin cfg1.N) (d) : (datB V c).before 4 t d = blkB V c 4 t :=
  foundB_4_of V (datB V c) (A_eqB V c 4) (afterB_4 V c) t d

/-! ## The body obligation, at a generic point -/

/-- What the body is called with at point `t`: the invariant, what the core owes, and the six windows' current
    staging buffers at their contents before the body, -/
def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d)))

/-- and what it returns: the same, at their contents after it. -/
def bodyPostB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t))

/-- The body at any point: the inputs' memrefs hold their blocks (`beforeB_w`), so `soundB` applies; the invariant
    and what the core owes pass through unread. -/
theorem sound_bodyB (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [beforeB_0, beforeB_1, beforeB_2, beforeB_3, beforeB_4]
  rw [show (datB V c).Φ t.succ = (datB V c).Φ t.castSucc from rfl,
    show (datB V c).owesAt () t.succ = (datB V c).owesAt () t.castSucc from rfl,
    afterB_0, afterB_1, afterB_2, afterB_3, afterB_4, afterB_5]
  iintro ⟨HΦ, Ho, ⟨%d0, H0⟩, ⟨%d1, H1⟩, ⟨%d2, H2⟩, ⟨%d3, H3⟩, ⟨%d4, H4⟩, ⟨%d5, H5⟩⟩
  iapply (soundB c Set.univ (grid1.coords t) _ _ _ _ _ _ _ _ _ _ _ _
    (blkB V c 0 t) (blkB V c 1 t) (blkB V c 2 t) (blkB V c 3 t) (blkB V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligationB (c : Dev nD) : BodyObligation (datB (F := F) V c) (defs₀ (F := F)) Variants.none () Set.univ := fun t => by
  rw [bigSep_W1, bigSep_W1]
  exact sound_bodyB V c t

end Cert.Kernel.Hand

end
-- ==== Proof.RunValsK.lean ====
/- The buffer contents at each boundary of @main's run — a host stretch, kernel region 0, a host stretch, kernel
   region 1, a host stretch — as a fold from the launch memory `m`:
   * `W0` the launch contents; `W1`, `W3`, `W5` after the three host stretches (each stretch's effect on the
     contents before it); `W2`, `W4` at the two regions' exits (the region's windows' arrays at what its pipeline
     leaves, every other buffer as entered); `V1`, `V3` (and `V2`, `V4`) the same read at the TensorCore's references;
   * the reading lemmas: a region's exit contents at one of its arrays (`W2_arr`, `W4_arr`) and away from them
     (`W2_of_ne`, `W4_of_ne`), in the form the regions' exits take (`hFA`, `hrestA`, `hFB`, `hrestB`);
   * a buffer no stretch writes and no window uses ends as launched (`W5_of_untouched`), so each of the fourteen
     arguments of @main does (`W5_main_argK`). -/
import proofs.«106201_j36953898615485_1_alg».proof.Proof.RegionA2K
import proofs.«106201_j36953898615485_1_alg».proof.Proof.RegionBK
import proofs.«106201_j36953898615485_1_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, region 0, a host stretch, region 1, a host stretch

## The buffer contents at each boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its windows' arrays at what the pipeline leaves (the inputs as entered, each output's write-backs
    folded over the grid), every other buffer as entered. -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the exit each of the region's arrays holds what the pipeline leaves, and every other buffer what it held at entry. -/
theorem hFA (c : Dev nD) (w : Fin cfg0.W) : (datA (V1 m ρ) c).arrAt w cfg0.N = V2 m ρ c (Pipeline.arrRef spec0 w) :=
  (W2_arr m ρ c w).symm
theorem hrestA (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its windows' arrays at what the pipeline leaves (the inputs as entered, each output's write-backs
    folded over the grid), every other buffer as entered. -/
def W4 (c : Dev nD) : Valuation τ sig (Elt F) :=
  Pipeline.withArrays spec1 c (W3 m ρ c) fun w => (datB (V3 m ρ) c).arrAt w cfg1.N
theorem W4_arr (c : Dev nD) (w : Fin cfg1.W) :
    W4 m ρ c (Proc.devRef .tc (Pipeline.arrRef spec1 w)) = (datB (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At the exit each of the region's arrays holds what the pipeline leaves, and every other buffer what it held at entry. -/
theorem hFB (c : Dev nD) (w : Fin cfg1.W) : (datB (V3 m ρ) c).arrAt w cfg1.N = V4 m ρ c (Pipeline.arrRef spec1 w) :=
  (W4_arr m ρ c w).symm
theorem hrestB (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-! ### The arguments end as launched

A buffer that no host stretch writes and that is no window's array of either region holds at the end what it held
at launch: the fold walks back through the five boundaries unchanged. Every argument of @main is such a buffer. -/

theorem W5_of_untouched (c : Dev nD) (r : Ref sig .tc) (h0 : r ∉ (hostOps0_W : List (Ref sig .tc)))
    (hA : ∀ w, Pipeline.arrRef spec0 w ≠ r) (h1 : r ∉ (hostOps1_W : List (Ref sig .tc)))
    (hB : ∀ w, Pipeline.arrRef spec1 w ≠ r) (h2 : r ∉ (hostOps2_W : List (Ref sig .tc))) :
    W5 m ρ c (Proc.devRef .tc r) = m ((c : Thread nD τ).loc r) :=
  (StableHlo.after_of_writes_sub hostOps2 _ hostOps2_writes h2).trans <|
  (W4_of_ne m ρ c r hB).trans <|
  (StableHlo.after_of_writes_sub hostOps1 _ hostOps1_writes h1).trans <|
  (W2_of_ne m ρ c r hA).trans <|
  (StableHlo.after_of_writes_sub hostOps0 _ hostOps0_writes h0).trans rfl

theorem W5_main_arg0 (c : Dev nD) : W5 m ρ c (Proc.devRef .tc main_arg0) = m ((c : Thread nD τ).loc main_arg0) :=
  W5_of_untouched m ρ c main_arg0 (by decide) (by decide) (by decide) (by decide) (by decide)
theorem W5_main_arg1 (c : Dev nD) : W5 m ρ c (Proc.devRef .tc main_arg1) = m ((c : Thread nD τ).loc main_arg1) :=
  W5_of_untouched m ρ c main_arg1 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide)
theorem W5_main_arg5 (c : Dev nD) : W5 m ρ c (Proc.devRef .tc main_arg5) = m ((c : Thread nD τ).loc main_arg5) :=
  W5_of_untouched m ρ c main_arg5 (by decide) (by decide) (by decide) (by decide) (by decide)
theorem W5_main_arg6 (c : Dev nD) : W5 m ρ c (Proc.devRef .tc main_arg6) = m ((c : Thread nD τ).loc main_arg6) :=
  W5_of_untouched m ρ c main_arg6 (by decide) (by decide) (by decide) (by decide) (by decide)
theorem W5_main_arg7 (c : Dev nD) : W5 m ρ c (Proc.devRef .tc main_arg7) = m ((c : Thread nD τ).loc main_arg7) :=
  W5_of_untouched m ρ c main_arg7 (by decide) (by decide) (by decide) (by decide) (by decide)
theorem W5_main_arg8 (c : Dev nD) : W5 m ρ c (Proc.devRef .tc main_arg8) = m ((c : Thread nD τ).loc main_arg8) :=
  W5_of_untouched m ρ c main_arg8 (by decide) (by decide) (by decide) (by decide) (by decide)
theorem W5_main_arg9 (c : Dev nD) : W5 m ρ c (Proc.devRef .tc main_arg9) = m ((c : Thread nD τ).loc main_arg9) :=
  W5_of_untouched m ρ c main_arg9 (by decide) (by decide) (by decide) (by decide) (by decide)
theorem W5_main_arg10 (c : Dev nD) : W5 m ρ c (Proc.devRef .tc main_arg10) = m ((c : Thread nD τ).loc main_arg10) :=
  W5_of_untouched m ρ c main_arg10 (by decide) (by decide) (by decide) (by decide) (by decide)
theorem W5_main_arg11 (c : Dev nD) : W5 m ρ c (Proc.devRef .tc main_arg11) = m ((c : Thread nD τ).loc main_arg11) :=
  W5_of_untouched m ρ c main_arg11 (by decide) (by decide) (by decide) (by decide) (by decide)
theorem W5_main_arg12 (c : Dev nD) : W5 m ρ c (Proc.devRef .tc main_arg12) = m ((c : Thread nD τ).loc main_arg12) :=
  W5_of_untouched m ρ c main_arg12 (by decide) (by decide) (by decide) (by decide) (by decide)
theorem W5_main_arg13 (c : Dev nD) : W5 m ρ c (Proc.devRef .tc main_arg13) = m ((c : Thread nD τ).loc main_arg13) :=
  W5_of_untouched m ρ c main_arg13 (by decide) (by decide) (by decide) (by decide) (by decide)

end Cert.Kernel.Hand

end
-- ==== Proof.RegionA1K.lean ====
import proofs.«106201_j36953898615485_1_alg».proof.Proof.Gen.Kernel.Launch
import proofs.«106201_j36953898615485_1_alg».proof.Proof.RegionA1aK
import proofs.«106201_j36953898615485_1_alg».proof.Proof.Gen.Kernel.Skeleton
import proofs.«106201_j36953898615485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step (neither first nor last): the accumulator, found at `a`, is left at `accB … a`; the feature buffer, found at anything, is left at `featB …`; the inputs are handed back as found; the gradient buffer is not touched. -/
theorem run_mid (c : Dev nD) (E : Set ℕ) (i : grid0.Coords) (hc1 : ¬ cond1 i) (hc2 : ¬ cond2 i)
    (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1x512x512 .f32) (harg13 : arg13.IsWhole) (arg14 : Memref sig .tc .vmem S512x512 .f32) (harg14 : arg14.IsWhole)
    (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32)
    (a : Vec F S512x512 .f32) (K : PUnit → sProp 𝕄) :
    iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
        ∗ (∃ d, owns (c : Thread nD τ) arg12 fullShare d) ∗ owns (c : Thread nD τ) arg14 fullShare a
        ∗ (iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
            ∗ owns (c : Thread nD τ) arg12 fullShare (featB x0 w2 b3 w4 b5 w6 b7)
            ∗ owns (c : Thread nD τ) arg14 fullShare (accB x0 x1 w2 b3 w4 b5 w6 b7 w8 b9 a)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  simp only [cc0__kernel1_eq_skeleton]; unfold cc0__kernel1_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f14, %hf14, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  obtain rfl := harg14.eq_unread hf14
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    unfold featB
    sl_unfold_run_names
    rw [View.read_writes_eq_canon _ _ _ (fun y => ⟨_, List.mem_cons_self, View.mem_set_unit_zero hz2 inb_S1024x512_S1024x512_0_0 y⟩), View.canon_cons_unit_zero hz2]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl

  iexists _; isplitr
  swap; · iexact H14
  ipureintro
  unfold accB
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  try rw [View.readCov_unit_zero _ hz2]
  simp only [View.readAt_eq_ld, Memref.IsWhole.read_unread, View.ld_unit_zero (S := S1024x512) hz2, View.ld_unit_zero (S := S512x512) hz2, View.ld_unit_zero (S := S1x512) hz2]
  try rfl

set_option maxHeartbeats 4000000 in
/-- A first step of a sweep: the accumulator, found at anything, is zeroed and then left at `accB … 0`; the feature buffer is left at `featB …`; the gradient buffer is not touched. -/
theorem run_first (c : Dev nD) (E : Set ℕ) (i : grid0.Coords) (hc1 : cond1 i) (hc2 : ¬ cond2 i)
    (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1x512x512 .f32) (harg13 : arg13.IsWhole) (arg14 : Memref sig .tc .vmem S512x512 .f32) (harg14 : arg14.IsWhole)
    (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32)
     (K : PUnit → sProp 𝕄) :
    iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
        ∗ (∃ d, owns (c : Thread nD τ) arg12 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
            ∗ owns (c : Thread nD τ) arg12 fullShare (featB x0 w2 b3 w4 b5 w6 b7)
            ∗ owns (c : Thread nD τ) arg14 fullShare (accB x0 x1 w2 b3 w4 b5 w6 b7 w8 b9 (k0_pay2 (F := F)))) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  simp only [cc0__kernel1_eq_skeleton]; unfold cc0__kernel1_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d14, %f14, -, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11

  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    unfold featB
    sl_unfold_run_names
    rw [View.read_writes_eq_canon _ _ _ (fun y => ⟨_, List.mem_cons_self, View.mem_set_unit_zero hz2 inb_S1024x512_S1024x512_0_0 y⟩), View.canon_cons_unit_zero hz2]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl

  iexists _; isplitr
  swap; · iexact H14
  ipureintro
  unfold accB
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  try rw [View.readCov_unit_zero _ hz2]
  simp only [View.readAt_eq_ld, Memref.IsWhole.read_unread, View.ld_unit_zero (S := S1024x512) hz2, View.ld_unit_zero (S := S512x512) hz2, View.ld_unit_zero (S := S1x512) hz2]
  try rfl

set_option maxHeartbeats 4000000 in
/-- A last step of a sweep: as a middle step, and then the accumulator's final contents are copied (with a leading unit axis) into the gradient buffer, found at anything. -/
theorem run_last (c : Dev nD) (E : Set ℕ) (i : grid0.Coords) (hc1 : ¬ cond1 i) (hc2 : cond2 i)
    (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1x512x512 .f32) (harg13 : arg13.IsWhole) (arg14 : Memref sig .tc .vmem S512x512 .f32) (harg14 : arg14.IsWhole)
    (x0 x1 : Vec F S1024x512 .f32) (w2 : Vec F S512x512 .bf16) (b3 : Vec F S1x512 .f32) (w4 : Vec F S512x512 .bf16) (b5 : Vec F S1x512 .f32)
    (w6 : Vec F S512x512 .bf16) (b7 : Vec F S1x512 .f32) (w8 : Vec F S512x512 .bf16) (b9 : Vec F S1x512 .f32)
    (a : Vec F S512x512 .f32) (K : PUnit → sProp 𝕄) :
    iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
        ∗ (∃ d, owns (c : Thread nD τ) arg12 fullShare d) ∗ (∃ d, owns (c : Thread nD τ) arg13 fullShare d) ∗ owns (c : Thread nD τ) arg14 fullShare a
        ∗ (iprop(owns (c : Thread nD τ) arg2 fullShare x0 ∗ owns (c : Thread nD τ) arg3 fullShare x1 ∗ owns (c : Thread nD τ) arg4 fullShare w2
        ∗ owns (c : Thread nD τ) arg5 fullShare b3 ∗ owns (c : Thread nD τ) arg6 fullShare w4 ∗ owns (c : Thread nD τ) arg7 fullShare b5
        ∗ owns (c : Thread nD τ) arg8 fullShare w6 ∗ owns (c : Thread nD τ) arg9 fullShare b7 ∗ owns (c : Thread nD τ) arg10 fullShare w8
        ∗ owns (c : Thread nD τ) arg11 fullShare b9
            ∗ owns (c : Thread nD τ) arg12 fullShare (featB x0 w2 b3 w4 b5 w6 b7)
            ∗ owns (c : Thread nD τ) arg13 fullShare (k0_pay1 (accB x0 x1 w2 b3 w4 b5 w6 b7 w8 b9 a))
            ∗ owns (c : Thread nD τ) arg14 fullShare (accB x0 x1 w2 b3 w4 b5 w6 b7 w8 b9 a)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  simp only [cc0__kernel1_eq_skeleton]; unfold cc0__kernel1_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  obtain rfl := harg14.eq_unread hf14
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    unfold featB
    sl_unfold_run_names
    rw [View.read_writes_eq_canon _ _ _ (fun y => ⟨_, List.mem_cons_self, View.mem_set_unit_zero hz2 inb_S1024x512_S1024x512_0_0 y⟩), View.canon_cons_unit_zero hz2]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl
  isplitl [H13]
  · iexists _; isplitr
    swap; · iexact H13
    ipureintro
    unfold accB
    sl_unfold_run_names
    rw [View.read_writes_eq_canon _ _ _ (fun y => ⟨_, List.mem_cons_self, View.mem_set_unit_zero hz3 inb_S1x512x512_S1x512x512_0_0_0 y⟩), View.canon_cons_unit_zero hz3]
    sl_unfold_run_names
    try rw [View.readCov_unit_zero _ hz2]
    simp only [View.readAt_eq_ld, Memref.IsWhole.read_unread, View.ld_unit_zero (S := S1024x512) hz2, View.ld_unit_zero (S := S512x512) hz2, View.ld_unit_zero (S := S1x512) hz2]
    try rfl
  iexists _; isplitr
  swap; · iexact H14
  ipureintro
  unfold accB
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  try rw [View.readCov_unit_zero _ hz2]
  simp only [View.readAt_eq_ld, Memref.IsWhole.read_unread, View.ld_unit_zero (S := S1024x512) hz2, View.ld_unit_zero (S := S512x512) hz2, View.ld_unit_zero (S := S1x512) hz2]
  try rfl

end Cert.Kernel.Hand

end
-- ==== Proof.RegionA3K.lean ====
import proofs.«106201_j36953898615485_1_alg».proof.Proof.Gen.Kernel.Launch
import proofs.«106201_j36953898615485_1_alg».proof.Proof.RegionA2K
import proofs.«106201_j36953898615485_1_alg».proof.Proof.RegionA1K
import proofs.«106201_j36953898615485_1_alg».proof.Proof.Gen.Kernel.Skeleton
import proofs.«106201_j36953898615485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d))
    ∗ (∃ d, owns (c : Thread nD τ) (st0_6 t) fullShare ((datA V c).before 6 t d))
    ∗ (∃ d, owns (c : Thread nD τ) (st0_7 t) fullShare ((datA V c).before 7 t d))
    ∗ (∃ d, owns (c : Thread nD τ) (st0_8 t) fullShare ((datA V c).before 8 t d))
    ∗ (∃ d, owns (c : Thread nD τ) (st0_9 t) fullShare ((datA V c).before 9 t d))
    ∗ (∃ d, owns (c : Thread nD τ) (st0_10 t) fullShare ((datA V c).before 10 t d))
    ∗ (∃ d, owns (c : Thread nD τ) (st0_11 t) fullShare ((datA V c).before 11 t d)))

def bodyPostA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t)
    ∗ owns (c : Thread nD τ) (st0_6 t) fullShare ((datA V c).after 6 t)
    ∗ owns (c : Thread nD τ) (st0_7 t) fullShare ((datA V c).after 7 t)
    ∗ owns (c : Thread nD τ) (st0_8 t) fullShare ((datA V c).after 8 t)
    ∗ owns (c : Thread nD τ) (st0_9 t) fullShare ((datA V c).after 9 t)
    ∗ owns (c : Thread nD τ) (st0_10 t) fullShare ((datA V c).after 10 t)
    ∗ (datA V c).leavesExact 11 t)

set_option maxHeartbeats 8000000 in
/-- The body at any point: the inputs' buffers hold their blocks; the point is a sweep's first, last or neither, which
    decides both conditions; the invariant hands over the accumulator at the running total so far (at anything before the very
    first point) and takes it back at the new total. -/
theorem sound_bodyA (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [beforeA_0, beforeA_1, beforeA_2, beforeA_3, beforeA_4, beforeA_5, beforeA_6, beforeA_7, beforeA_8, beforeA_9]
  rw [show (datA V c).owesAt () t.succ = (datA V c).owesAt () t.castSucc from rfl]
  rw [show (datA V c).Φ t.succ = PhiS V c (t.val + 1) t.isLt from rfl, PhiS_succ]
  rw [afterA_0, afterA_1, afterA_2, afterA_3, afterA_4, afterA_5, afterA_6, afterA_7, afterA_8, afterA_9, afterA_10]
  have hN : t.val < 64 := lt_of_lt_of_eq t.isLt N_0
  by_cases h0 : t.val % 32 = 0
  · have h31 : ¬ t.val % 32 = 31 := by omega
    rw [Dat.leavesExact_idle (datA V c) 11 t (idle11 t h31) (noFlush11 t h31), accAt_first V c t h0]
    unfold featAt stepAcc
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_first c Set.univ (grid0.coords t) ((hcond1 t).mpr h0) (fun h => h31 ((hcond2 t).mp h)) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t)  _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10

      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_first c Set.univ (grid0.coords t) ((hcond1 t).mpr h0) (fun h => h31 ((hcond2 t).mp h)) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t)  _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10

      isplitl [HS]; · iexists _; iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun e => h0 (by rw [e])
    by_cases h31 : t.val % 32 = 31
    · rw [show (datA V c).leavesExact 11 t = owns (c : Thread nD τ) (st0_11 t) fullShare ((datA V c).after 11 t) from by
        unfold Dat.leavesExact; rw [live11 t h31], afterA_11, accAt_next V c t h0]
      unfold featAt stepAcc
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_last c Set.univ (grid0.coords t) (fun h => h0 ((hcond1 t).mp h)) ((hcond2 t).mpr h31) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS]; · iexact HS
      iintro ⟨H0, H1, H2, H3, H4, H5, H6, H7, H8, H9, H10, H11, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (datA V c) 11 t (idle11 t h31) (noFlush11 t h31), accAt_next V c t h0]
      unfold featAt stepAcc
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_mid c Set.univ (grid0.coords t) (fun h => h0 ((hcond1 t).mp h)) (fun h => h31 ((hcond2 t).mp h)) _ _ _ _ _ _ _ _ _ _ _ _ _ _ _ _ _ _ _ _ _ _ _ _ _ _ (blkA V c 0 t) (blkA V c 1 t) (blkA V c 2 t) (blkA V c 3 t) (blkA V c 4 t) (blkA V c 5 t) (blkA V c 6 t) (blkA V c 7 t) (blkA V c 8 t) (blkA V c 9 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10

      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligationA (c : Dev nD) : BodyObligation (datA (F := F) V c) (defs₀ (F := F)) Variants.none () Set.univ := fun t => by
  rw [bigSep_W0, bigSep_W0]
  exact sound_bodyA V c t

end Cert.Kernel.Hand

end
-- ==== Proof.RunAllK.lean ====
/- The run of @main as five segments — a host stretch, kernel region 0, a host stretch, kernel region 1, a host
   stretch — over the thread state "every unscoped buffer at the boundary's contents, the generator register at some
   state, nothing owed":
   * `pdats` both pipelines' proof data, each at its region's entry contents; `regA`, `regB` the regions as segments;
     `segs` the five segments and `main_run`: @main is their run;
   * `run_all`: every weakly fair execution of @main terminates without fault and ends with every unscoped buffer at
     the last boundary's contents `W5`;
   * `frame_all`: hence every argument array ends as launched. -/
import proofs.«106201_j36953898615485_1_alg».proof.Proof.RunValsK
import proofs.«106201_j36953898615485_1_alg».proof.Proof.RegionA3K

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both pipelines' proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => datA (V1 m ρ) c
  | ⟨1, _⟩ => fun c => datB (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's effect on `W`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W5`,
    the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may
-- unfold plain definitions in a metavariable's type
set_option backward.isDefEq.respectTransparency.types false in
/-- Kernel region 0 over the thread state: entered from every unscoped buffer at `W1`, left at `W2` (what the
    next stretch is entered from). Its windows' arrays are split out of the unscoped buffers and put back at their
    exit contents; the generator register goes into the pipeline's invariant and comes out of it; nothing is owed;
    the kernel has no semaphore of its own. -/
def regA : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationA (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    -- region 0's invariant at the last point (64 points in, so past the first) gives back the class invariant
    refine (show (pdats m ρ 0 c).Φ (Fin.last _) ⊢ Pipeline.ΦA spec0 c from
      PhiS_out (V1 m ρ) c cfg0.N (le_refl _) (by have := N_0; show grid0.N ≠ 0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hFA m ρ c) (hrestA m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Kernel region 1 over the thread state: entered from every unscoped buffer at `W3`, left at `W4` (what the
    next stretch is entered from). Its windows' arrays are split out of the unscoped buffers and put back at their
    exit contents; the generator register goes into the pipeline's invariant and comes out of it; nothing is owed;
    the kernel has no semaphore of its own. -/
def regB : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationB (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hFB m ρ c) (hrestB m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (regA m ρ),
    .host (hseg hostOps1 hostOps1_sub hostOps1_fresh (W2 m ρ)),
    .region (regB m ρ),
    .host (hseg hostOps2 hostOps2_sub hostOps2_fresh (W4 m ρ)) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state every unscoped buffer of every core holds the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last stretch leaves the buffers beside the register and what is owed; regroup
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any `F`: every weakly fair execution of @main terminates, nothing faulting, and every final state
    has the fourteen argument arrays as launched — each argument is an unscoped buffer, read off `run_all`'s last
    contents, which at an argument are the launch memory (`W5_main_argK`). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩) (run_all m ρ)

end Cert.Kernel.Hand

end
-- ==== Proof.Spec.lean ====
/-
  The memory-write step as one function of its inputs, row by row, on the extended reals.

  A row x of the key (or value) matrix is scaled to unit length, x / max(‖x‖, ε); an affine map y ↦ y·M + b sends a
  row of 512 entries to a row of 512 entries; silu is z ↦ z · logistic z. The key feature of a row is two silu layers on
  top of the input projection of its unit row; the residual of a pair of rows (key row, value row) is the memory's
  prediction from the key feature minus the projected unit value row. The gradient matrix sums, over ALL rows r,
  residual(r)ᵢ · feature(r)ⱼ, and is scaled by the dyadic 2⁻²⁴ (= 2 / (65536·512)); the updated memory is
  (1 − forget)·mem + lr·gradient; a row's output reads the updated memory at its key feature and projects out.
  Matrices are given in the orientation in which a row multiplies them: entry M k q is the weight from input k to output q.
-/
import Idealize.ShloMosaic.PureOps.Ideal
import Idealize.ShloMosaic.Lib.ValueIdx

noncomputable section

open scoped BigOperators

namespace Cert.Spec

open Idealize.ShloMosaic

/-- The f32 literal nearest 1e-12, the floor under a row's length. -/
def eps : EReal := Ideal.ofBits .f32 0x2B8CBCCC#32
/-- The f32 literal 2⁻²⁴ = 2 / (65536 · 512), the gradient's scale. -/
def scale : EReal := Ideal.ofBits .f32 0x33800000#32
/-- The f32 literal 1.0. -/
def one32 : EReal := Ideal.ofBits .f32 0x3F800000#32

/-- A row divided by its length, the length floored at ε. -/
def unitRow (x : Fin 512 → EReal) (k : Fin 512) : EReal :=
  Ideal.div (x k) (max (Ideal.sqrt (∑ j : Fin 512, x j * x j)) eps)

/-- The affine map y ↦ y·M + b on a row. -/
def affineRow (M : Fin 512 → Fin 512 → EReal) (b : Fin 512 → EReal) (y : Fin 512 → EReal) (q : Fin 512) : EReal :=
  (∑ k : Fin 512, y k * M k q) + b q

/-- silu, entry by entry: z · logistic z. -/
def siluRow (z : Fin 512 → EReal) (q : Fin 512) : EReal := z q * Ideal.logistic (z q)

/-- The five weight matrices (entry `M k q`: from input k to output q) and their biases. -/
structure Weights where
  inM : Fin 512 → Fin 512 → EReal
  inb : Fin 512 → EReal
  l0M : Fin 512 → Fin 512 → EReal
  l0b : Fin 512 → EReal
  l1M : Fin 512 → Fin 512 → EReal
  l1b : Fin 512 → EReal
  memM : Fin 512 → Fin 512 → EReal
  memb : Fin 512 → EReal
  outM : Fin 512 → Fin 512 → EReal
  outb : Fin 512 → EReal

/-- A key row's feature: two silu layers over the input projection of its unit row. -/
def keyFeat (w : Weights) (x : Fin 512 → EReal) : Fin 512 → EReal :=
  siluRow (affineRow w.l1M w.l1b (siluRow (affineRow w.l0M w.l0b (affineRow w.inM w.inb (unitRow x)))))

/-- A value row's target: the input projection of its unit row. -/
def valProj (w : Weights) (x : Fin 512 → EReal) : Fin 512 → EReal := affineRow w.inM w.inb (unitRow x)

/-- The residual of a (key row, value row) pair: the memory's prediction minus the target. -/
def resid (w : Weights) (xk xv : Fin 512 → EReal) (i : Fin 512) : EReal :=
  affineRow w.memM w.memb (keyFeat w xk) i - valProj w xv i

/-- The unscaled gradient: over the rows r of a stack of n rows, the sum of residual(r)ᵢ · feature(r)ⱼ. -/
def gradSum {n : Nat} (w : Weights) (K V : Fin n → Fin 512 → EReal) (i j : Fin 512) : EReal :=
  ∑ r : Fin n, resid w (K r) (V r) i * keyFeat w (K r) j

/-- The updated memory, in the orientation a row multiplies it: entry (k, q) is
    (1 − forget) · mem[q,k] + lr · g[q,k], where mem[q,k] = memM k q. -/
def updatedM (w : Weights) (fg lr : EReal) (g : Fin 512 → Fin 512 → EReal) (k q : Fin 512) : EReal :=
  (one32 - fg) * w.memM k q + lr * g q k

/-- A row's output given the gradient matrix g (already scaled). -/
def outRow (w : Weights) (fg lr : EReal) (g : Fin 512 → Fin 512 → EReal) (xk : Fin 512 → EReal) : Fin 512 → EReal :=
  affineRow w.outM w.outb (affineRow (updatedM w fg lr g) w.memb (keyFeat w xk))

/-- The whole step on a stack of n key rows and n value rows: row r, entry q of the output. -/
def G {n : Nat} (w : Weights) (fg lr : EReal) (K V : Fin n → Fin 512 → EReal) (r : Fin n) (q : Fin 512) : EReal :=
  outRow w fg lr (fun i j => scale * gradSum w K V i j) (K r) q

/-! ## The step on arrays

The arguments as the two programs receive them: key and value of shape [8, 8192, 512], flattened to 65536 rows; each
weight matrix stored [output, input], so the orientation a row multiplies it in is its transpose. -/

open Idealize.ShloMosaic.ValueIdx

abbrev T3 : Shape := ⟨3, ![8, 8192, 512]⟩
abbrev T2 : Shape := ⟨2, ![65536, 512]⟩
abbrev TW : Shape := ⟨2, ![512, 512]⟩
abbrev TB : Shape := ⟨1, ![512]⟩
abbrev T1 : Shape := ⟨1, ![1]⟩

/-- The rows of an [n, 512] array. -/
def rowsOf {n : Nat} (a : (⟨2, ![n, 512]⟩ : Shape).Idx → EReal) : Fin n → Fin 512 → EReal := fun r k => a (ix2 r k)

/-- The weights from the five [output, input] matrices and the five bias vectors, each matrix read transposed. -/
def weightsOf (inW : TW.Idx → EReal) (inb : TB.Idx → EReal) (l0W : TW.Idx → EReal) (l0b : TB.Idx → EReal)
    (l1W : TW.Idx → EReal) (l1b : TB.Idx → EReal) (memW : TW.Idx → EReal) (memb : TB.Idx → EReal)
    (outW : TW.Idx → EReal) (outb : TB.Idx → EReal) : Weights where
  inM k q := inW (ix2 q k)
  inb q := inb (ix1 q)
  l0M k q := l0W (ix2 q k)
  l0b q := l0b (ix1 q)
  l1M k q := l1W (ix2 q k)
  l1b q := l1b (ix1 q)
  memM k q := memW (ix2 q k)
  memb q := memb (ix1 q)
  outM k q := outW (ix2 q k)
  outb q := outb (ix1 q)

/-- The step's result as a [65536, 512] array of the fourteen argument arrays (before the last reshape to [8, 8192, 512]). -/
def out2 (hc : T3.ShapeCasts T2) (key value : T3.Idx → EReal) (inW : TW.Idx → EReal) (inb : TB.Idx → EReal)
    (l0W : TW.Idx → EReal) (l0b : TB.Idx → EReal) (l1W : TW.Idx → EReal) (l1b : TB.Idx → EReal)
    (memW : TW.Idx → EReal) (memb : TB.Idx → EReal) (outW : TW.Idx → EReal) (outb : TB.Idx → EReal)
    (forget lr : T1.Idx → EReal) : T2.Idx → EReal :=
  fun i => G (weightsOf inW inb l0W l0b l1W l1b memW memb outW outb) (forget (ix1 0)) (lr (ix1 0))
    (rowsOf (shapeCast T2 key hc)) (rowsOf (shapeCast T2 value hc)) (i 0) (i 1)

end Cert.Spec

end
-- ==== Proof.KPayA.lean ====
/-
  The operations of the kernel bodies that are not entry-by-entry, each read at coordinates.

  A product of a [1024, 512] array with a [512, 512] array into a zero accumulator is, at (p, q), the sum over k of
  lhs (p, k) · rhs (k, q). The one product that contracts the ROW axis of two [1024, 512] arrays is, at (i, j), the sum
  over the rows p of lhs (p, i) · rhs (p, j).
-/
import proofs.«106201_j36953898615485_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable [Cert.KernelIdeal.Facts]

/-! ## The product along the lane axis: [1024, 512] × [512, 512] -/

/-- The left operand's row coordinate is the output's row. -/
theorem mm_lhs0 (i : S1024x512.Idx) (c : dot_S1024x512_S512x512_S1024x512_1_0_0_1_n_n.contr.Idx) : (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- The left operand's lane coordinate is the contraction's position. -/
theorem mm_lhs1 (i : S1024x512.Idx) (c : dot_S1024x512_S512x512_S1024x512_1_0_0_1_n_n.contr.Idx) : (dot_S1024x512_S512x512_S1024x512_1_0_0_1_n_n.lhsIdx i c 1).val = (c ⟨0, by decide⟩).val :=
  dot_S1024x512_S512x512_S1024x512_1_0_0_1_n_n.lhsIdx_val_of_single rfl i c
/-- The right operand's row coordinate is the contraction's position. -/
theorem mm_rhs0 (i : S1024x512.Idx) (c : dot_S1024x512_S512x512_S1024x512_1_0_0_1_n_n.contr.Idx) : (dot_S1024x512_S512x512_S1024x512_1_0_0_1_n_n.rhsIdx i c 0).val = (c ⟨0, by decide⟩).val :=
  dot_S1024x512_S512x512_S1024x512_1_0_0_1_n_n.rhsIdx_val_of_single rfl i c
/-- The right operand's lane coordinate is the output's lane. -/
theorem mm_rhs1 (i : S1024x512.Idx) (c : dot_S1024x512_S512x512_S1024x512_1_0_0_1_n_n.contr.Idx) : (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The row-by-matrix product into a zero accumulator, at (p, q): the sum over k of lhs (p, k) · rhs (k, q). -/
theorem mm_apply {φ₁ φ₂ : FTy} (lhs : FVec Ideal S1024x512 φ₁) (rhs : FVec Ideal S512x512 φ₂) (p : Fin 1024) (q : Fin 512) :
    matmul dot_S1024x512_S512x512_S1024x512_1_0_0_1_n_n none lhs rhs (constant (F := Ideal) S1024x512 .f32 0x00000000#32) (ix2 p q)
      = ∑ k : Fin 512, lhs (ix2 p k) * rhs (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k :=
    funext fun a => Fin.ext (by
      match a with
      | ⟨0, _⟩ => exact mm_lhs0 _ _
      | ⟨1, _⟩ => exact (mm_lhs1 _ _).trans hk)
  have er : dot_S1024x512_S512x512_S1024x512_1_0_0_1_n_n.rhsIdx (ix2 p q) ((contrEquiv1 dot_S1024x512_S512x512_S1024x512_1_0_0_1_n_n 512 rfl rfl).symm k) = ix2 k q :=
    funext fun a => Fin.ext (by
      match a with
      | ⟨0, _⟩ => exact (mm_rhs0 _ _).trans hk
      | ⟨1, _⟩ => exact mm_rhs1 _ _)
  rw [el, er]

/-! ## The product along the row axis: [1024, 512]ᵀ × [1024, 512] -/

/-- The left operand's row coordinate is the contraction's position. -/
theorem mmT_lhs0 (i : S512x512.Idx) (c : dot_S1024x512_S1024x512_S512x512_0_0_1_1_n_n.contr.Idx) : (dot_S1024x512_S1024x512_S512x512_0_0_1_1_n_n.lhsIdx i c 0).val = (c ⟨0, by decide⟩).val :=
  dot_S1024x512_S1024x512_S512x512_0_0_1_1_n_n.lhsIdx_val_of_single rfl i c
/-- The left operand's lane coordinate is the output's row. -/
theorem mmT_lhs1 (i : S512x512.Idx) (c : dot_S1024x512_S1024x512_S512x512_0_0_1_1_n_n.contr.Idx) : (dot_S1024x512_S1024x512_S512x512_0_0_1_1_n_n.lhsIdx i c 1).val = (i 0).val := by
  unfold DotDims.lhsIdx
  rw [dif_neg (show ¬(1 : Fin S1024x512.rank) ∈ dot_S1024x512_S1024x512_S512x512_0_0_1_1_n_n.lhsBatch by decide),
    dif_pos (show (1 : Fin S1024x512.rank) ∈ dot_S1024x512_S1024x512_S512x512_0_0_1_1_n_n.lhsNonContracting by decide)]
  rfl
/-- The right operand's row coordinate is the contraction's position. -/
theorem mmT_rhs0 (i : S512x512.Idx) (c : dot_S1024x512_S1024x512_S512x512_0_0_1_1_n_n.contr.Idx) : (dot_S1024x512_S1024x512_S512x512_0_0_1_1_n_n.rhsIdx i c 0).val = (c ⟨0, by decide⟩).val :=
  dot_S1024x512_S1024x512_S512x512_0_0_1_1_n_n.rhsIdx_val_of_single rfl i c
/-- The right operand's lane coordinate is the output's lane. -/
theorem mmT_rhs1 (i : S512x512.Idx) (c : dot_S1024x512_S1024x512_S512x512_0_0_1_1_n_n.contr.Idx) : (dot_S1024x512_S1024x512_S512x512_0_0_1_1_n_n.rhsIdx i c 1).val = (i 1).val := by
  unfold DotDims.rhsIdx
  rw [dif_neg (show ¬(1 : Fin S1024x512.rank) ∈ dot_S1024x512_S1024x512_S512x512_0_0_1_1_n_n.rhsBatch by decide),
    dif_pos (show (1 : Fin S1024x512.rank) ∈ dot_S1024x512_S1024x512_S512x512_0_0_1_1_n_n.rhsNonContracting by decide)]
  rfl

/-- The product that contracts the rows of both operands, into a zero accumulator, at (i, j): the sum over the rows p
    of lhs (p, i) · rhs (p, j). -/
theorem mmT_apply {φ₁ φ₂ : FTy} (lhs : FVec Ideal S1024x512 φ₁) (rhs : FVec Ideal S1024x512 φ₂) (i j : Fin 512) :
    matmul dot_S1024x512_S1024x512_S512x512_0_0_1_1_n_n none lhs rhs (constant (F := Ideal) S512x512 .f32 0x00000000#32) (ix2 i j)
      = ∑ p : Fin 1024, lhs (ix2 p i) * rhs (ix2 p j) := by
  simp only [matmul]
  rw [Ideal.matmul_constant_zero_apply, ← Equiv.sum_comp (contrEquiv1 dot_S1024x512_S1024x512_S512x512_0_0_1_1_n_n 1024 rfl rfl).symm]
  refine Finset.sum_congr rfl fun p _ => ?_
  have hp := contrEquiv1_symm_val dot_S1024x512_S1024x512_S512x512_0_0_1_1_n_n 1024 rfl rfl p
  have el : dot_S1024x512_S1024x512_S512x512_0_0_1_1_n_n.lhsIdx (ix2 i j) ((contrEquiv1 dot_S1024x512_S1024x512_S512x512_0_0_1_1_n_n 1024 rfl rfl).symm p) = ix2 p i :=
    funext fun a => Fin.ext (by
      match a with
      | ⟨0, _⟩ => exact (mmT_lhs0 _ _).trans hp
      | ⟨1, _⟩ => exact mmT_lhs1 _ _)
  have er : dot_S1024x512_S1024x512_S512x512_0_0_1_1_n_n.rhsIdx (ix2 i j) ((contrEquiv1 dot_S1024x512_S1024x512_S512x512_0_0_1_1_n_n 1024 rfl rfl).symm p) = ix2 p j :=
    funext fun a => Fin.ext (by
      match a with
      | ⟨0, _⟩ => exact (mmT_rhs0 _ _).trans hp
      | ⟨1, _⟩ => exact mmT_rhs1 _ _)
  rw [el, er]

end Cert.KernelIdeal.Pay

end
-- ==== Proof.KPayB.lean ====
/-
  The row sum and the column forms of the kernel bodies, read at coordinates.

  The sum along a row of a [1024, 512] array, started at the zero word, is the sum of the row's 512 entries. A column
  of 1024 entries viewed as [1024, 1] keeps its entries; that column spread over 512 lanes reads, at (p, q), the
  column's entry p; a [1, 512] row spread over 1024 rows reads, at (p, q), the row's entry q.
-/
import proofs.«106201_j36953898615485_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable [Cert.KernelIdeal.Facts]

/-- The inserted index of the row sum: row p, lane k. -/
theorem rowsum_lift (p : Fin 1024) (k : Fin 512) : reduces_S1024x512_S1024.lift (ix1 p) k = ix2 p k :=
  funext fun a => Fin.ext (by
    match a with
    | ⟨0, _⟩ => rfl
    | ⟨1, _⟩ => rfl)

/-- The sum along row p, started at the zero word: the sum of the row's 512 entries. -/
theorem rowsum_apply (v : FVec Ideal S1024x512 .f32) (p : Fin 1024) :
    multiReduction (F := Ideal) .add [1] S1024 v 0x00000000#32 reduces_S1024x512_S1024 (.inl rfl) rfl (ix1 p)
      = ∑ k : Fin 512, v (ix2 p k) := by
  refine (Ideal.multiReduction_add_single v 0x00000000#32 reduces_S1024x512_S1024 (.inl rfl) rfl (ix1 p)).trans ?_
  exact Finset.sum_congr rfl fun k _ => congrArg v (rowsum_lift p k)

/-- A column of 1024 entries viewed as [1024, 1] reads, at (p, u), its entry p. -/
theorem col_apply {α : Type} (v : S1024.Idx → α) (p : Fin 1024) (u : Fin 1) :
    shapeCast S1024x1 v shapeCasts_S1024_S1024x1 (ix2 p u) = v (ix1 p) :=
  shapeCast_apply v _ _ _ (by
    have hu : u.val = 0 := by omega
    rw [Shape.rowMajor_val_one, Shape.rowMajor_val_two]
    show p.val = p.val * 1 + u.val
    rw [hu, Nat.mul_one, Nat.add_zero])

/-- A [1024, 1] column spread over 512 lanes reads, at (p, q), the column's entry p. -/
theorem colBcast_apply {α : Type} (v : S1024x1.Idx → α) (p : Fin 1024) (q : Fin 512) :
    broadcastTo S1024x512 v broadcasts_S1024x1_S1024x512 (ix2 p q) = v (ix2 p (0 : Fin 1)) := by
  refine broadcastTo_apply v _ (ix2 p q) (ix2 p (0 : Fin 1)) fun ax => ?_
  match ax with
  | ⟨0, _⟩ =>
    exact (if_neg (show ¬((1024 : Nat) = 1) by decide)).symm
  | ⟨1, _⟩ => rfl

/-- A [1, 512] row spread over 1024 rows reads, at (p, q), the row's entry q. -/
theorem rowBcast_apply {α : Type} (v : S1x512.Idx → α) (p : Fin 1024) (q : Fin 512) :
    broadcastTo S1024x512 v broadcasts_S1x512_S1024x512 (ix2 p q) = v (ix2 (0 : Fin 1) q) :=
  broadcastTo_1b_ab_apply v _ p q

end Cert.KernelIdeal.Pay

end
-- ==== Proof.KPayC.lean ====
/-
  The three stages every row of the kernel bodies passes through, read at coordinates.

  The unit row: a [1024, 512] array divided, row by row, by the row's length floored at ε, reads at (p, k) the entry k
  of the unit row of row p. The affine layer: a [1024, 512] array times a [512, 512] array plus a [1, 512] row reads
  at (p, q) the affine map of row p at q. The silu layer: z · logistic z entry by entry.
-/
import proofs.«106201_j36953898615485_1_alg».proof.Proof.Spec
import proofs.«106201_j36953898615485_1_alg».proof.Proof.KPayA
import proofs.«106201_j36953898615485_1_alg».proof.Proof.KPayB

noncomputable section

open scoped BigOperators

namespace Cert.KernelIdeal.Pay

open Cert.KernelIdeal Cert.KernelIdeal.Gen Idealize.ShloMosaic Idealize.ShloMosaic.ValueIdx

variable [Cert.KernelIdeal.Facts]

/-- The rows of a [1024, 512] array. -/
abbrev rowAt (x : S1024x512.Idx → EReal) (p : Fin 1024) : Fin 512 → EReal := fun k => x (ix2 p k)
/-- A [512, 512] array as a matrix a row multiplies: entry (k, q). -/
abbrev matOf (w : S512x512.Idx → EReal) : Fin 512 → Fin 512 → EReal := fun k q => w (ix2 k q)
/-- A [1, 512] array as a bias row. -/
abbrev biasOf (b : S1x512.Idx → EReal) : Fin 512 → EReal := fun q => b (ix2 (0 : Fin 1) q)

/-- A [1024, 512] array divided by its rows' lengths, each floored at ε: at (p, k), the unit row of row p at k. -/
theorem unit_apply (x : FVec Ideal S1024x512 .f32) (p : Fin 1024) (k : Fin 512) :
    divf x (broadcastTo S1024x512
        (maximumf
          (sqrt (shapeCast S1024x1
            (multiReduction (F := Ideal) .add [1] S1024 (mulf x x) 0x00000000#32 reduces_S1024x512_S1024 (.inl rfl) rfl)
            shapeCasts_S1024_S1024x1))
          (broadcast S1024x1 (Scalar.ofBits (F := Ideal) .f32 0x2B8CBCCC#32)))
        broadcasts_S1024x1_S1024x512) (ix2 p k)
      = Cert.Spec.unitRow (rowAt x p) k := by
  rw [divf_apply, colBcast_apply, maximumf_apply, broadcast_apply]
  show Ideal.div (x (ix2 p k)) (max (Ideal.sqrt (shapeCast S1024x1 _ shapeCasts_S1024_S1024x1 (ix2 p (0 : Fin 1)))) _) = _
  rw [col_apply, rowsum_apply]
  rfl

/-- The affine layer at (p, q): the affine map of row p, read at q. -/
theorem affine_apply {φ₁ φ₂ : FTy} (y : FVec Ideal S1024x512 φ₁) (w : FVec Ideal S512x512 φ₂) (b : FVec Ideal S1x512 .f32)
    (p : Fin 1024) (q : Fin 512) :
    addf (matmul dot_S1024x512_S512x512_S1024x512_1_0_0_1_n_n none y w (constant (F := Ideal) S1024x512 .f32 0x00000000#32))
        (broadcastTo S1024x512 b broadcasts_S1x512_S1024x512) (ix2 p q)
      = Cert.Spec.affineRow (matOf w) (biasOf b) (rowAt y p) q := by
  rw [addf_apply, mm_apply, rowBcast_apply]
  rfl

/-- The silu layer at an index. -/
theorem silu_apply (z : FVec Ideal S1024x512 .f32) (p : Fin 1024) (q : Fin 512) :
    mulf z (logistic z) (ix2 p q) = Cert.Spec.siluRow (rowAt z p) q := rfl

end Cert.KernelIdeal.Pay

end
-- ==== Proof.KPayD.lean ====
/-
  The first kernel's input projections, its two trivial payloads, and the second kernel's payload, at coordinates.

  The projected unit key rows and the projected unit value rows are the same function of their array: the input layer's
  affine map of the unit row. The accumulator's first value is the zero word, which is 0; the block stored with a
  leading unit axis keeps its entries. The second kernel's payload is two affine layers, one after the other.
-/
import proofs.«106201_j36953898615485_1_alg».proof.Proof.Spec
import proofs.«106201_j36953898615485_1_alg».proof.Proof.KPayC

noncomputable section

open scoped BigOperators

namespace Cert.KernelIdeal.Pay

open Cert.KernelIdeal Cert.KernelIdeal.Gen Idealize.ShloMosaic Idealize.ShloMosaic.ValueIdx

variable [Cert.KernelIdeal.Facts]

/-- The projected unit key rows at (p, q): the input layer of the unit row of row p. -/
theorem pay5_apply (x0 : Vec Ideal S1024x512 .f32) (w2 : Vec Ideal S512x512 .bf16) (b3 : Vec Ideal S1x512 .f32)
    (p : Fin 1024) (q : Fin 512) :
    k0_pay5 x0 w2 b3 (ix2 p q) = Cert.Spec.affineRow (matOf w2) (biasOf b3) (Cert.Spec.unitRow (rowAt x0 p)) q := by
  unfold k0_pay5 k0_pay3 k0_pay4
  dsimp only
  rw [shapeCast_self, shapeCast_self, shapeCast_self, affine_apply]
  refine congrArg (fun y => Cert.Spec.affineRow (matOf w2) (biasOf b3) y q) (funext fun k => ?_)
  show truncf .bf16 _ bitsLt_bf16_f32 (ix2 p k) = _
  rw [truncf_apply]
  exact unit_apply x0 p k

/-- The projected unit value rows at (p, q): the same function of the value block. -/
theorem pay6_apply (x1 : Vec Ideal S1024x512 .f32) (w2 : Vec Ideal S512x512 .bf16) (b3 : Vec Ideal S1x512 .f32)
    (p : Fin 1024) (q : Fin 512) :
    k0_pay6 x1 w2 b3 (ix2 p q) = Cert.Spec.affineRow (matOf w2) (biasOf b3) (Cert.Spec.unitRow (rowAt x1 p)) q := by
  unfold k0_pay6 k0_pay3 k0_pay4
  dsimp only
  rw [shapeCast_self, shapeCast_self, shapeCast_self, affine_apply]
  refine congrArg (fun y => Cert.Spec.affineRow (matOf w2) (biasOf b3) y q) (funext fun k => ?_)
  show truncf .bf16 _ bitsLt_bf16_f32 (ix2 p k) = _
  rw [truncf_apply]
  exact unit_apply x1 p k

/-- The accumulator's first value: the zero word, which is 0. -/
theorem zero_apply (i j : Fin 512) : k0_pay2 (F := Ideal) (ix2 i j) = 0 := by
  unfold k0_pay2
  rw [shapeCast_self, broadcast_apply]
  exact Ideal.ofBits_zero_f32

/-- The accumulator stored with a leading unit axis keeps its entries. -/
theorem lift_apply (v : Vec Ideal S512x512 .f32) (i j : Fin 512) : k0_pay1 v (ix3 (0 : Fin 1) i j) = v (ix2 i j) := by
  unfold k0_pay1
  exact shapeCast_ab_1ab_apply v _ 0 i j

/-- The second kernel's payload at (p, q): two affine layers, one after the other, of row p. -/
theorem k1_apply (v0 : Vec Ideal S1024x512 .bf16) (v2 : Vec Ideal S512x512 .bf16) (v4 : Vec Ideal S1x512 .f32)
    (v9 : Vec Ideal S512x512 .bf16) (v11 : Vec Ideal S1x512 .f32) (p : Fin 1024) (q : Fin 512) :
    k1_pay1 v0 v2 v4 v9 v11 (ix2 p q)
      = Cert.Spec.affineRow (fun k q => v9 (ix2 k q)) (fun q => v11 (ix2 (0 : Fin 1) q))
          (Cert.Spec.affineRow (fun k q => v2 (ix2 k q)) (fun q => v4 (ix2 (0 : Fin 1) q)) (fun k => v0 (ix2 p k))) q := by
  unfold k1_pay1
  rw [shapeCast_self, shapeCast_self, shapeCast_self, shapeCast_self, shapeCast_self, affine_apply]
  refine congrArg (fun y => Cert.Spec.affineRow (matOf v9) (biasOf v11) y q) (funext fun k => ?_)
  show truncf .bf16 _ bitsLt_bf16_f32 (ix2 p k) = _
  rw [truncf_apply, affine_apply]

end Cert.KernelIdeal.Pay

end
-- ==== Proof.KPayE.lean ====
/-
  The first kernel's key feature at coordinates.

  From the projected unit key rows y, the feature is silu of the second layer of silu of the first layer of y, row by
  row; stored in the narrower format it keeps its entries. With y the input projection of the unit rows of the key
  block, row p of the feature is the specification's key feature of row p of the key block.
-/
import proofs.«106201_j36953898615485_1_alg».proof.Proof.Spec
import proofs.«106201_j36953898615485_1_alg».proof.Proof.KPayD

noncomputable section

open scoped BigOperators

namespace Cert.KernelIdeal.Pay

open Cert.KernelIdeal Cert.KernelIdeal.Gen Idealize.ShloMosaic Idealize.ShloMosaic.ValueIdx

variable [Cert.KernelIdeal.Facts]

/-- A block's weights in the orientation a row multiplies them ([in, out] arrays, [1, 512] biases); the output layer
    is not used by the first kernel. -/
def wBlk (w2 : Vec Ideal S512x512 .bf16) (b3 : Vec Ideal S1x512 .f32) (w4 : Vec Ideal S512x512 .bf16)
    (b5 : Vec Ideal S1x512 .f32) (w6 : Vec Ideal S512x512 .bf16) (b7 : Vec Ideal S1x512 .f32)
    (w8 : Vec Ideal S512x512 .bf16) (b9 : Vec Ideal S1x512 .f32) : Cert.Spec.Weights :=
  { inM := fun k q => w2 (ix2 k q), inb := fun q => b3 (ix2 (0 : Fin 1) q),
    l0M := fun k q => w4 (ix2 k q), l0b := fun q => b5 (ix2 (0 : Fin 1) q),
    l1M := fun k q => w6 (ix2 k q), l1b := fun q => b7 (ix2 (0 : Fin 1) q),
    memM := fun k q => w8 (ix2 k q), memb := fun q => b9 (ix2 (0 : Fin 1) q),
    outM := fun _ _ => 0, outb := fun _ => 0 }

/-- The weight block read unchanged. -/
theorem pay7_eq (w4 : Vec Ideal S512x512 .bf16) : k0_pay7 w4 = w4 := by
  unfold k0_pay7
  exact shapeCast_self w4 _

/-- The two silu layers over projected rows y, at (p, q). -/
theorem pay8_apply (y : FVec Ideal S1024x512 .f32) (w4 : FVec Ideal S512x512 .bf16) (b5 : Vec Ideal S1x512 .f32)
    (w6 : Vec Ideal S512x512 .bf16) (b7 : Vec Ideal S1x512 .f32) (p : Fin 1024) (q : Fin 512) :
    k0_pay8 y w4 b5 w6 b7 (ix2 p q)
      = Cert.Spec.siluRow (Cert.Spec.affineRow (matOf w6) (biasOf b7)
          (Cert.Spec.siluRow (Cert.Spec.affineRow (matOf w4) (biasOf b5) (rowAt y p)))) q := by
  unfold k0_pay8
  rw [shapeCast_self, shapeCast_self, shapeCast_self, silu_apply]
  refine congrArg (fun z => Cert.Spec.siluRow z q) (funext fun k => ?_)
  show addf _ _ (ix2 p k) = _
  rw [affine_apply]
  refine congrArg (fun z => Cert.Spec.affineRow (matOf w6) (biasOf b7) z k) (funext fun k' => ?_)
  show truncf .bf16 _ bitsLt_bf16_f32 (ix2 p k') = _
  rw [truncf_apply, silu_apply]
  refine congrArg (fun z => Cert.Spec.siluRow z k') (funext fun k'' => ?_)
  show addf _ _ (ix2 p k'') = _
  rw [affine_apply]
  rfl

/-- The stored feature keeps the feature's entries. -/
theorem pay9_apply (y : FVec Ideal S1024x512 .f32) (w4 : FVec Ideal S512x512 .bf16) (b5 : Vec Ideal S1x512 .f32)
    (w6 : Vec Ideal S512x512 .bf16) (b7 : Vec Ideal S1x512 .f32) (p : Fin 1024) (q : Fin 512) :
    k0_pay9 y w4 b5 w6 b7 (ix2 p q) = k0_pay8 y w4 b5 w6 b7 (ix2 p q) := by
  unfold k0_pay9
  exact truncf_apply _ _ _

/-- Row p of the projected unit key rows is the input layer of the unit row of row p of the key block. -/
theorem pay5_row (x0 : Vec Ideal S1024x512 .f32) (w2 : Vec Ideal S512x512 .bf16) (b3 : Vec Ideal S1x512 .f32) (p : Fin 1024) :
    rowAt (k0_pay5 x0 w2 b3) p = Cert.Spec.affineRow (matOf w2) (biasOf b3) (Cert.Spec.unitRow (rowAt x0 p)) :=
  funext fun q => pay5_apply x0 w2 b3 p q

/-- The feature block at (p, q): the key feature of row p of the key block, at q. -/
theorem feat_apply (x0 : Vec Ideal S1024x512 .f32) (w2 : Vec Ideal S512x512 .bf16) (b3 : Vec Ideal S1x512 .f32)
    (w4 : Vec Ideal S512x512 .bf16) (b5 : Vec Ideal S1x512 .f32) (w6 : Vec Ideal S512x512 .bf16) (b7 : Vec Ideal S1x512 .f32)
    (w8 : Vec Ideal S512x512 .bf16) (b9 : Vec Ideal S1x512 .f32) (p : Fin 1024) (q : Fin 512) :
    k0_pay9 (k0_pay5 x0 w2 b3) (k0_pay7 w4) b5 w6 b7 (ix2 p q)
      = Cert.Spec.keyFeat (wBlk w2 b3 w4 b5 w6 b7 w8 b9) (fun k => x0 (ix2 p k)) q := by
  rw [pay9_apply, pay8_apply, pay7_eq, pay5_row]
  rfl

end Cert.KernelIdeal.Pay

end
-- ==== Proof.KPayF.lean ====
/-
  The first kernel's accumulator update at coordinates.

  The residual block is the memory layer of the feature minus the projected unit value rows; the update adds, to the
  accumulator's entry (i, j), the sum over the block's 1024 rows p of residual (p, i) · feature (p, j): the product
  that contracts the row axis of both blocks.
-/
import proofs.«106201_j36953898615485_1_alg».proof.Proof.Spec
import proofs.«106201_j36953898615485_1_alg».proof.Proof.KPayE

noncomputable section

open scoped BigOperators

namespace Cert.KernelIdeal.Pay

open Cert.KernelIdeal Cert.KernelIdeal.Gen Idealize.ShloMosaic Idealize.ShloMosaic.ValueIdx

variable [Cert.KernelIdeal.Facts]

/-- Row p of the stored feature block is the key feature of row p of the key block. -/
theorem feat_row (x0 : Vec Ideal S1024x512 .f32) (w2 : Vec Ideal S512x512 .bf16) (b3 : Vec Ideal S1x512 .f32)
    (w4 : Vec Ideal S512x512 .bf16) (b5 : Vec Ideal S1x512 .f32) (w6 : Vec Ideal S512x512 .bf16) (b7 : Vec Ideal S1x512 .f32)
    (w8 : Vec Ideal S512x512 .bf16) (b9 : Vec Ideal S1x512 .f32) (p : Fin 1024) :
    rowAt (truncf .bf16 (k0_pay8 (k0_pay5 x0 w2 b3) (k0_pay7 w4) b5 w6 b7) bitsLt_bf16_f32) p
      = Cert.Spec.keyFeat (wBlk w2 b3 w4 b5 w6 b7 w8 b9) (fun k => x0 (ix2 p k)) :=
  funext fun q => by
    have h := feat_apply x0 w2 b3 w4 b5 w6 b7 w8 b9 p q
    rw [pay9_apply] at h
    exact (truncf_apply (φ := .f32) (ψ := .bf16) (k0_pay8 (k0_pay5 x0 w2 b3) (k0_pay7 w4) b5 w6 b7) bitsLt_bf16_f32
      (ix2 p q)).trans h

/-- The residual block at (p, i): the residual of the pair (key row p, value row p), at i. -/
theorem resid_apply (x0 x1 : Vec Ideal S1024x512 .f32) (w2 : Vec Ideal S512x512 .bf16) (b3 : Vec Ideal S1x512 .f32)
    (w4 : Vec Ideal S512x512 .bf16) (b5 : Vec Ideal S1x512 .f32) (w6 : Vec Ideal S512x512 .bf16) (b7 : Vec Ideal S1x512 .f32)
    (w8 : Vec Ideal S512x512 .bf16) (b9 : Vec Ideal S1x512 .f32) (p : Fin 1024) (i : Fin 512) :
    truncf .bf16
        (subf
          (addf
            (matmul (φ₂ := .bf16) dot_S1024x512_S512x512_S1024x512_1_0_0_1_n_n none
              (truncf .bf16 (k0_pay8 (k0_pay5 x0 w2 b3) (k0_pay7 w4) b5 w6 b7) bitsLt_bf16_f32) w8
              (constant (F := Ideal) S1024x512 .f32 0x00000000#32))
            (broadcastTo S1024x512 b9 broadcasts_S1x512_S1024x512))
          (k0_pay6 x1 w2 b3))
        bitsLt_bf16_f32 (ix2 p i)
      = Cert.Spec.resid (wBlk w2 b3 w4 b5 w6 b7 w8 b9) (fun k => x0 (ix2 p k)) (fun k => x1 (ix2 p k)) i := by
  rw [truncf_apply, subf_apply, affine_apply, pay6_apply, feat_row x0 w2 b3 w4 b5 w6 b7 w8 b9 p]
  rfl

/-- The accumulator's update at (i, j): its entry plus the sum over the block's rows of residual · feature. -/
theorem acc_apply (x0 x1 : Vec Ideal S1024x512 .f32) (w2 : Vec Ideal S512x512 .bf16) (b3 : Vec Ideal S1x512 .f32)
    (w4 : Vec Ideal S512x512 .bf16) (b5 : Vec Ideal S1x512 .f32) (w6 : Vec Ideal S512x512 .bf16) (b7 : Vec Ideal S1x512 .f32)
    (w8 : Vec Ideal S512x512 .bf16) (b9 : Vec Ideal S1x512 .f32) (a : Vec Ideal S512x512 .f32) (i j : Fin 512) :
    k0_pay10 (k0_pay5 x0 w2 b3) (k0_pay6 x1 w2 b3) (k0_pay7 w4) b5 w6 b7 w8 b9 a (ix2 i j)
      = a (ix2 i j) + ∑ p : Fin 1024,
          Cert.Spec.resid (wBlk w2 b3 w4 b5 w6 b7 w8 b9) (fun k => x0 (ix2 p k)) (fun k => x1 (ix2 p k)) i
            * Cert.Spec.keyFeat (wBlk w2 b3 w4 b5 w6 b7 w8 b9) (fun k => x0 (ix2 p k)) j := by
  unfold k0_pay10
  rw [shapeCast_self, shapeCast_self, shapeCast_self, addf_apply, mmT_apply]
  refine congrArg (a (ix2 i j) + ·) (Finset.sum_congr rfl fun p _ => ?_)
  rw [feat_apply x0 w2 b3 w4 b5 w6 b7 w8 b9 p j, resid_apply x0 x1 w2 b3 w4 b5 w6 b7 w8 b9 p i]

end Cert.KernelIdeal.Pay

end
-- ==== Proof.KPay.lean ====
/-
  The kernel bodies' arithmetic at coordinates, gathered: the accumulator's first value and its stored form, the key
  feature block, the accumulator's update, and the second kernel's two affine layers, each as the specification's
  row functions of the blocks' rows.
-/
import proofs.«106201_j36953898615485_1_alg».proof.Proof.KPayF
-- ==== Proof.ValueA0.lean ====
/-
  The first kernel region's input blocks, read where they sit in their arrays.

  The region runs over 64 points, two sweeps of 32. At point t the key window and the value window hold rows
  1024·t … 1024·t + 1023 of their 65536-row arrays; the four weight windows and the four bias windows hold their whole
  arrays at every point. So the weights a point's body sees are the weights of the whole arrays, the same at every
  point.
-/
import proofs.«106201_j36953898615485_1_alg».proof.Proof.RegionA2
import proofs.«106201_j36953898615485_1_alg».proof.Proof.KPay
import proofs.«106201_j36953898615485_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The region has 64 points. -/
theorem N_A : cfg0.N = 64 := N_0

/-- The block indices of the three windows over 65536-row arrays, decided once over the 64 points: the key window, the
    value window and the feature window each move one block of rows per point. -/
theorem idxA_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The block indices of the four weight windows and the four bias windows, decided once over the 64 points: all zero. -/
theorem idxA_const : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The gradient window's block index, decided once over the 64 points: the sweep's number. -/
theorem idxA_grad : ∀ t : Fin cfg0.N,
    win0_11.index t (0 : Fin 3) = t.val / 32 ∧ win0_11.index t (1 : Fin 3) = 0 ∧ win0_11.index t (2 : Fin 3) = 0 :=
  (by decide +kernel : ∀ t : Fin grid0.N, _)

/-- Row p of the block at point t is row 1024·t + p of the array. -/
def rowA (t : Fin cfg0.N) (p : Fin 1024) : Fin 65536 :=
  ⟨1024 * t.val + p.val, by have ht : t.val < 64 := lt_of_lt_of_eq t.isLt N_A; have := p.isLt; omega⟩

/-- The weights of the whole arrays, in the orientation a row multiplies them. -/
def wA (c : Dev nD) : Cert.Spec.Weights :=
  Cert.KernelIdeal.Pay.wBlk (V c main_v3) (V c main_v12) (V c main_v5) (V c main_v13) (V c main_v7) (V c main_v14)
    (V c main_v9) (V c main_v15)

/-! ## The ten input blocks -/

/-- Window 0's block at point t, entry (p, k): its array's row 1024·t + p at k. -/
theorem blkA0_apply (c : Dev nD) (t : Fin cfg0.N) (p : Fin 1024) (k : Fin 512) :
    (blkA V c 0 t : Vec Ideal S1024x512 .f32) (ix2 p k) = (V c main_v0 : S65536x512.Idx → EReal) (ix2 (rowA t p) k) := by
  have e := idxA_rows t
  unfold blkA
  rw [View.read_apply]
  show V c main_v0 _ = V c main_v0 _
  congr 1
  funext a
  apply Fin.ext
  match a with
  | ⟨0, _⟩ => show win0_0.index t (0 : Fin 2) * 1024 + 1 * p.val = 1024 * t.val + p.val; rw [e.1]; omega
  | ⟨1, _⟩ => show win0_0.index t (1 : Fin 2) * 512 + 1 * k.val = k.val; rw [e.2.1]; omega
/-- Row p of window 0's block at point t is row 1024·t + p of its array. -/
theorem blkA0_row (c : Dev nD) (t : Fin cfg0.N) (p : Fin 1024) :
    (fun k => (blkA V c 0 t : Vec Ideal S1024x512 .f32) (ix2 p k))
      = fun k => (V c main_v0 : S65536x512.Idx → EReal) (ix2 (rowA t p) k) := funext fun k => blkA0_apply V c t p k

/-- Window 1's block at point t, entry (p, k): its array's row 1024·t + p at k. -/
theorem blkA1_apply (c : Dev nD) (t : Fin cfg0.N) (p : Fin 1024) (k : Fin 512) :
    (blkA V c 1 t : Vec Ideal S1024x512 .f32) (ix2 p k) = (V c main_v1 : S65536x512.Idx → EReal) (ix2 (rowA t p) k) := by
  have e := idxA_rows t
  unfold blkA
  rw [View.read_apply]
  show V c main_v1 _ = V c main_v1 _
  congr 1
  funext a
  apply Fin.ext
  match a with
  | ⟨0, _⟩ => show win0_1.index t (0 : Fin 2) * 1024 + 1 * p.val = 1024 * t.val + p.val; rw [e.2.2.1]; omega
  | ⟨1, _⟩ => show win0_1.index t (1 : Fin 2) * 512 + 1 * k.val = k.val; rw [e.2.2.2.1]; omega
/-- Row p of window 1's block at point t is row 1024·t + p of its array. -/
theorem blkA1_row (c : Dev nD) (t : Fin cfg0.N) (p : Fin 1024) :
    (fun k => (blkA V c 1 t : Vec Ideal S1024x512 .f32) (ix2 p k))
      = fun k => (V c main_v1 : S65536x512.Idx → EReal) (ix2 (rowA t p) k) := funext fun k => blkA1_apply V c t p k

/-- Window 2's block at any point is its whole weight array. -/
theorem blkA2_apply (c : Dev nD) (t : Fin cfg0.N) (k q : Fin 512) :
    (blkA V c 2 t : Vec Ideal S512x512 .bf16) (ix2 k q) = (V c main_v3 : S512x512.Idx → EReal) (ix2 k q) := by
  have e := idxA_const t
  unfold blkA
  rw [View.read_apply]
  show V c main_v3 _ = V c main_v3 _
  congr 1
  funext a
  apply Fin.ext
  match a with
  | ⟨0, _⟩ => show win0_2.index t (0 : Fin 2) * 512 + 1 * k.val = k.val; rw [e.1]; omega
  | ⟨1, _⟩ => show win0_2.index t (1 : Fin 2) * 512 + 1 * q.val = q.val; rw [e.2.1]; omega

/-- Window 3's block at any point is its whole bias row. -/
theorem blkA3_apply (c : Dev nD) (t : Fin cfg0.N) (u : Fin 1) (q : Fin 512) :
    (blkA V c 3 t : Vec Ideal S1x512 .f32) (ix2 u q) = (V c main_v12 : S1x512.Idx → EReal) (ix2 u q) := by
  have e := idxA_const t
  unfold blkA
  rw [View.read_apply]
  show V c main_v12 _ = V c main_v12 _
  congr 1
  funext a
  apply Fin.ext
  match a with
  | ⟨0, _⟩ => show win0_3.index t (0 : Fin 2) * 1 + 1 * u.val = u.val; rw [e.2.2.1]; omega
  | ⟨1, _⟩ => show win0_3.index t (1 : Fin 2) * 512 + 1 * q.val = q.val; rw [e.2.2.2.1]; omega

/-- Window 4's block at any point is its whole weight array. -/
theorem blkA4_apply (c : Dev nD) (t : Fin cfg0.N) (k q : Fin 512) :
    (blkA V c 4 t : Vec Ideal S512x512 .bf16) (ix2 k q) = (V c main_v5 : S512x512.Idx → EReal) (ix2 k q) := by
  have e := idxA_const t
  unfold blkA
  rw [View.read_apply]
  show V c main_v5 _ = V c main_v5 _
  congr 1
  funext a
  apply Fin.ext
  match a with
  | ⟨0, _⟩ => show win0_4.index t (0 : Fin 2) * 512 + 1 * k.val = k.val; rw [e.2.2.2.2.1]; omega
  | ⟨1, _⟩ => show win0_4.index t (1 : Fin 2) * 512 + 1 * q.val = q.val; rw [e.2.2.2.2.2.1]; omega

/-- Window 5's block at any point is its whole bias row. -/
theorem blkA5_apply (c : Dev nD) (t : Fin cfg0.N) (u : Fin 1) (q : Fin 512) :
    (blkA V c 5 t : Vec Ideal S1x512 .f32) (ix2 u q) = (V c main_v13 : S1x512.Idx → EReal) (ix2 u q) := by
  have e := idxA_const t
  unfold blkA
  rw [View.read_apply]
  show V c main_v13 _ = V c main_v13 _
  congr 1
  funext a
  apply Fin.ext
  match a with
  | ⟨0, _⟩ => show win0_5.index t (0 : Fin 2) * 1 + 1 * u.val = u.val; rw [e.2.2.2.2.2.2.1]; omega
  | ⟨1, _⟩ => show win0_5.index t (1 : Fin 2) * 512 + 1 * q.val = q.val; rw [e.2.2.2.2.2.2.2.1]; omega

/-- Window 6's block at any point is its whole weight array. -/
theorem blkA6_apply (c : Dev nD) (t : Fin cfg0.N) (k q : Fin 512) :
    (blkA V c 6 t : Vec Ideal S512x512 .bf16) (ix2 k q) = (V c main_v7 : S512x512.Idx → EReal) (ix2 k q) := by
  have e := idxA_const t
  unfold blkA
  rw [View.read_apply]
  show V c main_v7 _ = V c main_v7 _
  congr 1
  funext a
  apply Fin.ext
  match a with
  | ⟨0, _⟩ => show win0_6.index t (0 : Fin 2) * 512 + 1 * k.val = k.val; rw [e.2.2.2.2.2.2.2.2.1]; omega
  | ⟨1, _⟩ => show win0_6.index t (1 : Fin 2) * 512 + 1 * q.val = q.val; rw [e.2.2.2.2.2.2.2.2.2.1]; omega

/-- Window 7's block at any point is its whole bias row. -/
theorem blkA7_apply (c : Dev nD) (t : Fin cfg0.N) (u : Fin 1) (q : Fin 512) :
    (blkA V c 7 t : Vec Ideal S1x512 .f32) (ix2 u q) = (V c main_v14 : S1x512.Idx → EReal) (ix2 u q) := by
  have e := idxA_const t
  unfold blkA
  rw [View.read_apply]
  show V c main_v14 _ = V c main_v14 _
  congr 1
  funext a
  apply Fin.ext
  match a with
  | ⟨0, _⟩ => show win0_7.index t (0 : Fin 2) * 1 + 1 * u.val = u.val; rw [e.2.2.2.2.2.2.2.2.2.2.1]; omega
  | ⟨1, _⟩ => show win0_7.index t (1 : Fin 2) * 512 + 1 * q.val = q.val; rw [e.2.2.2.2.2.2.2.2.2.2.2.1]; omega

/-- Window 8's block at any point is its whole weight array. -/
theorem blkA8_apply (c : Dev nD) (t : Fin cfg0.N) (k q : Fin 512) :
    (blkA V c 8 t : Vec Ideal S512x512 .bf16) (ix2 k q) = (V c main_v9 : S512x512.Idx → EReal) (ix2 k q) := by
  have e := idxA_const t
  unfold blkA
  rw [View.read_apply]
  show V c main_v9 _ = V c main_v9 _
  congr 1
  funext a
  apply Fin.ext
  match a with
  | ⟨0, _⟩ => show win0_8.index t (0 : Fin 2) * 512 + 1 * k.val = k.val; rw [e.2.2.2.2.2.2.2.2.2.2.2.2.1]; omega
  | ⟨1, _⟩ => show win0_8.index t (1 : Fin 2) * 512 + 1 * q.val = q.val; rw [e.2.2.2.2.2.2.2.2.2.2.2.2.2.1]; omega

/-- Window 9's block at any point is its whole bias row. -/
theorem blkA9_apply (c : Dev nD) (t : Fin cfg0.N) (u : Fin 1) (q : Fin 512) :
    (blkA V c 9 t : Vec Ideal S1x512 .f32) (ix2 u q) = (V c main_v15 : S1x512.Idx → EReal) (ix2 u q) := by
  have e := idxA_const t
  unfold blkA
  rw [View.read_apply]
  show V c main_v15 _ = V c main_v15 _
  congr 1
  funext a
  apply Fin.ext
  match a with
  | ⟨0, _⟩ => show win0_9.index t (0 : Fin 2) * 1 + 1 * u.val = u.val; rw [e.2.2.2.2.2.2.2.2.2.2.2.2.2.2.1]; omega
  | ⟨1, _⟩ => show win0_9.index t (1 : Fin 2) * 512 + 1 * q.val = q.val; rw [e.2.2.2.2.2.2.2.2.2.2.2.2.2.2.2]; omega

/-- The weights a point's body sees are the weights of the whole arrays. -/
theorem wBlkA_eq (c : Dev nD) (t : Fin cfg0.N) :
    Cert.KernelIdeal.Pay.wBlk (blkA V c 2 t) (blkA V c 3 t) (blkA V c 4 t) (blkA V c 5 t) (blkA V c 6 t) (blkA V c 7 t)
      (blkA V c 8 t) (blkA V c 9 t) = wA V c := by
  have h2 : (fun k q => (blkA V c 2 t : Vec Ideal S512x512 .bf16) (ix2 k q))
      = fun k q => (V c main_v3 : S512x512.Idx → EReal) (ix2 k q) := funext fun k => funext fun q => blkA2_apply V c t k q
  have h3 : (fun q => (blkA V c 3 t : Vec Ideal S1x512 .f32) (ix2 (0 : Fin 1) q))
      = fun q => (V c main_v12 : S1x512.Idx → EReal) (ix2 (0 : Fin 1) q) := funext fun q => blkA3_apply V c t 0 q
  have h4 : (fun k q => (blkA V c 4 t : Vec Ideal S512x512 .bf16) (ix2 k q))
      = fun k q => (V c main_v5 : S512x512.Idx → EReal) (ix2 k q) := funext fun k => funext fun q => blkA4_apply V c t k q
  have h5 : (fun q => (blkA V c 5 t : Vec Ideal S1x512 .f32) (ix2 (0 : Fin 1) q))
      = fun q => (V c main_v13 : S1x512.Idx → EReal) (ix2 (0 : Fin 1) q) := funext fun q => blkA5_apply V c t 0 q
  have h6 : (fun k q => (blkA V c 6 t : Vec Ideal S512x512 .bf16) (ix2 k q))
      = fun k q => (V c main_v7 : S512x512.Idx → EReal) (ix2 k q) := funext fun k => funext fun q => blkA6_apply V c t k q
  have h7 : (fun q => (blkA V c 7 t : Vec Ideal S1x512 .f32) (ix2 (0 : Fin 1) q))
      = fun q => (V c main_v14 : S1x512.Idx → EReal) (ix2 (0 : Fin 1) q) := funext fun q => blkA7_apply V c t 0 q
  have h8 : (fun k q => (blkA V c 8 t : Vec Ideal S512x512 .bf16) (ix2 k q))
      = fun k q => (V c main_v9 : S512x512.Idx → EReal) (ix2 k q) := funext fun k => funext fun q => blkA8_apply V c t k q
  have h9 : (fun q => (blkA V c 9 t : Vec Ideal S1x512 .f32) (ix2 (0 : Fin 1) q))
      = fun q => (V c main_v15 : S1x512.Idx → EReal) (ix2 (0 : Fin 1) q) := funext fun q => blkA9_apply V c t 0 q
  unfold wA Cert.KernelIdeal.Pay.wBlk
  rw [h2, h3, h4, h5, h6, h7, h8, h9]

end Cert.KernelIdeal.Hand

end
-- ==== Proof.ValueA10.lean ====
/-
  The first kernel region's feature array, from blocks to the whole array.

  At every point the feature window writes back the key feature of the point's 1024 key rows, row by row; so what
  point t writes back is the block at t of ONE function of the whole arrays — row r ↦ the key feature of key row r —
  and since row r lies in the block of point r / 1024, the feature array ends holding that function everywhere.
-/
import proofs.«106201_j36953898615485_1_alg».proof.Proof.ValueA0

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The key feature of every key row: the feature array as one function of the whole arrays. -/
def featAll (c : Dev nD) : S65536x512.Idx → EReal :=
  fun i => Cert.Spec.keyFeat (wA V c) (fun k => (V c main_v0 : S65536x512.Idx → EReal) (ix2 (i 0) k)) (i 1)

/-- Entry (p, q) of the feature block at point t sits at (1024·t + p, q) of the feature array. -/
theorem embA10 (t : Fin cfg0.N) (p : Fin 1024) (q : Fin 512) :
    (((cfg0.win 10).blk t).view.emb (ix2 p q : S1024x512.Idx) : S65536x512.Idx) = ix2 (rowA t p) q := by
  have e := idxA_rows t
  funext a
  apply Fin.ext
  match a with
  | ⟨0, _⟩ => show win0_10.index t (0 : Fin 2) * 1024 + 1 * p.val = 1024 * t.val + p.val; rw [e.2.2.2.2.1]; omega
  | ⟨1, _⟩ => show win0_10.index t (1 : Fin 2) * 512 + 1 * q.val = q.val; rw [e.2.2.2.2.2]; omega

/-- What point t writes back to the feature array is the block at t of the key feature of every key row. -/
theorem flushedA10_eq (c : Dev nD) (t : Fin cfg0.N) :
    (datA (F := Ideal) V c).flushed 10 t = ((cfg0.win 10).blk t).view.read (Elt Ideal) (featAll V c) := by
  show (cfg0.win 10).cut (grid0.coords t) ((datA (F := Ideal) V c).after 10 t) = _
  rw [afterA_10]
  unfold featAt featB
  funext j
  obtain ⟨p, q, rfl⟩ : ∃ (p : Fin 1024) (q : Fin 512), j = ix2 p q := ⟨j 0, j 1, eq_ix2 j⟩
  show k0_pay9 (k0_pay5 (blkA V c 0 t) (blkA V c 2 t) (blkA V c 3 t)) (k0_pay7 (blkA V c 4 t)) (blkA V c 5 t) (blkA V c 6 t)
      (blkA V c 7 t) (ix2 p q)
    = featAll V c (((cfg0.win 10).blk t).view.emb (ix2 p q : S1024x512.Idx))
  rw [embA10 t p q]
  refine (Cert.KernelIdeal.Pay.feat_apply (blkA V c 0 t) (blkA V c 2 t) (blkA V c 3 t) (blkA V c 4 t) (blkA V c 5 t)
    (blkA V c 6 t) (blkA V c 7 t) (blkA V c 8 t) (blkA V c 9 t) p q).trans ?_
  rw [wBlkA_eq V c t, blkA0_row V c t p]
  rfl

/-- An index of the feature array is in point t's block iff each coordinate is in the block's range on its axis. -/
theorem mem_blkA10 (t : Fin cfg0.N) (i : S65536x512.Idx) :
    i ∈ ((cfg0.win 10).blk t).view.set ↔ ∀ a : Fin 2, win0_10.index t a * S1024x512.size a ≤ (i a).val
      ∧ (i a).val < win0_10.index t a * S1024x512.size a + S1024x512.size a := by
  show i ∈ ((View.whole main_v17_0).slice (win0_10.rect t)).set ↔ _
  rw [View.set_slice_whole, Rect.mem_set_unit]
  exact Iff.rfl

/-- Every index of the feature array is in some point's block: row r in the block of point r / 1024. -/
theorem coverA10 (i : S65536x512.Idx) :
    ∃ t : Fin cfg0.N, (cfg0.win 10).flush t = true ∧ i ∈ ((cfg0.win 10).blk t).view.set := by
  have hi0 : (i 0).val < 65536 := (i 0).isLt
  have hi1 : (i 1).val < 512 := (i 1).isLt
  let t : Fin cfg0.N := ⟨(i 0).val / 1024, by rw [N_A]; omega⟩
  have ht : t.val = (i 0).val / 1024 := rfl
  have e := idxA_rows t
  refine ⟨t, flush0_10 t, ?_⟩
  rw [mem_blkA10]
  intro a
  match a with
  | ⟨0, _⟩ =>
    show win0_10.index t (0 : Fin 2) * 1024 ≤ (i 0).val ∧ (i 0).val < win0_10.index t (0 : Fin 2) * 1024 + 1024
    rw [e.2.2.2.2.1, ht]; omega
  | ⟨1, _⟩ =>
    show win0_10.index t (1 : Fin 2) * 512 ≤ (i 1).val ∧ (i 1).val < win0_10.index t (1 : Fin 2) * 512 + 512
    rw [e.2.2.2.2.2]; omega

/-- The feature array after the run: the key feature of every key row. -/
theorem finalA10 (c : Dev nD) :
    (datA (F := Ideal) V c).arrAt 10 cfg0.N
      = fun i : S65536x512.Idx =>
          Cert.Spec.keyFeat (wA V c) (fun k => (V c main_v0 : S65536x512.Idx → EReal) (ix2 (i 0) k)) (i 1) :=
  (datA (F := Ideal) V c).arrAt_eq_of_cover 10 (featAll V c) (fun t _ => flushedA10_eq V c t) (fun i => coverA10 i)

end Cert.KernelIdeal.Hand

end
-- ==== Proof.LibSweepSum.lean ====
/-
  Sums taken block by block, in sweeps that restart.

  A sum over N = B · S consecutive rows is the sum, over the B blocks, of each block's S rows (`sum_blocks`). A running
  total that restarts from zero at every step whose number is a multiple of L, and otherwise adds the step's term to the
  previous total, holds at position k of a sweep the sum of the sweep's first k + 1 terms (`sweep_prefix`). Together:
  two sweeps of 32 steps, each step adding one block of 1024 consecutive rows, end with totals that add up to the sum
  over all 65536 rows (`sweep_total`). Only that addition is commutative and associative with neutral element 0 is
  used.
-/
import Mathlib.Algebra.BigOperators.Fin
import Mathlib.Algebra.BigOperators.Intervals
import Mathlib.Logic.Equiv.Fin.Basic

open scoped BigOperators

namespace Cert.LibSweepSum

/-- Row p of block n of size S lies below B · S. -/
theorem blk_lt {B S : ℕ} (n : Fin B) (p : Fin S) : S * n.val + p.val < B * S :=
  calc S * n.val + p.val < S * n.val + S := Nat.add_lt_add_left p.isLt _
    _ = S * (n.val + 1) := (Nat.mul_succ S n.val).symm
    _ ≤ S * B := Nat.mul_le_mul_left S n.isLt
    _ = B * S := Nat.mul_comm S B

/-- A sum over B · S consecutive rows is the sum over the B blocks of each block's S rows. -/
theorem sum_blocks {M : Type*} [AddCommMonoid M] (B S N : ℕ) (hN : N = B * S) (f : Fin N → M) :
    ∑ r : Fin N, f r = ∑ n : Fin B, ∑ p : Fin S, f ⟨S * n.val + p.val, hN ▸ blk_lt n p⟩ := by
  subst hN
  rw [← Equiv.sum_comp finProdFinEquiv f, Fintype.sum_prod_type]
  refine Finset.sum_congr rfl fun n _ => Finset.sum_congr rfl fun p _ => congrArg f (Fin.ext ?_)
  show (finProdFinEquiv (n, p)).val = S * n.val + p.val
  rw [finProdFinEquiv_apply_val, Nat.add_comm]

/-- A running total `A` that restarts at the multiples of `L` (there it is `0` plus the step's term `g`) and otherwise
    adds the step's term to the previous total: at position `k` of the sweep that starts at `a` it is the sum of that
    sweep's first `k + 1` terms. -/
theorem sweep_prefix {M : Type*} [AddCommMonoid M] (g A : ℕ → M) (L N : ℕ)
    (hfirst : ∀ n, n < N → n % L = 0 → A n = 0 + g n)
    (hnext : ∀ n, n < N → n % L ≠ 0 → A n = A (n - 1) + g n)
    (a : ℕ) (ha : a % L = 0) (k : ℕ) (hk : k < L) (h : a + k < N) :
    A (a + k) = ∑ m ∈ Finset.range (k + 1), g (a + m) := by
  induction k with
  | zero =>
    rw [Nat.add_zero, hfirst a (by omega) ha, zero_add, Finset.sum_range_one, Nat.add_zero]
  | succ k ih =>
    obtain ⟨c, rfl⟩ := Nat.dvd_of_mod_eq_zero ha
    have hne : (L * c + (k + 1)) % L ≠ 0 := by
      rw [Nat.mul_add_mod, Nat.mod_eq_of_lt hk]
      exact Nat.succ_ne_zero k
    rw [hnext _ h hne, show L * c + (k + 1) - 1 = L * c + k from by omega, ih (by omega) (by omega),
      Finset.sum_range_succ _ (k + 1)]

/-- Two sweeps of 32 steps over 64 blocks of 1024 consecutive rows: the running total restarts from zero at steps 0 and
    32 and each step adds its block's sum; the totals after steps 31 and 63 add up to the sum over all 65536 rows. -/
theorem sweep_total {M : Type*} [AddCommMonoid M] (f : Fin 65536 → M) (acc : (n : ℕ) → n < 64 → M)
    (hfirst : ∀ n (hn : n < 64), n % 32 = 0 → acc n hn = 0 + ∑ p : Fin 1024, f ⟨1024 * n + p.val, by omega⟩)
    (hnext : ∀ n (hn : n < 64), n % 32 ≠ 0 →
      acc n hn = acc (n - 1) (by omega) + ∑ p : Fin 1024, f ⟨1024 * n + p.val, by omega⟩) :
    acc 31 (by omega) + acc 63 (by omega) = ∑ r : Fin 65536, f r := by
  -- the step's term and the running total as functions of every natural number
  let g : ℕ → M := fun n => if hn : n < 64 then ∑ p : Fin 1024, f ⟨1024 * n + p.val, by omega⟩ else 0
  let A : ℕ → M := fun n => if hn : n < 64 then acc n hn else 0
  have hg : ∀ n (hn : n < 64), g n = ∑ p : Fin 1024, f ⟨1024 * n + p.val, by omega⟩ := fun n hn => dif_pos hn
  have hA : ∀ n (hn : n < 64), A n = acc n hn := fun n hn => dif_pos hn
  have h0 : ∀ n, n < 64 → n % 32 = 0 → A n = 0 + g n := fun n hn hz => by
    rw [hA n hn, hg n hn]; exact hfirst n hn hz
  have h1 : ∀ n, n < 64 → n % 32 ≠ 0 → A n = A (n - 1) + g n := fun n hn hz => by
    rw [hA n hn, hA (n - 1) (by omega), hg n hn]; exact hnext n hn hz
  have e1 : A 31 = ∑ m ∈ Finset.range 32, g (0 + m) := sweep_prefix g A 32 64 h0 h1 0 rfl 31 (by omega) (by omega)
  have e2 : A 63 = ∑ m ∈ Finset.range 32, g (32 + m) := sweep_prefix g A 32 64 h0 h1 32 rfl 31 (by omega) (by omega)
  rw [← hA 31 (by omega), ← hA 63 (by omega), e1, e2]
  simp only [Nat.zero_add]
  rw [← Finset.sum_range_add g 32 32, ← Fin.sum_univ_eq_sum_range g (32 + 32),
    sum_blocks 64 1024 65536 (by decide) f]
  exact Finset.sum_congr rfl fun n _ => hg n.val n.isLt

end Cert.LibSweepSum
-- ==== Proof.ValueA11.lean ====
/-
  The first kernel region's gradient array, from blocks to the whole array.

  Fix an entry (i, j) of the accumulator. Row r of the key and value arrays contributes residual(r)ᵢ · feature(r)ⱼ. One
  step of the running total at point t adds the contributions of the point's 1024 rows, rows 1024·t … 1024·t + 1023; the
  total restarts from zero at points 0 and 32. At the last point of each sweep (points 31 and 63) the total is written
  back, with a leading unit axis, as plane 0 and plane 1 of the gradient array; those two points' blocks cover the
  array. The two planes add up, entry by entry, to the sum of the contributions of all 65536 rows: the unscaled
  gradient.
-/
import proofs.«106201_j36953898615485_1_alg».proof.Proof.ValueA0
import proofs.«106201_j36953898615485_1_alg».proof.Proof.LibSweepSum

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- Row r's contribution to entry (i, j): residual(r)ᵢ · feature(r)ⱼ. -/
def termA (c : Dev nD) (i j : Fin 512) : Fin 65536 → EReal := fun r =>
  Cert.Spec.resid (wA V c) (fun k => (V c main_v0 : S65536x512.Idx → EReal) (ix2 r k))
      (fun k => (V c main_v1 : S65536x512.Idx → EReal) (ix2 r k)) i
    * Cert.Spec.keyFeat (wA V c) (fun k => (V c main_v0 : S65536x512.Idx → EReal) (ix2 r k)) j

/-- One step of the running total at point t, at (i, j): what was there plus the contributions of the point's rows. -/
theorem stepAcc_apply (c : Dev nD) (t : Fin cfg0.N) (a : Vec Ideal S512x512 .f32) (i j : Fin 512) :
    stepAcc (F := Ideal) V c t a (ix2 i j) = a (ix2 i j) + ∑ p : Fin 1024, termA V c i j (rowA t p) := by
  unfold stepAcc accB
  refine (Cert.KernelIdeal.Pay.acc_apply (blkA V c 0 t) (blkA V c 1 t) (blkA V c 2 t) (blkA V c 3 t) (blkA V c 4 t)
    (blkA V c 5 t) (blkA V c 6 t) (blkA V c 7 t) (blkA V c 8 t) (blkA V c 9 t) a i j).trans ?_
  rw [wBlkA_eq V c t]
  refine congrArg (a (ix2 i j) + ·) (Finset.sum_congr rfl fun p _ => ?_)
  rw [blkA0_row V c t p, blkA1_row V c t p]
  rfl

/-- At the first point of a sweep the running total is zero plus the point's contributions. -/
theorem accAt_first_apply (c : Dev nD) (t : Fin cfg0.N) (h : t.val % 32 = 0) (i j : Fin 512) :
    accAt (F := Ideal) V c t.val t.isLt (ix2 i j) = 0 + ∑ p : Fin 1024, termA V c i j (rowA t p) := by
  rw [accAt_first V c t h, stepAcc_apply, Cert.KernelIdeal.Pay.zero_apply]

/-- At a later point of a sweep it is the previous point's total plus the point's contributions. -/
theorem accAt_next_apply (c : Dev nD) (t : Fin cfg0.N) (h : ¬ t.val % 32 = 0) (i j : Fin 512) :
    accAt (F := Ideal) V c t.val t.isLt (ix2 i j)
      = accAt (F := Ideal) V c (t.val - 1) (Nat.lt_of_le_of_lt (Nat.sub_le _ _) t.isLt) (ix2 i j)
        + ∑ p : Fin 1024, termA V c i j (rowA t p) := by
  rw [accAt_next V c t h, stepAcc_apply]

/-- The running total depends on the point's number only. -/
theorem accAt_congr (c : Dev nD) (n n' : ℕ) (e : n = n') (h : n < cfg0.N) (h' : n' < cfg0.N) :
    accAt (F := Ideal) V c n h = accAt (F := Ideal) V c n' h' := by
  subst e; rfl

/-- The totals at the ends of the two sweeps add up to the contributions of all 65536 rows. -/
theorem sweeps_total (c : Dev nD) (i j : Fin 512) :
    accAt (F := Ideal) V c 31 (by rw [N_A]; omega) (ix2 i j) + accAt (F := Ideal) V c 63 (by rw [N_A]; omega) (ix2 i j)
      = ∑ r : Fin 65536, termA V c i j r :=
  Cert.LibSweepSum.sweep_total (termA V c i j)
    (fun n hn => accAt (F := Ideal) V c n (lt_of_lt_of_eq hn N_A.symm) (ix2 i j))
    (fun n hn h => accAt_first_apply V c ⟨n, lt_of_lt_of_eq hn N_A.symm⟩ h i j)
    (fun n hn h => accAt_next_apply V c ⟨n, lt_of_lt_of_eq hn N_A.symm⟩ h i j)

/-! ## The gradient array -/

/-- The gradient array as one function: plane s holds the running total at the end of sweep s. -/
def gradPlanes (c : Dev nD) : S2x512x512.Idx → EReal := fun i =>
  accAt (F := Ideal) V c (32 * (i 0).val + 31)
    (by have h : (i 0).val < 2 := (i 0).isLt; rw [N_A]; omega) (ix2 (i 1) (i 2))

/-- Entry (u, i, j) of the gradient block at point t sits at (t / 32, i, j) of the gradient array. -/
theorem embA11 (t : Fin cfg0.N) (u : Fin 1) (i j : Fin 512) :
    (((cfg0.win 11).blk t).view.emb (ix3 u i j : S1x512x512.Idx) : S2x512x512.Idx)
      = ix3 (⟨t.val / 32, by have ht : t.val < 64 := lt_of_lt_of_eq t.isLt N_A; omega⟩ : Fin 2) i j := by
  have e := idxA_grad t
  funext a
  apply Fin.ext
  match a with
  | ⟨0, _⟩ => show win0_11.index t (0 : Fin 3) * 1 + 1 * u.val = t.val / 32; rw [e.1]; omega
  | ⟨1, _⟩ => show win0_11.index t (1 : Fin 3) * 512 + 1 * i.val = i.val; rw [e.2.1]; omega
  | ⟨2, _⟩ => show win0_11.index t (2 : Fin 3) * 512 + 1 * j.val = j.val; rw [e.2.2]; omega

/-- What the last point of a sweep writes back is the block at that point of the two sweeps' totals. -/
theorem flushedA11_eq (c : Dev nD) (t : Fin cfg0.N) (hf : (cfg0.win 11).flush t = true) :
    (datA (F := Ideal) V c).flushed 11 t = ((cfg0.win 11).blk t).view.read (Elt Ideal) (gradPlanes V c) := by
  have h31 : t.val % 32 = 31 := (flush0_11 t).mp hf
  show (cfg0.win 11).cut (grid0.coords t) ((datA (F := Ideal) V c).after 11 t) = _
  rw [afterA_11]
  funext y
  obtain ⟨u, i, j, rfl⟩ : ∃ (u : Fin 1) (i j : Fin 512), y = ix3 u i j := ⟨y 0, y 1, y 2, eq_ix3 y⟩
  obtain rfl : u = 0 := Subsingleton.elim _ _
  show k0_pay1 (accAt (F := Ideal) V c t.val t.isLt) (ix3 (0 : Fin 1) i j)
    = gradPlanes V c (((cfg0.win 11).blk t).view.emb (ix3 (0 : Fin 1) i j : S1x512x512.Idx))
  rw [embA11 t 0 i j, Cert.KernelIdeal.Pay.lift_apply]
  exact congrFun (accAt_congr V c _ _ (show t.val = 32 * (t.val / 32) + 31 by omega) _ _) (ix2 i j)

/-- An index of the gradient array is in point t's block iff each coordinate is in the block's range on its axis. -/
theorem mem_blkA11 (t : Fin cfg0.N) (i : S2x512x512.Idx) :
    i ∈ ((cfg0.win 11).blk t).view.set ↔ ∀ a : Fin 3, win0_11.index t a * S1x512x512.size a ≤ (i a).val
      ∧ (i a).val < win0_11.index t a * S1x512x512.size a + S1x512x512.size a := by
  show i ∈ ((View.whole main_v17_1).slice (win0_11.rect t)).set ↔ _
  rw [View.set_slice_whole, Rect.mem_set_unit]
  exact Iff.rfl

/-- Every index of the gradient array is in the block of a sweep's last point: plane s in the block of point 32·s + 31. -/
theorem coverA11 (i : S2x512x512.Idx) :
    ∃ t : Fin cfg0.N, (cfg0.win 11).flush t = true ∧ i ∈ ((cfg0.win 11).blk t).view.set := by
  have hi0 : (i 0).val < 2 := (i 0).isLt
  have hi1 : (i 1).val < 512 := (i 1).isLt
  have hi2 : (i 2).val < 512 := (i 2).isLt
  let t : Fin cfg0.N := ⟨32 * (i 0).val + 31, by rw [N_A]; omega⟩
  have ht : t.val = 32 * (i 0).val + 31 := rfl
  have e := idxA_grad t
  refine ⟨t, (flush0_11 t).mpr (by rw [ht]; omega), ?_⟩
  rw [mem_blkA11]
  intro a
  match a with
  | ⟨0, _⟩ =>
    show win0_11.index t (0 : Fin 3) * 1 ≤ (i 0).val ∧ (i 0).val < win0_11.index t (0 : Fin 3) * 1 + 1
    rw [e.1, ht]; omega
  | ⟨1, _⟩ =>
    show win0_11.index t (1 : Fin 3) * 512 ≤ (i 1).val ∧ (i 1).val < win0_11.index t (1 : Fin 3) * 512 + 512
    rw [e.2.1]; omega
  | ⟨2, _⟩ =>
    show win0_11.index t (2 : Fin 3) * 512 ≤ (i 2).val ∧ (i 2).val < win0_11.index t (2 : Fin 3) * 512 + 512
    rw [e.2.2]; omega

/-- The gradient array after the run: plane s holds the running total at the end of sweep s. -/
theorem finalA11 (c : Dev nD) : (datA (F := Ideal) V c).arrAt 11 cfg0.N = gradPlanes V c :=
  (datA (F := Ideal) V c).arrAt_eq_of_cover 11 (gradPlanes V c) (fun t hf => flushedA11_eq V c t hf) (fun i => coverA11 i)

/-- The two sweeps' totals add up, entry by entry, to the unscaled gradient of the whole arrays. -/
theorem gradPlanes_sum (c : Dev nD) (i j : Fin 512) :
    gradPlanes V c (ix3 (0 : Fin 2) i j) + gradPlanes V c (ix3 (1 : Fin 2) i j)
      = Cert.Spec.gradSum (wA V c) (Cert.Spec.rowsOf (V c main_v0 : S65536x512.Idx → EReal))
          (Cert.Spec.rowsOf (V c main_v1 : S65536x512.Idx → EReal)) i j := by
  have e0 : gradPlanes V c (ix3 (0 : Fin 2) i j) = accAt (F := Ideal) V c 31 (by rw [N_A]; omega) (ix2 i j) :=
    congrFun (accAt_congr V c _ _ (by rfl) _ _) (ix2 i j)
  have e1 : gradPlanes V c (ix3 (1 : Fin 2) i j) = accAt (F := Ideal) V c 63 (by rw [N_A]; omega) (ix2 i j) :=
    congrFun (accAt_congr V c _ _ (by rfl) _ _) (ix2 i j)
  rw [e0, e1, sweeps_total V c i j]
  rfl

/-- The two planes of the gradient array after the run add up, entry by entry, to the unscaled gradient of the whole
    arrays (the sum is the extended reals'). -/
theorem gradA (c : Dev nD) (i j : Fin 512) :
    @HAdd.hAdd EReal EReal EReal instHAdd
        ((datA (F := Ideal) V c).arrAt 11 cfg0.N (ix3 (0 : Fin 2) i j))
        ((datA (F := Ideal) V c).arrAt 11 cfg0.N (ix3 (1 : Fin 2) i j))
      = Cert.Spec.gradSum (wA V c) (Cert.Spec.rowsOf (V c main_v0 : S65536x512.Idx → EReal))
          (Cert.Spec.rowsOf (V c main_v1 : S65536x512.Idx → EReal)) i j := by
  rw [finalA11 V c]
  exact gradPlanes_sum V c i j

end Cert.KernelIdeal.Hand

end
-- ==== Proof.ValueA.lean ====
/-
  The first kernel region from blocks to arrays, gathered: the feature array holds the key feature of every key row,
  and the two planes of the gradient array add up to the unscaled gradient of the whole arrays.
-/
import proofs.«106201_j36953898615485_1_alg».proof.Proof.ValueA10
import proofs.«106201_j36953898615485_1_alg».proof.Proof.ValueA11
-- ==== Proof.ValueB.lean ====
/-
  The second kernel region, from blocks to the whole array, on the extended reals.

  The region runs over 64 points. At point t the activation window holds rows 1024·t … 1024·t + 1023 of a 65536-row
  array, the two weight windows and the two bias windows hold their whole arrays, and the result window writes back
  rows 1024·t … 1024·t + 1023 of the result. What a point writes back is, row by row, two affine layers of the
  activation row; so it is the block at t of ONE function of the whole arrays, and since row r lies in the block of
  point r / 1024, the result array ends holding that function everywhere.
-/
import proofs.«106201_j36953898615485_1_alg».proof.Proof.RegionB
import proofs.«106201_j36953898615485_1_alg».proof.Proof.KPay
import proofs.«106201_j36953898615485_1_alg».proof.Proof.Spec
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- Two affine layers of every row: the result array as one function of the five whole arrays. -/
def twoLayers (a0 : S65536x512.Idx → EReal) (w1 : S512x512.Idx → EReal) (b1 : S1x512.Idx → EReal)
    (w2 : S512x512.Idx → EReal) (b2 : S1x512.Idx → EReal) : S65536x512.Idx → EReal :=
  fun i => Cert.Spec.affineRow (fun k q => w2 (ix2 k q)) (fun q => b2 (ix2 (0 : Fin 1) q))
    (Cert.Spec.affineRow (fun k q => w1 (ix2 k q)) (fun q => b1 (ix2 (0 : Fin 1) q)) (fun k => a0 (ix2 (i 0) k))) (i 1)

/-- The region has 64 points. -/
theorem N_B : cfg1.N = 64 := N_1

/-- The windows' block indices, decided once over the 64 points: the activation window and the result window move
    one block of rows per point; the weight and bias windows stay. -/
theorem idx_factsB : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block at point t is row 1024·t + p of the array. -/
def rowB (t : Fin cfg1.N) (p : Fin 1024) : Fin 65536 :=
  ⟨1024 * t.val + p.val, by have ht : t.val < 64 := lt_of_lt_of_eq t.isLt N_B; have := p.isLt; omega⟩

/-! ## The five input blocks, read where they sit in their arrays -/

/-- The activation block at point t, entry (p, k): the array's row 1024·t + p at k. -/
theorem blkB0_apply (c : Dev nD) (t : Fin cfg1.N) (p : Fin 1024) (k : Fin 512) :
    (blkB V c 0 t : Vec Ideal S1024x512 .bf16) (ix2 p k) = (V c main_v17_0 : S65536x512.Idx → EReal) (ix2 (rowB t p) k) := by
  obtain ⟨e0, e1, -⟩ := idx_factsB t
  unfold blkB
  rw [View.read_apply]
  show V c main_v17_0 _ = V c main_v17_0 _
  congr 1
  funext a
  apply Fin.ext
  match a with
  | ⟨0, _⟩ => show win1_0.index t (0 : Fin 2) * 1024 + 1 * p.val = 1024 * t.val + p.val; rw [e0]; omega
  | ⟨1, _⟩ => show win1_0.index t (1 : Fin 2) * 512 + 1 * k.val = k.val; rw [e1]; omega

/-- The first weight block at any point is its whole array. -/
theorem blkB1_apply (c : Dev nD) (t : Fin cfg1.N) (k q : Fin 512) :
    (blkB V c 1 t : Vec Ideal S512x512 .bf16) (ix2 k q) = (V c main_v34 : S512x512.Idx → EReal) (ix2 k q) := by
  obtain ⟨-, -, e0, e1, -⟩ := idx_factsB t
  unfold blkB
  rw [View.read_apply]
  show V c main_v34 _ = V c main_v34 _
  congr 1
  funext a
  apply Fin.ext
  match a with
  | ⟨0, _⟩ => show win1_1.index t (0 : Fin 2) * 512 + 1 * k.val = k.val; rw [e0]; omega
  | ⟨1, _⟩ => show win1_1.index t (1 : Fin 2) * 512 + 1 * q.val = q.val; rw [e1]; omega

/-- The first bias block at any point is its whole array. -/
theorem blkB2_apply (c : Dev nD) (t : Fin cfg1.N) (u : Fin 1) (q : Fin 512) :
    (blkB V c 2 t : Vec Ideal S1x512 .f32) (ix2 u q) = (V c main_v15 : S1x512.Idx → EReal) (ix2 u q) := by
  obtain ⟨-, -, -, -, e0, e1, -⟩ := idx_factsB t
  unfold blkB
  rw [View.read_apply]
  show V c main_v15 _ = V c main_v15 _
  congr 1
  funext a
  apply Fin.ext
  match a with
  | ⟨0, _⟩ => show win1_2.index t (0 : Fin 2) * 1 + 1 * u.val = u.val; rw [e0]; omega
  | ⟨1, _⟩ => show win1_2.index t (1 : Fin 2) * 512 + 1 * q.val = q.val; rw [e1]; omega

/-- The second weight block at any point is its whole array. -/
theorem blkB3_apply (c : Dev nD) (t : Fin cfg1.N) (k q : Fin 512) :
    (blkB V c 3 t : Vec Ideal S512x512 .bf16) (ix2 k q) = (V c main_v11 : S512x512.Idx → EReal) (ix2 k q) := by
  obtain ⟨-, -, -, -, -, -, e0, e1, -⟩ := idx_factsB t
  unfold blkB
  rw [View.read_apply]
  show V c main_v11 _ = V c main_v11 _
  congr 1
  funext a
  apply Fin.ext
  match a with
  | ⟨0, _⟩ => show win1_3.index t (0 : Fin 2) * 512 + 1 * k.val = k.val; rw [e0]; omega
  | ⟨1, _⟩ => show win1_3.index t (1 : Fin 2) * 512 + 1 * q.val = q.val; rw [e1]; omega

/-- The second bias block at any point is its whole array. -/
theorem blkB4_apply (c : Dev nD) (t : Fin cfg1.N) (u : Fin 1) (q : Fin 512) :
    (blkB V c 4 t : Vec Ideal S1x512 .f32) (ix2 u q) = (V c main_v16 : S1x512.Idx → EReal) (ix2 u q) := by
  obtain ⟨-, -, -, -, -, -, -, -, e0, e1, -⟩ := idx_factsB t
  unfold blkB
  rw [View.read_apply]
  show V c main_v16 _ = V c main_v16 _
  congr 1
  funext a
  apply Fin.ext
  match a with
  | ⟨0, _⟩ => show win1_4.index t (0 : Fin 2) * 1 + 1 * u.val = u.val; rw [e0]; omega
  | ⟨1, _⟩ => show win1_4.index t (1 : Fin 2) * 512 + 1 * q.val = q.val; rw [e1]; omega

/-- Entry (p, q) of the result block at point t sits at (1024·t + p, q) of the result array. -/
theorem embB5 (t : Fin cfg1.N) (p : Fin 1024) (q : Fin 512) :
    (((cfg1.win 5).blk t).view.emb (ix2 p q : S1024x512.Idx) : S65536x512.Idx) = ix2 (rowB t p) q := by
  obtain ⟨-, -, -, -, -, -, -, -, -, -, e0, e1⟩ := idx_factsB t
  funext a
  apply Fin.ext
  match a with
  | ⟨0, _⟩ => show win1_5.index t (0 : Fin 2) * 1024 + 1 * p.val = 1024 * t.val + p.val; rw [e0]; omega
  | ⟨1, _⟩ => show win1_5.index t (1 : Fin 2) * 512 + 1 * q.val = q.val; rw [e1]; omega

/-! ## What a point writes back, the cover, and the array after the run -/

/-- What point t writes back is the block at t of the two affine layers of the whole arrays. -/
theorem flushedB_eq (c : Dev nD) (t : Fin cfg1.N) :
    (datB (F := Ideal) V c).flushed 5 t
      = ((cfg1.win 5).blk t).view.read (Elt Ideal)
          (twoLayers (V c main_v17_0) (V c main_v34) (V c main_v15) (V c main_v11) (V c main_v16)) := by
  show (cfg1.win 5).cut (grid1.coords t) ((datB (F := Ideal) V c).after 5 t) = _
  rw [afterB_5, outB_eq]
  funext j
  obtain ⟨p, q, rfl⟩ : ∃ (p : Fin 1024) (q : Fin 512), j = ix2 p q := ⟨j 0, j 1, eq_ix2 j⟩
  show k1_pay1 (blkB V c 0 t) (blkB V c 1 t) (blkB V c 2 t) (blkB V c 3 t) (blkB V c 4 t) (ix2 p q)
    = twoLayers (V c main_v17_0) (V c main_v34) (V c main_v15) (V c main_v11) (V c main_v16)
        (((cfg1.win 5).blk t).view.emb (ix2 p q : S1024x512.Idx))
  rw [embB5 t p q]
  refine (Cert.KernelIdeal.Pay.k1_apply (blkB V c 0 t) (blkB V c 1 t) (blkB V c 2 t) (blkB V c 3 t) (blkB V c 4 t) p q).trans ?_
  have h0 : (fun k => (blkB V c 0 t : Vec Ideal S1024x512 .bf16) (ix2 p k))
      = fun k => (V c main_v17_0 : S65536x512.Idx → EReal) (ix2 (rowB t p) k) := funext fun k => blkB0_apply V c t p k
  have h1 : (fun k q => (blkB V c 1 t : Vec Ideal S512x512 .bf16) (ix2 k q))
      = fun k q => (V c main_v34 : S512x512.Idx → EReal) (ix2 k q) := funext fun k => funext fun q => blkB1_apply V c t k q
  have h2 : (fun q => (blkB V c 2 t : Vec Ideal S1x512 .f32) (ix2 (0 : Fin 1) q))
      = fun q => (V c main_v15 : S1x512.Idx → EReal) (ix2 (0 : Fin 1) q) := funext fun q => blkB2_apply V c t 0 q
  have h3 : (fun k q => (blkB V c 3 t : Vec Ideal S512x512 .bf16) (ix2 k q))
      = fun k q => (V c main_v11 : S512x512.Idx → EReal) (ix2 k q) := funext fun k => funext fun q => blkB3_apply V c t k q
  have h4 : (fun q => (blkB V c 4 t : Vec Ideal S1x512 .f32) (ix2 (0 : Fin 1) q))
      = fun q => (V c main_v16 : S1x512.Idx → EReal) (ix2 (0 : Fin 1) q) := funext fun q => blkB4_apply V c t 0 q
  rw [h0, h1, h2, h3, h4]
  rfl

/-- An index of the result array is in point t's block iff each coordinate is in the block's range on its axis. -/
theorem mem_blkB (t : Fin cfg1.N) (i : S65536x512.Idx) :
    i ∈ ((cfg1.win 5).blk t).view.set ↔ ∀ a : Fin 2, win1_5.index t a * S1024x512.size a ≤ (i a).val
      ∧ (i a).val < win1_5.index t a * S1024x512.size a + S1024x512.size a := by
  show i ∈ ((View.whole main_v35).slice (win1_5.rect t)).set ↔ _
  rw [View.set_slice_whole, Rect.mem_set_unit]
  exact Iff.rfl

/-- Every index of the result array is in some point's block: row r in the block of point r / 1024. -/
theorem coverB5 (i : S65536x512.Idx) :
    ∃ t : Fin cfg1.N, (cfg1.win 5).flush t = true ∧ i ∈ ((cfg1.win 5).blk t).view.set := by
  have hi0 : (i 0).val < 65536 := (i 0).isLt
  have hi1 : (i 1).val < 512 := (i 1).isLt
  let t : Fin cfg1.N := ⟨(i 0).val / 1024, by rw [N_B]; omega⟩
  have ht : t.val = (i 0).val / 1024 := rfl
  obtain ⟨-, -, -, -, -, -, -, -, -, -, e0, e1⟩ := idx_factsB t
  refine ⟨t, flush1_5 t, ?_⟩
  rw [mem_blkB]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 512 ≤ (i 1).val ∧ (i 1).val < win1_5.index t (1 : Fin 2) * 512 + 512
    rw [e1]; omega

/-- The result array after the run: two affine layers of every activation row. -/
theorem finalB (c : Dev nD) :
    (datB (F := Ideal) V c).arrAt 5 cfg1.N
      = fun i : S65536x512.Idx =>
          Cert.Spec.affineRow (fun k q => (V c main_v11 : S512x512.Idx → EReal) (ix2 k q))
            (fun q => (V c main_v16 : S1x512.Idx → EReal) (ix2 (0 : Fin 1) q))
            (Cert.Spec.affineRow (fun k q => (V c main_v34 : S512x512.Idx → EReal) (ix2 k q))
              (fun q => (V c main_v15 : S1x512.Idx → EReal) (ix2 (0 : Fin 1) q))
              (fun k => (V c main_v17_0 : S65536x512.Idx → EReal) (ix2 (i 0) k))) (i 1) :=
  (datB (F := Ideal) V c).arrAt_eq_of_cover 5
    (twoLayers (V c main_v17_0) (V c main_v34) (V c main_v15) (V c main_v11) (V c main_v16))
    (fun t _ => flushedB_eq V c t) (fun i => coverB5 i)

end Cert.KernelIdeal.Hand

end
-- ==== Proof.KHost.lean ====
/-
  The kernel program's host operations, read at coordinates on the extended reals, over arbitrary contents W of the
  buffers before each stretch.
  Before the first region: the key and value arrays flattened to [65536, 512]; each weight matrix transposed (the cast
  to the narrower float format is the identity on the extended reals), so entry (k, q) is the stored entry (q, k); each
  bias vector as a [1, 512] row. Between the regions: the two [512, 512] partial gradients (the two halves of the
  leading axis) are added, scaled by the literal 2⁻²⁴, multiplied by lr, added to (1 − forget) · memory, and the sum
  is transposed. After the second region: the [65536, 512] result reshaped to [8, 8192, 512]. A stretch leaves every
  buffer it does not write as it was.
-/
import proofs.«106201_j36953898615485_1_alg».proof.Proof.Gen.KernelIdeal.Regions
import proofs.«106201_j36953898615485_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

/-- An f32 array of a given shape, at the extended reals. -/
abbrev Arr (s : Shape) : Type := FVec Ideal s .f32

variable (W : Valuation τ sig (Elt Ideal))

/-! ## Layout operations at coordinates -/

/-- A transposed [512, 512] matrix at (k, q) is the matrix at (q, k). -/
theorem transposeW (x : S512x512.Idx → EReal) (k q : Fin 512) :
    transpose S512x512 [1, 0] x transposes_S512x512_S512x512_1_0 (ix2 k q) = x (ix2 q k) :=
  transpose_apply [1, 0] x transposes_S512x512_S512x512_1_0 (ix2 k q) (ix2 q k) (fun b => match b with
    | ⟨0, _⟩ => rfl
    | ⟨1, _⟩ => rfl)

/-- A scalar broadcast to [512, 512] is that scalar at every entry. -/
theorem splatW (c : S_.Idx → EReal) (i : S512x512.Idx) : broadcastInDim S512x512 ![] bcast_S_S512x512 c i = c ix0 :=
  broadcastInDim_apply _ bcast_S_S512x512 c i ix0 (fun a => a.elim0)

/-- A one-element array reshaped to a scalar is its entry 0. -/
theorem scalar_of (x : S1.Idx → EReal) (j : S_.Idx) : shapeCast S_ x shapeCasts_S1_S_ j = x (ix1 0) :=
  shapeCast_apply x shapeCasts_S1_S_ j (ix1 0) (by
    have hn : S_.numel = 1 := by decide
    have h2 := (S_.rowMajor j).isLt
    rw [Shape.rowMajor_val_one]
    show (0 : Nat) = _
    omega)

/-- The first half of the leading axis of a [2, 512, 512] array, as a [512, 512] array. -/
theorem half0 (x : S2x512x512.Idx → EReal) (a b : Fin 512) :
    shapeCast S512x512 (extractStridedSlice S1x512x512 ![0, 0, 0] x slices_S2x512x512_S1x512x512_0_0_0)
      shapeCasts_S1x512x512_S512x512 (ix2 a b) = x (ix3 0 a b) := by
  rw [shapeCast_1ab_ab_apply]
  exact extractStridedSlice_apply _ x slices_S2x512x512_S1x512x512_0_0_0 _ (ix3 0 a b) (fun d => match d with
    | ⟨0, _⟩ => rfl
    | ⟨1, _⟩ => by show a.val = 0 + a.val; omega
    | ⟨2, _⟩ => by show b.val = 0 + b.val; omega)

/-- The second half of the leading axis of a [2, 512, 512] array, as a [512, 512] array. -/
theorem half1 (x : S2x512x512.Idx → EReal) (a b : Fin 512) :
    shapeCast S512x512 (extractStridedSlice S1x512x512 ![1, 0, 0] x slices_S2x512x512_S1x512x512_1_0_0)
      shapeCasts_S1x512x512_S512x512 (ix2 a b) = x (ix3 1 a b) := by
  rw [shapeCast_1ab_ab_apply]
  exact extractStridedSlice_apply _ x slices_S2x512x512_S1x512x512_1_0_0 _ (ix3 1 a b) (fun d => match d with
    | ⟨0, _⟩ => rfl
    | ⟨1, _⟩ => by show a.val = 0 + a.val; omega
    | ⟨2, _⟩ => by show b.val = 0 + b.val; omega)

/-! ## Before the first region -/

/-- The key array flattened to [65536, 512]. -/
theorem host0_rows0 :
    (StableHlo.after hostOps0 W (Proc.devRef .tc main_v0) : S65536x512.Idx → EReal)
      = shapeCast S65536x512 (W (Proc.devRef .tc main_arg0) : S8x8192x512.Idx → EReal) shapeCasts_S8x8192x512_S65536x512 := by
  show StableHlo.after hostOps0 W (Proc.devRef .tc main_v0) = _
  after_results
  rfl

/-- The value array flattened to [65536, 512]. -/
theorem host0_rows1 :
    (StableHlo.after hostOps0 W (Proc.devRef .tc main_v1) : S65536x512.Idx → EReal)
      = shapeCast S65536x512 (W (Proc.devRef .tc main_arg1) : S8x8192x512.Idx → EReal) shapeCasts_S8x8192x512_S65536x512 := by
  show StableHlo.after hostOps0 W (Proc.devRef .tc main_v1) = _
  after_results
  rfl

/-- The weight matrix of argument 2, transposed: entry (k, q) is the stored entry (q, k). -/
theorem host0_w3 (k q : Fin 512) :
    (StableHlo.after hostOps0 W (Proc.devRef .tc main_v3) : S512x512.Idx → EReal) (ix2 k q)
      = (W (Proc.devRef .tc main_arg2) : S512x512.Idx → EReal) (ix2 q k) := by
  have e : (StableHlo.after hostOps0 W (Proc.devRef .tc main_v3) : S512x512.Idx → EReal)
      = transpose S512x512 [1, 0] (W (Proc.devRef .tc main_arg2) : S512x512.Idx → EReal) transposes_S512x512_S512x512_1_0 := by
    show StableHlo.after hostOps0 W (Proc.devRef .tc main_v3) = _
    after_results
    rfl
  exact (congrFun e (ix2 k q)).trans (transposeW _ k q)

/-- The weight matrix of argument 4, transposed: entry (k, q) is the stored entry (q, k). -/
theorem host0_w5 (k q : Fin 512) :
    (StableHlo.after hostOps0 W (Proc.devRef .tc main_v5) : S512x512.Idx → EReal) (ix2 k q)
      = (W (Proc.devRef .tc main_arg4) : S512x512.Idx → EReal) (ix2 q k) := by
  have e : (StableHlo.after hostOps0 W (Proc.devRef .tc main_v5) : S512x512.Idx → EReal)
      = transpose S512x512 [1, 0] (W (Proc.devRef .tc main_arg4) : S512x512.Idx → EReal) transposes_S512x512_S512x512_1_0 := by
    show StableHlo.after hostOps0 W (Proc.devRef .tc main_v5) = _
    after_results
    rfl
  exact (congrFun e (ix2 k q)).trans (transposeW _ k q)

/-- The weight matrix of argument 6, transposed: entry (k, q) is the stored entry (q, k). -/
theorem host0_w7 (k q : Fin 512) :
    (StableHlo.after hostOps0 W (Proc.devRef .tc main_v7) : S512x512.Idx → EReal) (ix2 k q)
      = (W (Proc.devRef .tc main_arg6) : S512x512.Idx → EReal) (ix2 q k) := by
  have e : (StableHlo.after hostOps0 W (Proc.devRef .tc main_v7) : S512x512.Idx → EReal)
      = transpose S512x512 [1, 0] (W (Proc.devRef .tc main_arg6) : S512x512.Idx → EReal) transposes_S512x512_S512x512_1_0 := by
    show StableHlo.after hostOps0 W (Proc.devRef .tc main_v7) = _
    after_results
    rfl
  exact (congrFun e (ix2 k q)).trans (transposeW _ k q)

/-- The weight matrix of argument 8, transposed: entry (k, q) is the stored entry (q, k). -/
theorem host0_w9 (k q : Fin 512) :
    (StableHlo.after hostOps0 W (Proc.devRef .tc main_v9) : S512x512.Idx → EReal) (ix2 k q)
      = (W (Proc.devRef .tc main_arg8) : S512x512.Idx → EReal) (ix2 q k) := by
  have e : (StableHlo.after hostOps0 W (Proc.devRef .tc main_v9) : S512x512.Idx → EReal)
      = transpose S512x512 [1, 0] (W (Proc.devRef .tc main_arg8) : S512x512.Idx → EReal) transposes_S512x512_S512x512_1_0 := by
    show StableHlo.after hostOps0 W (Proc.devRef .tc main_v9) = _
    after_results
    rfl
  exact (congrFun e (ix2 k q)).trans (transposeW _ k q)

/-- The weight matrix of argument 10, transposed: entry (k, q) is the stored entry (q, k). -/
theorem host0_w11 (k q : Fin 512) :
    (StableHlo.after hostOps0 W (Proc.devRef .tc main_v11) : S512x512.Idx → EReal) (ix2 k q)
      = (W (Proc.devRef .tc main_arg10) : S512x512.Idx → EReal) (ix2 q k) := by
  have e : (StableHlo.after hostOps0 W (Proc.devRef .tc main_v11) : S512x512.Idx → EReal)
      = transpose S512x512 [1, 0] (W (Proc.devRef .tc main_arg10) : S512x512.Idx → EReal) transposes_S512x512_S512x512_1_0 := by
    show StableHlo.after hostOps0 W (Proc.devRef .tc main_v11) = _
    after_results
    rfl
  exact (congrFun e (ix2 k q)).trans (transposeW _ k q)

/-- The bias vector of argument 3 as a [1, 512] row. -/
theorem host0_b12 (q : Fin 512) :
    (StableHlo.after hostOps0 W (Proc.devRef .tc main_v12) : S1x512.Idx → EReal) (ix2 (0 : Fin 1) q)
      = (W (Proc.devRef .tc main_arg3) : S512.Idx → EReal) (ix1 q) := by
  have e : (StableHlo.after hostOps0 W (Proc.devRef .tc main_v12) : S1x512.Idx → EReal)
      = shapeCast S1x512 (W (Proc.devRef .tc main_arg3) : S512.Idx → EReal) shapeCasts_S512_S1x512 := by
    show StableHlo.after hostOps0 W (Proc.devRef .tc main_v12) = _
    after_results
    rfl
  exact (congrFun e (ix2 (0 : Fin 1) q)).trans (shapeCast_a_1a_apply _ shapeCasts_S512_S1x512 0 q)

/-- The bias vector of argument 5 as a [1, 512] row. -/
theorem host0_b13 (q : Fin 512) :
    (StableHlo.after hostOps0 W (Proc.devRef .tc main_v13) : S1x512.Idx → EReal) (ix2 (0 : Fin 1) q)
      = (W (Proc.devRef .tc main_arg5) : S512.Idx → EReal) (ix1 q) := by
  have e : (StableHlo.after hostOps0 W (Proc.devRef .tc main_v13) : S1x512.Idx → EReal)
      = shapeCast S1x512 (W (Proc.devRef .tc main_arg5) : S512.Idx → EReal) shapeCasts_S512_S1x512 := by
    show StableHlo.after hostOps0 W (Proc.devRef .tc main_v13) = _
    after_results
    rfl
  exact (congrFun e (ix2 (0 : Fin 1) q)).trans (shapeCast_a_1a_apply _ shapeCasts_S512_S1x512 0 q)

/-- The bias vector of argument 7 as a [1, 512] row. -/
theorem host0_b14 (q : Fin 512) :
    (StableHlo.after hostOps0 W (Proc.devRef .tc main_v14) : S1x512.Idx → EReal) (ix2 (0 : Fin 1) q)
      = (W (Proc.devRef .tc main_arg7) : S512.Idx → EReal) (ix1 q) := by
  have e : (StableHlo.after hostOps0 W (Proc.devRef .tc main_v14) : S1x512.Idx → EReal)
      = shapeCast S1x512 (W (Proc.devRef .tc main_arg7) : S512.Idx → EReal) shapeCasts_S512_S1x512 := by
    show StableHlo.after hostOps0 W (Proc.devRef .tc main_v14) = _
    after_results
    rfl
  exact (congrFun e (ix2 (0 : Fin 1) q)).trans (shapeCast_a_1a_apply _ shapeCasts_S512_S1x512 0 q)

/-- The bias vector of argument 9 as a [1, 512] row. -/
theorem host0_b15 (q : Fin 512) :
    (StableHlo.after hostOps0 W (Proc.devRef .tc main_v15) : S1x512.Idx → EReal) (ix2 (0 : Fin 1) q)
      = (W (Proc.devRef .tc main_arg9) : S512.Idx → EReal) (ix1 q) := by
  have e : (StableHlo.after hostOps0 W (Proc.devRef .tc main_v15) : S1x512.Idx → EReal)
      = shapeCast S1x512 (W (Proc.devRef .tc main_arg9) : S512.Idx → EReal) shapeCasts_S512_S1x512 := by
    show StableHlo.after hostOps0 W (Proc.devRef .tc main_v15) = _
    after_results
    rfl
  exact (congrFun e (ix2 (0 : Fin 1) q)).trans (shapeCast_a_1a_apply _ shapeCasts_S512_S1x512 0 q)

/-- The bias vector of argument 11 as a [1, 512] row. -/
theorem host0_b16 (q : Fin 512) :
    (StableHlo.after hostOps0 W (Proc.devRef .tc main_v16) : S1x512.Idx → EReal) (ix2 (0 : Fin 1) q)
      = (W (Proc.devRef .tc main_arg11) : S512.Idx → EReal) (ix1 q) := by
  have e : (StableHlo.after hostOps0 W (Proc.devRef .tc main_v16) : S1x512.Idx → EReal)
      = shapeCast S1x512 (W (Proc.devRef .tc main_arg11) : S512.Idx → EReal) shapeCasts_S512_S1x512 := by
    show StableHlo.after hostOps0 W (Proc.devRef .tc main_v16) = _
    after_results
    rfl
  exact (congrFun e (ix2 (0 : Fin 1) q)).trans (shapeCast_a_1a_apply _ shapeCasts_S512_S1x512 0 q)

/-- The first stretch leaves what it does not write. -/
theorem host0_keep (r : Ref sig .tc) (h : r ∉ hostOps0_W) :
    StableHlo.after hostOps0 W (Proc.devRef .tc r) = W (Proc.devRef .tc r) :=
  StableHlo.after_of_writes_sub hostOps0 W hostOps0_writes h

/-! ## Between the regions -/

/-- Sum, difference and product of extended reals, with the type named: a buffer's entry has the type of its buffer's
    element, which is the extended reals only after the buffer's type is computed. -/
local notation:65 a:65 " +ₑ " b:66 => HAdd.hAdd (α := EReal) (β := EReal) (γ := EReal) a b
local notation:65 a:65 " -ₑ " b:66 => HSub.hSub (α := EReal) (β := EReal) (γ := EReal) a b
local notation:70 a:70 " *ₑ " b:71 => HMul.hMul (α := EReal) (β := EReal) (γ := EReal) a b

/-- The updated memory, transposed: entry (k, q) is (1 − forget) · mem[q,k] + lr · ((g₀[q,k] + g₁[q,k]) · 2⁻²⁴),
    g₀ and g₁ the two halves of the partial-gradient array. -/
theorem host1_upd (k q : Fin 512) :
    (StableHlo.after hostOps1 W (Proc.devRef .tc main_v34) : S512x512.Idx → EReal) (ix2 k q)
      = ((Cert.Spec.one32 -ₑ (W (Proc.devRef .tc main_arg12) : S1.Idx → EReal) (ix1 0)) *ₑ (W (Proc.devRef .tc main_arg8) : S512x512.Idx → EReal) (ix2 q k))
        +ₑ ((W (Proc.devRef .tc main_arg13) : S1.Idx → EReal) (ix1 0)
          *ₑ (((W (Proc.devRef .tc main_v17_1) : S2x512x512.Idx → EReal) (ix3 0 q k) +ₑ (W (Proc.devRef .tc main_v17_1) : S2x512x512.Idx → EReal) (ix3 1 q k)) *ₑ Cert.Spec.scale)) := by
  have e : (StableHlo.after hostOps1 W (Proc.devRef .tc main_v34) : S512x512.Idx → EReal)
      = transpose S512x512 [1, 0]
          (addf (F := Ideal) (φ := .f32)
            (mulf (F := Ideal) (φ := .f32)
              (broadcastInDim S512x512 ![] bcast_S_S512x512
                (subf (F := Ideal) (φ := .f32) (constant (F := Ideal) S_ .f32 0x3F800000#32)
                  (shapeCast S_ (W (Proc.devRef .tc main_arg12) : Arr S1) shapeCasts_S1_S_)))
              (W (Proc.devRef .tc main_arg8) : Arr S512x512))
            (mulf (F := Ideal) (φ := .f32)
              (broadcastInDim S512x512 ![] bcast_S_S512x512 (shapeCast S_ (W (Proc.devRef .tc main_arg13) : Arr S1) shapeCasts_S1_S_))
              (mulf (F := Ideal) (φ := .f32)
                (addf (F := Ideal) (φ := .f32)
                  (shapeCast S512x512 (extractStridedSlice S1x512x512 ![0, 0, 0] (W (Proc.devRef .tc main_v17_1) : Arr S2x512x512)
                    slices_S2x512x512_S1x512x512_0_0_0) shapeCasts_S1x512x512_S512x512)
                  (shapeCast S512x512 (extractStridedSlice S1x512x512 ![1, 0, 0] (W (Proc.devRef .tc main_v17_1) : Arr S2x512x512)
                    slices_S2x512x512_S1x512x512_1_0_0) shapeCasts_S1x512x512_S512x512))
                (broadcastInDim S512x512 ![] bcast_S_S512x512 (constant (F := Ideal) S_ .f32 0x33800000#32)))))
          transposes_S512x512_S512x512_1_0 := by
    show StableHlo.after hostOps1 W (Proc.devRef .tc main_v34) = _
    after_results_simp
    rfl
  refine (congrFun e (ix2 k q)).trans ?_
  rw [transposeW, addf_apply, mulf_apply, mulf_apply, mulf_apply, addf_apply, splatW, splatW, splatW,
    subf_apply, scalar_of, scalar_of, half0, half1]
  rfl

/-- The second stretch leaves what it does not write. -/
theorem host1_keep (r : Ref sig .tc) (h : r ∉ hostOps1_W) :
    StableHlo.after hostOps1 W (Proc.devRef .tc r) = W (Proc.devRef .tc r) :=
  StableHlo.after_of_writes_sub hostOps1 W hostOps1_writes h

/-! ## After the second region -/

/-- The result reshaped to [8, 8192, 512]. -/
theorem host2_out :
    (StableHlo.after hostOps2 W (Proc.devRef .tc main_v36) : S8x8192x512.Idx → EReal)
      = shapeCast S8x8192x512 (W (Proc.devRef .tc main_v35) : S65536x512.Idx → EReal) shapeCasts_S65536x512_S8x8192x512 := by
  show StableHlo.after hostOps2 W (Proc.devRef .tc main_v36) = _
  after_results
  rfl

/-- The last stretch leaves what it does not write. -/
theorem host2_keep (r : Ref sig .tc) (h : r ∉ hostOps2_W) :
    StableHlo.after hostOps2 W (Proc.devRef .tc r) = W (Proc.devRef .tc r) :=
  StableHlo.after_of_writes_sub hostOps2 W hostOps2_writes h

end Cert.KernelIdeal.Host

end
-- ==== Proof.BridgeAlg.lean ====
/-
  The algebra of the bridge, over the specification alone.
  The first kernel's weights carry no output layer: they are the specification's weights with that layer zeroed, and the
  key feature, the residual and the gradient sum do not read it. A row's output is assembled from two affine layers —
  the read of the updated memory at the key feature, then the output projection — when the layers' matrices and biases
  are the specification's; the updated memory may carry its gradient term as (sum) · 2⁻²⁴ instead of 2⁻²⁴ · (sum).
-/
import proofs.«106201_j36953898615485_1_alg».proof.Proof.Spec
import proofs.«106201_j36953898615485_1_alg».proof.Proof.KPay

noncomputable section

open scoped BigOperators

namespace Cert.KernelIdeal.Hand

open Cert.KernelIdeal Cert.KernelIdeal.Gen Idealize.ShloMosaic Idealize.ShloMosaic.ValueIdx
open Cert.Spec

/-- The weights with the output layer zeroed. -/
def strip (w : Weights) : Weights := { w with outM := fun _ _ => 0, outb := fun _ => 0 }

/-- The key feature does not read the output layer. -/
theorem keyFeat_strip (w : Weights) (x : Fin 512 → EReal) : keyFeat (strip w) x = keyFeat w x := rfl

/-- The gradient sum does not read the output layer. -/
theorem gradSum_strip {n : Nat} (w : Weights) (K V : Fin n → Fin 512 → EReal) (i j : Fin 512) :
    gradSum (strip w) K V i j = gradSum w K V i j := rfl

/-- Eight arrays that hold, entry by entry, the first four layers of w are the block weights of w without its output layer. -/
theorem wBlk_eq_strip (v3 : Vec Ideal S512x512 .bf16) (v12 : Vec Ideal S1x512 .f32) (v5 : Vec Ideal S512x512 .bf16)
    (v13 : Vec Ideal S1x512 .f32) (v7 : Vec Ideal S512x512 .bf16) (v14 : Vec Ideal S1x512 .f32)
    (v9 : Vec Ideal S512x512 .bf16) (v15 : Vec Ideal S1x512 .f32) (w : Weights)
    (h3 : ∀ k q, v3 (ix2 k q) = w.inM k q) (h12 : ∀ q, v12 (ix2 (0 : Fin 1) q) = w.inb q)
    (h5 : ∀ k q, v5 (ix2 k q) = w.l0M k q) (h13 : ∀ q, v13 (ix2 (0 : Fin 1) q) = w.l0b q)
    (h7 : ∀ k q, v7 (ix2 k q) = w.l1M k q) (h14 : ∀ q, v14 (ix2 (0 : Fin 1) q) = w.l1b q)
    (h9 : ∀ k q, v9 (ix2 k q) = w.memM k q) (h15 : ∀ q, v15 (ix2 (0 : Fin 1) q) = w.memb q) :
    Cert.KernelIdeal.Pay.wBlk v3 v12 v5 v13 v7 v14 v9 v15 = strip w := by
  have e3 : (fun k q => v3 (ix2 k q)) = w.inM := funext fun k => funext fun q => h3 k q
  have e12 : (fun q => v12 (ix2 (0 : Fin 1) q)) = w.inb := funext fun q => h12 q
  have e5 : (fun k q => v5 (ix2 k q)) = w.l0M := funext fun k => funext fun q => h5 k q
  have e13 : (fun q => v13 (ix2 (0 : Fin 1) q)) = w.l0b := funext fun q => h13 q
  have e7 : (fun k q => v7 (ix2 k q)) = w.l1M := funext fun k => funext fun q => h7 k q
  have e14 : (fun q => v14 (ix2 (0 : Fin 1) q)) = w.l1b := funext fun q => h14 q
  have e9 : (fun k q => v9 (ix2 k q)) = w.memM := funext fun k => funext fun q => h9 k q
  have e15 : (fun q => v15 (ix2 (0 : Fin 1) q)) = w.memb := funext fun q => h15 q
  unfold Cert.KernelIdeal.Pay.wBlk strip
  rw [e3, e12, e5, e13, e7, e14, e9, e15]

/-- A row's output from its two last affine layers: the updated memory read at the key feature, then the output
    projection. The gradient term of the updated memory is given with the scale on the right. -/
theorem G_of_layers {n : Nat} (w : Weights) (fg lr : EReal) (K V : Fin n → Fin 512 → EReal) (r : Fin n) (q : Fin 512)
    (oM : Fin 512 → Fin 512 → EReal) (ob : Fin 512 → EReal) (uM : Fin 512 → Fin 512 → EReal) (mb : Fin 512 → EReal)
    (feat : Fin 512 → EReal)
    (hoM : ∀ k q, oM k q = w.outM k q) (hob : ∀ q, ob q = w.outb q)
    (huM : ∀ k q, uM k q = (one32 - fg) * w.memM k q + lr * (gradSum w K V q k * scale))
    (hmb : ∀ q, mb q = w.memb q) (hfeat : ∀ k, feat k = keyFeat w (K r) k) :
    affineRow oM ob (affineRow uM mb feat) q = G w fg lr K V r q := by
  have eoM : oM = w.outM := funext fun k => funext fun q => hoM k q
  have eob : ob = w.outb := funext hob
  have euM : uM = updatedM w fg lr (fun i j => scale * gradSum w K V i j) := funext fun k => funext fun q => by
    rw [huM k q, mul_comm (gradSum w K V q k) scale]; rfl
  have emb : mb = w.memb := funext hmb
  have efeat : feat = keyFeat w (K r) := funext hfeat
  rw [eoM, eob, euM, emb, efeat]
  rfl

end Cert.KernelIdeal.Hand

end
-- ==== Proof.Bridge.lean ====
/-
  The kernel program computes the specification.
  Walking back from the returned buffer through the program's six boundaries: the last host stretch reshapes the second
  region's result; that result is two affine layers of each row of the first region's feature array, over the updated
  memory (transposed) and the output layer; the feature array holds each key row's feature under the weights the first
  host stretch transposed; the updated memory is (1 − forget) · memory + lr · (the two partial gradients' sum · 2⁻²⁴), and
  the partial gradients add up to the sum over all rows of residual · feature. Every argument reaches each boundary as
  launched. The assembly is the specification's output, up to the order of the two factors of the scaled gradient.
-/
import proofs.«106201_j36953898615485_1_alg».proof.Proof.RunVals
import proofs.«106201_j36953898615485_1_alg».proof.Proof.ValueA
import proofs.«106201_j36953898615485_1_alg».proof.Proof.ValueB
import proofs.«106201_j36953898615485_1_alg».proof.Proof.KHost
import proofs.«106201_j36953898615485_1_alg».proof.Proof.BridgeAlg
import proofs.«106201_j36953898615485_1_alg».proof.Proof.Spec

set_option maxRecDepth 16384

noncomputable section

open scoped BigOperators

namespace Cert.KernelIdeal.Hand

open Cert.KernelIdeal Cert.KernelIdeal.Gen Cert.KernelIdeal.Host
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg) (c : Dev nD)

/-! ## The arguments and the first stretch's results, at the first region's entry -/

/-- A buffer that neither the first host stretch nor the first region writes holds at the first region's exit what it
    held at launch. -/
theorem W2_launch (r : Ref sig .tc) (h0 : r ∉ (hostOps0_W : List (Ref sig .tc))) (hA : ∀ w, Pipeline.arrRef spec0 w ≠ r) :
    W2 m ρ c (Proc.devRef .tc r) = m ((c.tc : Thread nD τ).loc r) :=
  (W2_of_ne m ρ c r hA).trans ((host0_keep (W0 m ρ c) r h0).trans rfl)

/-- The flattened key rows at the first region's entry. -/
theorem V1_rows0 : (V1 m ρ c main_v0 : S65536x512.Idx → EReal)
    = shapeCast S65536x512 (m ((c.tc : Thread nD τ).loc main_arg0) : S8x8192x512.Idx → EReal) shapeCasts_S8x8192x512_S65536x512 :=
  host0_rows0 (W0 m ρ c)

/-- The flattened value rows at the first region's entry. -/
theorem V1_rows1 : (V1 m ρ c main_v1 : S65536x512.Idx → EReal)
    = shapeCast S65536x512 (m ((c.tc : Thread nD τ).loc main_arg1) : S8x8192x512.Idx → EReal) shapeCasts_S8x8192x512_S65536x512 :=
  host0_rows1 (W0 m ρ c)

/-- The first region's weights are the specification's, without the output layer. -/
theorem wA_eq : wA (V1 m ρ) c = strip (Cert.Spec.weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  unfold wA
  exact wBlk_eq_strip _ _ _ _ _ _ _ _ (Cert.Spec.weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (host0_w3 (W0 m ρ c)) (host0_b12 (W0 m ρ c)) (host0_w5 (W0 m ρ c)) (host0_b13 (W0 m ρ c))
    (host0_w7 (W0 m ρ c)) (host0_b14 (W0 m ρ c)) (host0_w9 (W0 m ρ c)) (host0_b15 (W0 m ρ c))

/-! ## The second region's five operands -/

/-- The output matrix, transposed. -/
theorem V3_v11 (k q : Fin 512) :
    (V3 m ρ c main_v11 : S512x512.Idx → EReal) (ix2 k q) = (m ((c.tc : Thread nD τ).loc main_arg10) : S512x512.Idx → EReal) (ix2 q k) := by
  have e : (V3 m ρ c main_v11 : S512x512.Idx → EReal) = V1 m ρ c main_v11 :=
    (host1_keep (W2 m ρ c) main_v11 (by decide)).trans (W2_of_ne m ρ c main_v11 (by decide))
  exact (congrFun e (ix2 k q)).trans (host0_w11 (W0 m ρ c) k q)

/-- The output bias. -/
theorem V3_v16 (q : Fin 512) :
    (V3 m ρ c main_v16 : S1x512.Idx → EReal) (ix2 (0 : Fin 1) q) = (m ((c.tc : Thread nD τ).loc main_arg11) : S512.Idx → EReal) (ix1 q) := by
  have e : (V3 m ρ c main_v16 : S1x512.Idx → EReal) = V1 m ρ c main_v16 :=
    (host1_keep (W2 m ρ c) main_v16 (by decide)).trans (W2_of_ne m ρ c main_v16 (by decide))
  exact (congrFun e (ix2 (0 : Fin 1) q)).trans (host0_b16 (W0 m ρ c) q)

/-- The memory bias: an input of the first region, unchanged through it. -/
theorem V3_v15 (q : Fin 512) :
    (V3 m ρ c main_v15 : S1x512.Idx → EReal) (ix2 (0 : Fin 1) q) = (m ((c.tc : Thread nD τ).loc main_arg9) : S512.Idx → EReal) (ix1 q) := by
  have e : (V3 m ρ c main_v15 : S1x512.Idx → EReal) = V1 m ρ c main_v15 :=
    (host1_keep (W2 m ρ c) main_v15 (by decide)).trans <|
    (W2_arr m ρ c 9).trans <|
    ((datA (V1 m ρ) c).arrAt_in 9 rfl cfg0.N).trans (A_eqA (V1 m ρ) c 9)
  exact (congrFun e (ix2 (0 : Fin 1) q)).trans (host0_b15 (W0 m ρ c) q)

/-- The feature array: row r holds the key feature of key row r. -/
theorem V3_feat (r : Fin 65536) (k : Fin 512) :
    (V3 m ρ c main_v17_0 : S65536x512.Idx → EReal) (ix2 r k) = Cert.Spec.keyFeat (Cert.Spec.weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) ((Cert.Spec.rowsOf (shapeCast Cert.Spec.T2 (m ((c.tc : Thread nD τ).loc main_arg0)) shapeCasts_S8x8192x512_S65536x512)) r) k := by
  have e : (V3 m ρ c main_v17_0 : S65536x512.Idx → EReal) = (datA (V1 m ρ) c).arrAt 10 cfg0.N :=
    (host1_keep (W2 m ρ c) main_v17_0 (by decide)).trans (W2_arr m ρ c 10)
  refine (congrFun e (ix2 r k)).trans ?_
  rw [finalA10 (V1 m ρ) c, wA_eq m ρ c, V1_rows0 m ρ c]
  rfl

/-- Sum, difference and product of extended reals, with the type named: a buffer's entry has the type of its buffer's
    element, which is the extended reals only after the buffer's type is computed. -/
local notation:65 a:65 " +ₑ " b:66 => HAdd.hAdd (α := EReal) (β := EReal) (γ := EReal) a b
local notation:65 a:65 " -ₑ " b:66 => HSub.hSub (α := EReal) (β := EReal) (γ := EReal) a b
local notation:70 a:70 " *ₑ " b:71 => HMul.hMul (α := EReal) (β := EReal) (γ := EReal) a b

/-- The updated memory, transposed; its gradient term carries the scale on the right. -/
theorem V3_v34 (k q : Fin 512) :
    (V3 m ρ c main_v34 : S512x512.Idx → EReal) (ix2 k q)
      = ((Cert.Spec.one32 -ₑ ((m ((c.tc : Thread nD τ).loc main_arg12) : S1.Idx → EReal) (ix1 0))) *ₑ (Cert.Spec.weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).memM k q)
        +ₑ (((m ((c.tc : Thread nD τ).loc main_arg13) : S1.Idx → EReal) (ix1 0)) *ₑ (Cert.Spec.gradSum (Cert.Spec.weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Cert.Spec.rowsOf (shapeCast Cert.Spec.T2 (m ((c.tc : Thread nD τ).loc main_arg0)) shapeCasts_S8x8192x512_S65536x512)) (Cert.Spec.rowsOf (shapeCast Cert.Spec.T2 (m ((c.tc : Thread nD τ).loc main_arg1)) shapeCasts_S8x8192x512_S65536x512)) q k *ₑ Cert.Spec.scale)) := by
  refine (host1_upd (W2 m ρ c) k q).trans ?_
  rw [W2_launch m ρ c main_arg12 (by decide) (by decide), W2_launch m ρ c main_arg8 (by decide) (by decide),
    W2_launch m ρ c main_arg13 (by decide) (by decide),
    show W2 m ρ c (Proc.devRef .tc main_v17_1) = (datA (V1 m ρ) c).arrAt 11 cfg0.N from W2_arr m ρ c 11,
    finalA11 (V1 m ρ) c, gradPlanes_sum (V1 m ρ) c q k, wA_eq m ρ c, V1_rows0 m ρ c, V1_rows1 m ρ c]
  rfl

/-! ## The result -/

/-- The kernel program's returned buffer is the specification's array, reshaped to [8, 8192, 512]. -/
theorem kernel_is_spec (m : (ℓ : Loc nD τ sig) → Buf (Elt Ideal) ℓ) (ρ : Dev nD → PrngReg) (c : Dev nD) :
    W5 (F := Ideal) m ρ c (Proc.devRef .tc main_v36)
      = shapeCast _ (Cert.Spec.out2 shapeCasts_S8x8192x512_S65536x512
          (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)))
          shapeCasts_S65536x512_S8x8192x512 := by
  refine (host2_out (W4 m ρ c)).trans ?_
  refine congrArg (fun x => shapeCast S8x8192x512 x shapeCasts_S65536x512_S8x8192x512) ?_
  refine (W4_arr m ρ c 5).trans ?_
  rw [finalB (V3 m ρ) c]
  funext (i : S65536x512.Idx)
  obtain ⟨r, q, rfl⟩ : ∃ (r : Fin 65536) (q : Fin 512), i = ix2 r q := ⟨i 0, i 1, eq_ix2 i⟩
  exact G_of_layers (Cert.Spec.weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) ((m ((c.tc : Thread nD τ).loc main_arg12) : S1.Idx → EReal) (ix1 0)) ((m ((c.tc : Thread nD τ).loc main_arg13) : S1.Idx → EReal) (ix1 0)) (Cert.Spec.rowsOf (shapeCast Cert.Spec.T2 (m ((c.tc : Thread nD τ).loc main_arg0)) shapeCasts_S8x8192x512_S65536x512)) (Cert.Spec.rowsOf (shapeCast Cert.Spec.T2 (m ((c.tc : Thread nD τ).loc main_arg1)) shapeCasts_S8x8192x512_S65536x512)) r q
    (fun k q => (V3 m ρ c main_v11 : S512x512.Idx → EReal) (ix2 k q))
    (fun q => (V3 m ρ c main_v16 : S1x512.Idx → EReal) (ix2 (0 : Fin 1) q))
    (fun k q => (V3 m ρ c main_v34 : S512x512.Idx → EReal) (ix2 k q))
    (fun q => (V3 m ρ c main_v15 : S1x512.Idx → EReal) (ix2 (0 : Fin 1) q))
    (fun k => (V3 m ρ c main_v17_0 : S65536x512.Idx → EReal) (ix2 r k))
    (V3_v11 m ρ c) (V3_v16 m ρ c) (V3_v34 m ρ c) (V3_v15 m ρ c) (V3_feat m ρ c r)

end Cert.KernelIdeal.Hand

end
-- ==== Proof.RefOps.lean ====
/-
  The reference's building blocks, each read at row/column coordinates on the extended reals:
  a product of a [65536, 512] array with a [512, 512] matrix is, at (r, q), the sum over k of row r's entry k times the
  matrix's entry (k, q); a transposed matrix at (k, q) is the matrix at (q, k); a bias vector broadcast over the rows is,
  at (r, q), its entry q. Together: a row times a transposed weight matrix plus a bias is the affine map of the
  specification. silu written as z · (1 / (1 + exp(−z))) with the literal 1.0 is z · logistic z.
-/
import proofs.«106201_j36953898615485_1_alg».proof.Proof.Spec
import proofs.«106201_j36953898615485_1_alg».proof.Proof.Gen.ReferenceIdeal.Read

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- An f32 array of a given shape, at the extended reals. -/
abbrev Arr (s : Shape) : Type := FVec Ideal s .f32

/-- The f32 word of 1.0 is the extended real 1. -/
theorem one32_eq : Ideal.ofBits .f32 0x3F800000#32 = 1 := by
  simp [Ideal.ofBits, Ideal.ieee]
  rw [← EReal.coe_mul]
  norm_num

/-- Rows times a [512, 512] matrix: entry (r, q) is ∑ₖ y[r,k] · w[k,q]. -/
theorem dot_rows (y : Arr S65536x512) (w : Arr S512x512) (r : Fin 65536) (q : Fin 512) :
    Host.dotGeneral (F := Ideal) (φ₁ := .f32) (φ₂ := .f32) dot_S65536x512_S512x512_S65536x512_1_0_0_1_n_n none y w (ix2 r q)
      = ∑ k : Fin 512, y (ix2 r k) * w (ix2 k q) := by
  simp only [Host.dotGeneral]
  rw [Ideal.dotGeneral_apply, ← Equiv.sum_comp (ValueIdx.contrEquiv1 dot_S65536x512_S512x512_S65536x512_1_0_0_1_n_n 512 rfl rfl).symm]
  refine Finset.sum_congr rfl fun k _ => ?_
  have hk := ValueIdx.contrEquiv1_symm_val dot_S65536x512_S512x512_S65536x512_1_0_0_1_n_n 512 rfl rfl k
  have el : dot_S65536x512_S512x512_S65536x512_1_0_0_1_n_n.lhsIdx (ix2 r q) ((ValueIdx.contrEquiv1 dot_S65536x512_S512x512_S65536x512_1_0_0_1_n_n 512 rfl rfl).symm k) = ix2 r k := funext fun a => Fin.ext (by
    match a with
    | ⟨0, _⟩ => exact lhs_main_v13_0 _ _
    | ⟨1, _⟩ => exact (lhs_main_v13_1 _ _).trans hk)
  have er : dot_S65536x512_S512x512_S65536x512_1_0_0_1_n_n.rhsIdx (ix2 r q) ((ValueIdx.contrEquiv1 dot_S65536x512_S512x512_S65536x512_1_0_0_1_n_n 512 rfl rfl).symm k) = ix2 k q := funext fun a => Fin.ext (by
    match a with
    | ⟨0, _⟩ => exact (rhs_main_v13_0 _ _).trans hk
    | ⟨1, _⟩ => exact rhs_main_v13_1 _ _)
  rw [el, er]

/-- A [512, 65536] array times a [65536, 512] array: entry (i, j) is ∑ᵣ a[i,r] · b[r,j], over all 65536 rows r. -/
theorem dot_cols (a : Arr S512x65536) (b : Arr S65536x512) (i j : Fin 512) :
    Host.dotGeneral (F := Ideal) (φ₁ := .f32) (φ₂ := .f32) dot_S512x65536_S65536x512_S512x512_1_0_0_1_n_n none a b (ix2 i j)
      = ∑ r : Fin 65536, a (ix2 i r) * b (ix2 r j) := by
  simp only [Host.dotGeneral]
  rw [Ideal.dotGeneral_apply, ← Equiv.sum_comp (ValueIdx.contrEquiv1 dot_S512x65536_S65536x512_S512x512_1_0_0_1_n_n 65536 rfl rfl).symm]
  refine Finset.sum_congr rfl fun k _ => ?_
  have hk := ValueIdx.contrEquiv1_symm_val dot_S512x65536_S65536x512_S512x512_1_0_0_1_n_n 65536 rfl rfl k
  have el : dot_S512x65536_S65536x512_S512x512_1_0_0_1_n_n.lhsIdx (ix2 i j) ((ValueIdx.contrEquiv1 dot_S512x65536_S65536x512_S512x512_1_0_0_1_n_n 65536 rfl rfl).symm k) = ix2 i k := funext fun a => Fin.ext (by
    match a with
    | ⟨0, _⟩ => exact lhs_main_v41_0 _ _
    | ⟨1, _⟩ => exact (lhs_main_v41_1 _ _).trans hk)
  have er : dot_S512x65536_S65536x512_S512x512_1_0_0_1_n_n.rhsIdx (ix2 i j) ((ValueIdx.contrEquiv1 dot_S512x65536_S65536x512_S512x512_1_0_0_1_n_n 65536 rfl rfl).symm k) = ix2 k j := funext fun a => Fin.ext (by
    match a with
    | ⟨0, _⟩ => exact (rhs_main_v41_0 _ _).trans hk
    | ⟨1, _⟩ => exact rhs_main_v41_1 _ _)
  rw [el, er]

/-- A transposed [512, 512] matrix at (k, q) is the matrix at (q, k). -/
theorem transposeW (W : Arr S512x512) (k q : Fin 512) :
    transpose S512x512 [1, 0] W transposes_S512x512_S512x512_1_0 (ix2 k q) = W (ix2 q k) :=
  transpose_apply [1, 0] W transposes_S512x512_S512x512_1_0 (ix2 k q) (ix2 q k) (fun b => match b with
    | ⟨0, _⟩ => rfl
    | ⟨1, _⟩ => rfl)

/-- A transposed [65536, 512] array at (i, r) is the array at (r, i). -/
theorem transposeR (y : Arr S65536x512) (i : Fin 512) (r : Fin 65536) :
    transpose S512x65536 [1, 0] y transposes_S65536x512_S512x65536_1_0 (ix2 i r) = y (ix2 r i) :=
  transpose_apply [1, 0] y transposes_S65536x512_S512x65536_1_0 (ix2 i r) (ix2 r i) (fun b => match b with
    | ⟨0, _⟩ => rfl
    | ⟨1, _⟩ => rfl)

/-- A bias vector broadcast over the rows: entry (r, q) is b[q]. -/
theorem bias_rows (b : Arr S512) (r : Fin 65536) (q : Fin 512) :
    broadcastInDim S65536x512 ![0, 1] bcast_S1x512_S65536x512_0_1 (broadcastInDim S1x512 ![1] bcast_S512_S1x512_1 b) (ix2 r q)
      = b (ix1 q) := by
  show val_main_v15 (F := Ideal) b (ix2 r q) = _
  rw [val_main_v15_apply, val_main_v14_apply]
  exact congrArg b (funext fun a => Fin.ext (by match a with | ⟨0, _⟩ => rfl))

/-- Rows times a transposed weight matrix, plus a broadcast bias: the specification's affine map on each row. -/
theorem affine_rows (y : Arr S65536x512) (W : Arr S512x512) (b : Arr S512) (r : Fin 65536) (q : Fin 512) :
    addf (Host.dotGeneral (F := Ideal) (φ₁ := .f32) (φ₂ := .f32) dot_S65536x512_S512x512_S65536x512_1_0_0_1_n_n none y
            (transpose S512x512 [1, 0] W transposes_S512x512_S512x512_1_0))
         (broadcastInDim S65536x512 ![0, 1] bcast_S1x512_S65536x512_0_1 (broadcastInDim S1x512 ![1] bcast_S512_S1x512_1 b)) (ix2 r q)
      = Cert.Spec.affineRow (fun k q => W (ix2 q k)) (fun q => b (ix1 q)) (fun k => y (ix2 r k)) q := by
  rw [addf_apply, dot_rows, bias_rows]
  unfold Cert.Spec.affineRow
  refine congrArg (· + b (ix1 q)) (Finset.sum_congr rfl fun k _ => ?_)
  rw [transposeW]

/-- The literal 1.0 broadcast to [65536, 512] is 1 everywhere. -/
theorem ones_at (i : S65536x512.Idx) :
    broadcastInDim S65536x512 ![] bcast_S_S65536x512 (constant (F := Ideal) S_ .f32 0x3F800000#32) i = 1 := by
  show val_main_call2_v2 (F := Ideal) i = 1
  rw [val_main_call2_v2_apply, val_main_call2_cst_apply]
  exact one32_eq

/-- silu as the reference writes it, z · (1 / (1 + exp(−z))), is z · logistic z. -/
theorem silu_rows (z : Arr S65536x512) (r : Fin 65536) (q : Fin 512) :
    mulf z (Host.divf (broadcastInDim S65536x512 ![] bcast_S_S65536x512 (constant (F := Ideal) S_ .f32 0x3F800000#32))
      (addf (broadcastInDim S65536x512 ![] bcast_S_S65536x512 (constant (F := Ideal) S_ .f32 0x3F800000#32))
        (Host.exp (Host.negf z)))) (ix2 r q)
      = Cert.Spec.siluRow (fun q => z (ix2 r q)) q := by
  show z (ix2 r q) * Ideal.div (broadcastInDim S65536x512 ![] bcast_S_S65536x512 (constant (F := Ideal) S_ .f32 0x3F800000#32) (ix2 r q))
      (broadcastInDim S65536x512 ![] bcast_S_S65536x512 (constant (F := Ideal) S_ .f32 0x3F800000#32) (ix2 r q) + Ideal.exp (-(z (ix2 r q)))) = _
  rw [ones_at]
  rfl

end Cert.RefSide

end
-- ==== Proof.RefNorm.lean ====
/-
  Row normalisation and the scalar arguments, read at coordinates on the extended reals.
  A row of the flattened key (or value) array divided by max(√(∑ⱼ xⱼ²), ε) is the specification's unit row (the sum's
  initial value is the literal 0.0); a one-element array reshaped to a scalar is its entry 0; a scalar broadcast to
  [512, 512] is that scalar everywhere.
-/
import proofs.«106201_j36953898615485_1_alg».proof.Proof.RefOps

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The flattened key (or value) array divided row-wise by its floored length: the unit row of row r. -/
theorem unit_rows (x : Arr S8x8192x512) (r : Fin 65536) (k : Fin 512) :
    val_main_v5 (F := Ideal) x (ix2 r k)
      = Cert.Spec.unitRow (Cert.Spec.rowsOf (shapeCast Cert.Spec.T2 x shapeCasts_S8x8192x512_S65536x512) r) k := by
  have hidx : ∀ k' : Fin 512, idx_main_call0_v1 (idx_main_call0_v2 (idx_main_v4 (ix2 r k))) k' = ix2 r k' :=
    fun k' => funext fun a => Fin.ext (by match a with | ⟨0, _⟩ => rfl | ⟨1, _⟩ => rfl)
  rw [val_main_v5_apply, val_main_v4_apply, val_main_v3_apply, val_main_v1_apply, val_main_call0_v2_apply,
    val_main_call0_v1_apply, val_main_v2_apply, val_main_cst_apply, val_main_call0_cst_apply]
  simp only [val_main_call0_v0_apply, hidx, Ideal.hostDivf_def, Ideal.maximumf_def, Ideal.hostUnary_sqrt_def,
    Ideal.ofBits_def, Ideal.mulf_def, Ideal.ofBits_zero_f32, zero_add]
  rfl

/-- The second normalisation is the same function of its array as the first. -/
theorem v11_eq_v5 (x : Arr S8x8192x512) : val_main_v11 (F := Ideal) x = val_main_v5 (F := Ideal) x := rfl

/-- A one-element array reshaped to a scalar is its entry 0. -/
theorem scalar_of (x : Arr S1) (j : S_.Idx) : shapeCast S_ x shapeCasts_S1_S_ j = x (ix1 0) :=
  shapeCast_apply x shapeCasts_S1_S_ j (ix1 0) (by
    have hn : S_.numel = 1 := by decide
    have h2 := (S_.rowMajor j).isLt
    rw [Shape.rowMajor_val_one]
    show (0 : Nat) = _
    omega)

/-- A scalar broadcast to [512, 512] is that scalar at every entry. -/
theorem splatW (c : Arr S_) (i : S512x512.Idx) : broadcastInDim S512x512 ![] bcast_S_S512x512 c i = c ix0 :=
  broadcastInDim_apply _ bcast_S_S512x512 c i ix0 (fun a => a.elim0)

end Cert.RefSide

end
-- ==== Proof.RefLayers.lean ====
/-
  The reference's stages on the key side, each read at (row, column) against the specification:
  the input projection of a unit row; the first and second silu layers; the key feature; the memory's prediction;
  the projected unit value row; the residual.
-/
import proofs.«106201_j36953898615485_1_alg».proof.Proof.RefNorm

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 x1 : Arr S8x8192x512) (x2 : Arr S512x512) (x3 : Arr S512) (x4 : Arr S512x512) (x5 : Arr S512)
  (x6 : Arr S512x512) (x7 : Arr S512) (x8 : Arr S512x512) (x9 : Arr S512) (x10 : Arr S512x512) (x11 : Arr S512)
  (x12 x13 : Arr S1)

/-- The input projection of the unit key rows. -/
theorem v16_rows (r : Fin 65536) (q : Fin 512) :
    val_main_v16 (F := Ideal) x0 x2 x3 (ix2 r q) = Cert.Spec.valProj (Cert.Spec.weightsOf x2 x3 x4 x5 x6 x7 x8 x9 x10 x11) ((Cert.Spec.rowsOf (shapeCast Cert.Spec.T2 x0 shapeCasts_S8x8192x512_S65536x512)) r) q := by
  unfold val_main_v16 val_main_v13 val_main_v12 val_main_v15 val_main_v14
  rw [affine_rows]
  simp only [unit_rows]
  rfl

/-- The input projection of the unit value rows: the residual's target. -/
theorem v21_rows (r : Fin 65536) (q : Fin 512) :
    val_main_v21 (F := Ideal) x1 x2 x3 (ix2 r q) = Cert.Spec.valProj (Cert.Spec.weightsOf x2 x3 x4 x5 x6 x7 x8 x9 x10 x11) ((Cert.Spec.rowsOf (shapeCast Cert.Spec.T2 x1 shapeCasts_S8x8192x512_S65536x512)) r) q := by
  unfold val_main_v21 val_main_v18 val_main_v17 val_main_v20 val_main_v19
  rw [affine_rows, v11_eq_v5]
  simp only [unit_rows]
  rfl

/-- The first hidden layer before its silu. -/
theorem v26_rows (r : Fin 65536) (q : Fin 512) :
    val_main_v26 (F := Ideal) x0 x2 x3 x4 x5 (ix2 r q)
      = Cert.Spec.affineRow (Cert.Spec.weightsOf x2 x3 x4 x5 x6 x7 x8 x9 x10 x11).l0M (Cert.Spec.weightsOf x2 x3 x4 x5 x6 x7 x8 x9 x10 x11).l0b (Cert.Spec.valProj (Cert.Spec.weightsOf x2 x3 x4 x5 x6 x7 x8 x9 x10 x11) ((Cert.Spec.rowsOf (shapeCast Cert.Spec.T2 x0 shapeCasts_S8x8192x512_S65536x512)) r)) q := by
  unfold val_main_v26 val_main_v23 val_main_v22 val_main_v25 val_main_v24
  rw [affine_rows]
  simp only [v16_rows x0 x2 x3 x4 x5 x6 x7 x8 x9 x10 x11]
  rfl

/-- The first hidden layer. -/
theorem v27_rows (r : Fin 65536) (q : Fin 512) :
    val_main_v27 (F := Ideal) x0 x2 x3 x4 x5 (ix2 r q)
      = Cert.Spec.siluRow (Cert.Spec.affineRow (Cert.Spec.weightsOf x2 x3 x4 x5 x6 x7 x8 x9 x10 x11).l0M (Cert.Spec.weightsOf x2 x3 x4 x5 x6 x7 x8 x9 x10 x11).l0b (Cert.Spec.valProj (Cert.Spec.weightsOf x2 x3 x4 x5 x6 x7 x8 x9 x10 x11) ((Cert.Spec.rowsOf (shapeCast Cert.Spec.T2 x0 shapeCasts_S8x8192x512_S65536x512)) r))) q := by
  unfold val_main_v27 val_main_call2_v5 val_main_call2_v4 val_main_call2_v3 val_main_call2_v2 val_main_call2_v1
    val_main_call2_v0 val_main_call2_cst val_main_call2_cst_0
  rw [silu_rows]
  simp only [v26_rows x0 x2 x3 x4 x5 x6 x7 x8 x9 x10 x11]

/-- The second hidden layer before its silu. -/
theorem v32_rows (r : Fin 65536) (q : Fin 512) :
    val_main_v32 (F := Ideal) x0 x2 x3 x4 x5 x6 x7 (ix2 r q)
      = Cert.Spec.affineRow (Cert.Spec.weightsOf x2 x3 x4 x5 x6 x7 x8 x9 x10 x11).l1M (Cert.Spec.weightsOf x2 x3 x4 x5 x6 x7 x8 x9 x10 x11).l1b
          (Cert.Spec.siluRow (Cert.Spec.affineRow (Cert.Spec.weightsOf x2 x3 x4 x5 x6 x7 x8 x9 x10 x11).l0M (Cert.Spec.weightsOf x2 x3 x4 x5 x6 x7 x8 x9 x10 x11).l0b (Cert.Spec.valProj (Cert.Spec.weightsOf x2 x3 x4 x5 x6 x7 x8 x9 x10 x11) ((Cert.Spec.rowsOf (shapeCast Cert.Spec.T2 x0 shapeCasts_S8x8192x512_S65536x512)) r)))) q := by
  unfold val_main_v32 val_main_v29 val_main_v28 val_main_v31 val_main_v30
  rw [affine_rows]
  simp only [v27_rows x0 x2 x3 x4 x5 x6 x7 x8 x9 x10 x11]
  rfl

/-- The key feature of row r. -/
theorem v33_rows (r : Fin 65536) (q : Fin 512) :
    val_main_v33 (F := Ideal) x0 x2 x3 x4 x5 x6 x7 (ix2 r q) = Cert.Spec.keyFeat (Cert.Spec.weightsOf x2 x3 x4 x5 x6 x7 x8 x9 x10 x11) ((Cert.Spec.rowsOf (shapeCast Cert.Spec.T2 x0 shapeCasts_S8x8192x512_S65536x512)) r) q := by
  unfold val_main_v33 val_main_call3_v5 val_main_call3_v4 val_main_call3_v3 val_main_call3_v2 val_main_call3_v1
    val_main_call3_v0 val_main_call3_cst val_main_call3_cst_0
  rw [silu_rows]
  simp only [v32_rows x0 x2 x3 x4 x5 x6 x7 x8 x9 x10 x11]
  rfl

/-- The memory's prediction from the key feature. -/
theorem v38_rows (r : Fin 65536) (q : Fin 512) :
    val_main_v38 (F := Ideal) x0 x2 x3 x4 x5 x6 x7 x8 x9 (ix2 r q)
      = Cert.Spec.affineRow (Cert.Spec.weightsOf x2 x3 x4 x5 x6 x7 x8 x9 x10 x11).memM (Cert.Spec.weightsOf x2 x3 x4 x5 x6 x7 x8 x9 x10 x11).memb (Cert.Spec.keyFeat (Cert.Spec.weightsOf x2 x3 x4 x5 x6 x7 x8 x9 x10 x11) ((Cert.Spec.rowsOf (shapeCast Cert.Spec.T2 x0 shapeCasts_S8x8192x512_S65536x512)) r)) q := by
  unfold val_main_v38 val_main_v35 val_main_v34 val_main_v37 val_main_v36
  rw [affine_rows]
  simp only [v33_rows x0 x2 x3 x4 x5 x6 x7 x8 x9 x10 x11]
  rfl

/-- The residual of row r: prediction minus target. -/
theorem v39_rows (r : Fin 65536) (q : Fin 512) :
    val_main_v39 (F := Ideal) x0 x1 x2 x3 x4 x5 x6 x7 x8 x9 (ix2 r q) = Cert.Spec.resid (Cert.Spec.weightsOf x2 x3 x4 x5 x6 x7 x8 x9 x10 x11) ((Cert.Spec.rowsOf (shapeCast Cert.Spec.T2 x0 shapeCasts_S8x8192x512_S65536x512)) r) ((Cert.Spec.rowsOf (shapeCast Cert.Spec.T2 x1 shapeCasts_S8x8192x512_S65536x512)) r) q := by
  unfold val_main_v39
  rw [subf_apply, v38_rows x0 x2 x3 x4 x5 x6 x7 x8 x9 x10 x11, v21_rows x1 x2 x3 x4 x5 x6 x7 x8 x9 x10 x11]
  rfl

end Cert.RefSide

end
-- ==== Proof.RefGrad.lean ====
/-
  The gradient and the updated memory, read at coordinates against the specification:
  the transposed residuals times the key features sum, over ALL 65536 rows r, residual(r)ᵢ · feature(r)ⱼ; the literal
  2⁻²⁴ scales it; the updated memory at (q, k) is (1 − forget) · mem[q,k] + lr · gradient[q,k].
-/
import proofs.«106201_j36953898615485_1_alg».proof.Proof.RefLayers

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 x1 : Arr S8x8192x512) (x2 : Arr S512x512) (x3 : Arr S512) (x4 : Arr S512x512) (x5 : Arr S512)
  (x6 : Arr S512x512) (x7 : Arr S512) (x8 : Arr S512x512) (x9 : Arr S512) (x10 : Arr S512x512) (x11 : Arr S512)
  (x12 x13 : Arr S1)

/-- The unscaled gradient: entry (i, j) sums residual(r)ᵢ · feature(r)ⱼ over all rows r. -/
theorem v41_at (i j : Fin 512) :
    val_main_v41 (F := Ideal) x0 x1 x2 x3 x4 x5 x6 x7 x8 x9 (ix2 i j) = Cert.Spec.gradSum (Cert.Spec.weightsOf x2 x3 x4 x5 x6 x7 x8 x9 x10 x11) (Cert.Spec.rowsOf (shapeCast Cert.Spec.T2 x0 shapeCasts_S8x8192x512_S65536x512)) (Cert.Spec.rowsOf (shapeCast Cert.Spec.T2 x1 shapeCasts_S8x8192x512_S65536x512)) i j := by
  unfold val_main_v41 val_main_v40
  rw [dot_cols]
  unfold Cert.Spec.gradSum
  refine Finset.sum_congr rfl fun r _ => ?_
  rw [transposeR, v39_rows x0 x1 x2 x3 x4 x5 x6 x7 x8 x9 x10 x11, v33_rows x0 x2 x3 x4 x5 x6 x7 x8 x9 x10 x11]

/-- The scaled gradient. -/
theorem v43_at (i j : Fin 512) :
    val_main_v43 (F := Ideal) x0 x1 x2 x3 x4 x5 x6 x7 x8 x9 (ix2 i j) = Cert.Spec.scale * Cert.Spec.gradSum (Cert.Spec.weightsOf x2 x3 x4 x5 x6 x7 x8 x9 x10 x11) (Cert.Spec.rowsOf (shapeCast Cert.Spec.T2 x0 shapeCasts_S8x8192x512_S65536x512)) (Cert.Spec.rowsOf (shapeCast Cert.Spec.T2 x1 shapeCasts_S8x8192x512_S65536x512)) i j := by
  unfold val_main_v43 val_main_v42 val_main_cst_1
  rw [mulf_apply, splatW, v41_at x0 x1 x2 x3 x4 x5 x6 x7 x8 x9 x10 x11]
  rfl

/-- The updated memory as stored, [output, input]: entry (q, k) is the specification's updated weight from k to q. -/
theorem v51_at (q k : Fin 512) :
    val_main_v51 (F := Ideal) x0 x1 x2 x3 x4 x5 x6 x7 x8 x9 x12 x13 (ix2 q k)
      = Cert.Spec.updatedM (Cert.Spec.weightsOf x2 x3 x4 x5 x6 x7 x8 x9 x10 x11) (x12 (ix1 0)) (x13 (ix1 0)) (fun i j => Cert.Spec.scale * Cert.Spec.gradSum (Cert.Spec.weightsOf x2 x3 x4 x5 x6 x7 x8 x9 x10 x11) (Cert.Spec.rowsOf (shapeCast Cert.Spec.T2 x0 shapeCasts_S8x8192x512_S65536x512)) (Cert.Spec.rowsOf (shapeCast Cert.Spec.T2 x1 shapeCasts_S8x8192x512_S65536x512)) i j) k q := by
  unfold val_main_v51 val_main_v47 val_main_v46 val_main_v45 val_main_v44 val_main_cst_2 val_main_v50 val_main_v49 val_main_v48
  rw [addf_apply, mulf_apply, mulf_apply, splatW, splatW, subf_apply, scalar_of, scalar_of, v43_at x0 x1 x2 x3 x4 x5 x6 x7 x8 x9 x10 x11]
  rfl

end Cert.RefSide

end
-- ==== Proof.RefIsSpec.lean ====
/-
  The reference program computes the specification.
  A row's read of the updated memory at its key feature, then the output projection, is the specification's output row;
  the composed term of the reference is therefore the specification's [65536, 512] array reshaped to [8, 8192, 512].
-/
import proofs.«106201_j36953898615485_1_alg».proof.Proof.RefGrad

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 x1 : Arr S8x8192x512) (x2 : Arr S512x512) (x3 : Arr S512) (x4 : Arr S512x512) (x5 : Arr S512)
  (x6 : Arr S512x512) (x7 : Arr S512) (x8 : Arr S512x512) (x9 : Arr S512) (x10 : Arr S512x512) (x11 : Arr S512)
  (x12 x13 : Arr S1)

/-- The read of the updated memory at the key feature of row r. -/
theorem v56_rows (r : Fin 65536) (q : Fin 512) :
    val_main_v56 (F := Ideal) x0 x1 x2 x3 x4 x5 x6 x7 x8 x9 x12 x13 (ix2 r q)
      = Cert.Spec.affineRow (Cert.Spec.updatedM (Cert.Spec.weightsOf x2 x3 x4 x5 x6 x7 x8 x9 x10 x11) (x12 (ix1 0)) (x13 (ix1 0)) (fun i j => Cert.Spec.scale * Cert.Spec.gradSum (Cert.Spec.weightsOf x2 x3 x4 x5 x6 x7 x8 x9 x10 x11) (Cert.Spec.rowsOf (shapeCast Cert.Spec.T2 x0 shapeCasts_S8x8192x512_S65536x512)) (Cert.Spec.rowsOf (shapeCast Cert.Spec.T2 x1 shapeCasts_S8x8192x512_S65536x512)) i j)) (Cert.Spec.weightsOf x2 x3 x4 x5 x6 x7 x8 x9 x10 x11).memb
          (Cert.Spec.keyFeat (Cert.Spec.weightsOf x2 x3 x4 x5 x6 x7 x8 x9 x10 x11) ((Cert.Spec.rowsOf (shapeCast Cert.Spec.T2 x0 shapeCasts_S8x8192x512_S65536x512)) r)) q := by
  unfold val_main_v56 val_main_v53 val_main_v52 val_main_v55 val_main_v54
  rw [affine_rows]
  simp only [v51_at x0 x1 x2 x3 x4 x5 x6 x7 x8 x9 x10 x11 x12 x13, v33_rows x0 x2 x3 x4 x5 x6 x7 x8 x9 x10 x11] <;> rfl

/-- The output at (r, q) is the specification's. -/
theorem v61_rows (r : Fin 65536) (q : Fin 512) :
    val_main_v61 (F := Ideal) x0 x1 x2 x3 x4 x5 x6 x7 x8 x9 x10 x11 x12 x13 (ix2 r q)
      = Cert.Spec.G (Cert.Spec.weightsOf x2 x3 x4 x5 x6 x7 x8 x9 x10 x11) (x12 (ix1 0)) (x13 (ix1 0)) (Cert.Spec.rowsOf (shapeCast Cert.Spec.T2 x0 shapeCasts_S8x8192x512_S65536x512)) (Cert.Spec.rowsOf (shapeCast Cert.Spec.T2 x1 shapeCasts_S8x8192x512_S65536x512)) r q := by
  unfold val_main_v61 val_main_v58 val_main_v57 val_main_v60 val_main_v59
  rw [affine_rows]
  simp only [v56_rows x0 x1 x2 x3 x4 x5 x6 x7 x8 x9 x10 x11 x12 x13] <;> rfl

/-- The reference's [65536, 512] result is the specification's array. -/
theorem v61_eq :
    val_main_v61 (F := Ideal) x0 x1 x2 x3 x4 x5 x6 x7 x8 x9 x10 x11 x12 x13 = Cert.Spec.out2 shapeCasts_S8x8192x512_S65536x512 x0 x1 x2 x3 x4 x5 x6 x7 x8 x9 x10 x11 x12 x13 := by
  funext (i : S65536x512.Idx)
  obtain ⟨r, q, rfl⟩ : ∃ (r : Fin 65536) (q : Fin 512), i = ix2 r q := ⟨i 0, i 1, eq_ix2 i⟩
  exact v61_rows x0 x1 x2 x3 x4 x5 x6 x7 x8 x9 x10 x11 x12 x13 r q

/-- The reference's composed term is the specification's array, reshaped to [8, 8192, 512]. -/
theorem ref_is_spec (m : (ℓ : Loc nD τ sig) → Buf (Elt Ideal) ℓ) (c : Dev nD) :
    Cert.ReferenceIdeal.Value.res_out0 (F := Ideal) m c
      = shapeCast _ (Cert.Spec.out2 shapeCasts_S8x8192x512_S65536x512
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)))
          shapeCasts_S65536x512_S8x8192x512 := by
  show Cert.ReferenceIdeal.Value.res_main_v62 m c = _
  rw [val_main_v62_eq]
  unfold val_main_v62
  rw [v61_eq]

end Cert.RefSide

end
-- ==== Proof.lean ====
/-
  The certificate's five claims.

  Both programs compute, on the extended reals, one step of a memory layer over 65536 rows of 512 entries: each key and
  value row is scaled to unit length (its length floored at the f32 nearest 1e-12), projected, the key rows passed through
  two silu layers into key features; the memory predicts each value target from its key feature, and the residuals
  against the features, summed over ALL rows and scaled by 2⁻²⁴, are the gradient; the memory is updated to
  (1 − forget)·mem + lr·gradient, read again at the key features and projected out (Proof/Spec.lean states this function).

  The reference does it in one pass of whole-array operations. The kernel program does it in two sweeps over blocks of 1024
  rows: the first sweep, split in two halves of 32 blocks, stores each block's key features and accumulates each half's
  part of the gradient (a running total restarted at the start of each half); host operations add the two halves, scale and
  update the memory; the second sweep reads the updated memory at the stored features. The two agree because a sum over all
  rows may be taken block by block and half by half (addition on the extended reals is commutative and associative, and
  adding zero changes nothing) and because the scale may stand on either side of the product; no finiteness is needed, so
  the precondition is never opened. A change of float format is the identity on the extended reals, and the kernel's
  logistic is 1 / (1 + e⁻ˣ), the expression the reference spells out.

  The three frames: the reference's is its run with the result dropped; each kernel program's run is assembled from its
  two regions and three stretches of host operations, the first region carrying the running total between its grid points.
  The idealized kernel is the kernel's own text read at the extended reals (no rewrite), so `preserves` asks nothing.
-/
import proofs.«106201_j36953898615485_1_alg».proof.Defs
import proofs.«106201_j36953898615485_1_alg».proof.Proof.Gen.Kernel
import proofs.«106201_j36953898615485_1_alg».proof.Proof.Gen.KernelIdeal
import proofs.«106201_j36953898615485_1_alg».proof.Proof.Gen.ReferenceIdeal
import proofs.«106201_j36953898615485_1_alg».proof.Proof.Gen.Pre_finite_inputs
import proofs.«106201_j36953898615485_1_alg».proof.Proof.Gen.ReferenceIdeal.Run
import proofs.«106201_j36953898615485_1_alg».proof.Proof.RunAll
import proofs.«106201_j36953898615485_1_alg».proof.Proof.RunAllK
import proofs.«106201_j36953898615485_1_alg».proof.Proof.Bridge
import proofs.«106201_j36953898615485_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame_all m ρ

/-- So does the kernel program read at the extended reals. -/
theorem frame_ki : Cert.frame_KernelIdeal := fun m ρ _ => Cert.KernelIdeal.Hand.frame_all m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the fourteen arguments both programs end with the specification's array of those
    arguments in their result buffer, and with the arguments unchanged. -/
theorem algebraic : Cert.algebraic_KernelIdeal_ReferenceIdeal := by
  intro m ρ m' ρ' _ hagree
  refine ⟨fun c => shapeCast _ (Cert.Spec.out2 Cert.KernelIdeal.Gen.shapeCasts_S8x8192x512_S65536x512
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)))
      Cert.KernelIdeal.Gen.shapeCasts_S65536x512_S8x8192x512, ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v36 (by decide))).trans (Cert.KernelIdeal.Hand.kernel_is_spec m ρ c), ?_⟩
    exact ⟨(h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c),
      (h c _ (Cert.KernelIdeal.Hand.mem_uc Cert.KernelIdeal.main_arg9 (by decide))).trans (Cert.KernelIdeal.Hand.W5_main_arg9 m ρ c),
      (h c _ (Cert.KernelIdeal.Hand.mem_uc Cert.KernelIdeal.main_arg10 (by decide))).trans (Cert.KernelIdeal.Hand.W5_main_arg10 m ρ c),
      (h c _ (Cert.KernelIdeal.Hand.mem_uc Cert.KernelIdeal.main_arg11 (by decide))).trans (Cert.KernelIdeal.Hand.W5_main_arg11 m ρ c),
      (h c _ (Cert.KernelIdeal.Hand.mem_uc Cert.KernelIdeal.main_arg12 (by decide))).trans (Cert.KernelIdeal.Hand.W5_main_arg12 m ρ c),
      (h c _ (Cert.KernelIdeal.Hand.mem_uc Cert.KernelIdeal.main_arg13 (by decide))).trans (Cert.KernelIdeal.Hand.W5_main_arg13 m ρ c)⟩
  · refine (θ_run Cert.ReferenceIdeal.defs _ _).mono (fun _ h c => ⟨(h c).1.trans ?_, (h c).2⟩)
      (Cert.ReferenceIdeal.Value.run (F := Ideal) m' ρ')
    refine (Cert.RefSide.ref_is_spec m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
